-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v328) = v0 c
          ∧ r.2.mem ((c.tc : Thread Cert.ReferenceIdeal.nD Cert.ReferenceIdeal.τ).loc Cert.ReferenceIdeal.main_v323) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x196x512 : Shape := ⟨3, ![2048, 196, 512]⟩
abbrev S_ : Shape := ⟨0, ![]⟩

class Facts : Prop where
  bcast_S_S2048x196x512 : S_.BroadcastsInDim S2048x196x512 (![] : Fin 0 → Fin S2048x196x512.rank)
  reducesTo_S2048x196x512_S_d0_1_2 : S2048x196x512.ReducesTo [0, 1, 2] S_
  h_S_ : 0 < S_.numel

variable [Facts]

def fn {F : FTy → Type} [FloatOps F] (main_arg0 : FVec F S2048x196x512 .f32) : IVec S_ 1 :=
  let main_v0 : FVec F S2048x196x512 .f32 := Host.absf main_arg0
  let main_cst : FVec F S_ .f32 := constant S_ .f32 0x7F800000#32
  let main_v1 : FVec F S2048x196x512 .f32 := broadcastInDim S2048x196x512 ![] bcast_S_S2048x196x512 main_cst
  let main_v2 : IVec S2048x196x512 1 := cmpf .olt main_v0 main_v1
  let main_c : IVec S_ 1 := constantI S_ 1 1#1
  let main_v3 : IVec S_ 1 := (fun x v => Host.reduce IntOp.andi x v reducesTo_S2048x196x512_S_d0_1_2 h_S_) main_v2 main_c
  main_v3
-- ==== Kernel.lean ====
abbrev S2048x196x512 : Shape := ⟨3, ![2048, 196, 512]⟩
abbrev S2048x2x512 : Shape := ⟨3, ![2048, 2, 512]⟩
abbrev S2048x2x256 : Shape := ⟨3, ![2048, 2, 256]⟩
abbrev S32x196x512 : Shape := ⟨3, ![32, 196, 512]⟩
abbrev S32x2x512 : Shape := ⟨3, ![32, 2, 512]⟩
abbrev S32x2x256 : Shape := ⟨3, ![32, 2, 256]⟩
abbrev S32x196 : Shape := ⟨2, ![32, 196]⟩
abbrev S32x1x512 : Shape := ⟨3, ![32, 1, 512]⟩
abbrev S32x2x196 : Shape := ⟨3, ![32, 2, 196]⟩
abbrev S32x2 : Shape := ⟨2, ![32, 2]⟩
abbrev S32x2x1 : Shape := ⟨3, ![32, 2, 1]⟩
abbrev S32x1x196 : Shape := ⟨3, ![32, 1, 196]⟩
abbrev S32x2x60 : Shape := ⟨3, ![32, 2, 60]⟩
abbrev S2048x2x196 : Shape := ⟨3, ![2048, 2, 196]⟩

abbrev nBuf : Space → Nat
  | .hbm => 4
  | .vmem => 7
  | .smem => 0
  | _ => 0

abbrev bufTy : (tb : Table) → Fin (tcTables nBuf tb) → BufTy
  | .hbm, ⟨0, _⟩ => ⟨S2048x196x512, .f32⟩
  | .hbm, ⟨1, _⟩ => ⟨S2048x2x512, .f32⟩
  | .hbm, ⟨2, _⟩ => ⟨S2048x2x256, .f32⟩
  | .hbm, ⟨3, _⟩ => ⟨S2048x2x196, .f32⟩
  | .local _ .vmem, ⟨0, _⟩ => ⟨S32x196x512, .f32⟩
  | .local _ .vmem, ⟨1, _⟩ => ⟨S32x196x512, .f32⟩
  | .local _ .vmem, ⟨2, _⟩ => ⟨S32x2x512, .f32⟩
  | .local _ .vmem, ⟨3, _⟩ => ⟨S32x2x512, .f32⟩
  | .local _ .vmem, ⟨4, _⟩ => ⟨S32x2x256, .f32⟩
  | .local _ .vmem, ⟨5, _⟩ => ⟨S32x2x256, .f32⟩
  | .local _ .vmem, ⟨6, _⟩ => ⟨S32x196x512, .bf16⟩
  | _, _ => ⟨S2048x196x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x196x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x2x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S32x196x512_S32x196x512_0_0_0 : ∀ a, (![0, 0, 0] : Fin 3 → Nat) a + S32x196x512.size a ≤ S32x196x512.size a
  h_S32x196x512 : 0 < S32x196x512.numel
  bitsLt_bf16_f32 : FTy.bits .bf16 < FTy.bits .f32
  shapeCasts_S32x196x512_S32x196x512 : S32x196x512.ShapeCasts S32x196x512
  packedbf16_S32x196x512_S32x196x512_0_0_0 : (Rect.unit (s := S32x196x512) ![0, 0, 0] S32x196x512.size inb_S32x196x512_S32x196x512_0_0_0).PackedRows (EltTy.packing .bf16)
  reduces_S32x196x512_S32x196 : S32x196x512.Reduces [2] S32x196
  inb_S32x196x512_S32x1x512_0_50_0 : ∀ a, (![0, 50, 0] : Fin 3 → Nat) a + S32x1x512.size a ≤ S32x196x512.size a
  h_S32x1x512 : 0 < S32x1x512.numel
  inb_S32x196x512_S32x1x512_0_98_0 : ∀ a, (![0, 98, 0] : Fin 3 → Nat) a + S32x1x512.size a ≤ S32x196x512.size a
  concatenates_S32x1x512_S32x1x512_S32x2x512_d1 : Shape.Concatenates [S32x1x512, S32x1x512] S32x2x512 1
  reduces_S32x2x512_S32x2 : S32x2x512.Reduces [2] S32x2
  shapeCasts_S32x2_S32x2x1 : S32x2.ShapeCasts S32x2x1
  broadcasts_S32x2x1_S32x2x196 : S32x2x1.Broadcasts S32x2x196
  shapeCasts_S32x196_S32x1x196 : S32x196.ShapeCasts S32x1x196
  broadcasts_S32x1x196_S32x2x196 : S32x1x196.Broadcasts S32x2x196
  slices_S32x2x196_o0_0_0_S32x1x196 : S32x2x196.Slices ![0, 0, 0] S32x1x196
  slices_S32x2x196_o0_1_0_S32x1x196 : S32x2x196.Slices ![0, 1, 0] S32x1x196
  concatenates_S32x1x196_S32x1x196_S32x2x196_d1 : Shape.Concatenates [S32x1x196, S32x1x196] S32x2x196 1
  reduces_S32x2x196_S32x2 : S32x2x196.Reduces [2] S32x2
  broadcasts_S32x2x1_S32x2x512 : S32x2x1.Broadcasts S32x2x512
  inb_S32x2x512_S32x2x512_0_0_0 : ∀ a, (![0, 0, 0] : Fin 3 → Nat) a + S32x2x512.size a ≤ S32x2x512.size a
  h_S32x2x512 : 0 < S32x2x512.numel
  concatenates_S32x2x196_S32x2x60_S32x2x256_d2 : Shape.Concatenates [S32x2x196, S32x2x60] S32x2x256 2
  inb_S32x2x256_S32x2x256_0_0_0 : ∀ a, (![0, 0, 0] : Fin 3 → Nat) a + S32x2x256.size a ≤ S32x2x256.size a
  h_S32x2x256 : 0 < S32x2x256.numel
  slices_S2048x2x256_S2048x2x196_0_0_0 : S2048x2x256.Slices ![0, 0, 0] S2048x2x196
  dot_S32x2x512_S32x196x512_S32x2x196_2_2_1_1_0_0_wf : DotDims.WF S32x2x512 S32x196x512 S32x2x196 [2] [2] [1] [1] [0] [0]
  dot_S32x2x196_S32x196x512_S32x2x512_2_1_1_2_0_0_wf : DotDims.WF S32x2x196 S32x196x512 S32x2x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x196x512.size a ≤ S2048x196x512.size a
  hwx0_0 : ∀ i : grid0.Coords, EltTy.bits .f32 = 32 ∨ (Rect.block (s := S2048x196x512) S32x196x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x2x512.size a ≤ S2048x2x512.size a
  hwx0_1 : ∀ i : grid0.Coords, EltTy.bits .f32 = 32 ∨ (Rect.block (s := S2048x2x512) S32x2x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x2x256.size a ≤ S2048x2x256.size a
  hwx0_2 : ∀ i : grid0.Coords, EltTy.bits .f32 = 32 ∨ (Rect.block (s := S2048x2x256) S32x2x256.size (cc0_transform_2 i) (hinb0_2 i)).WholeWords (EltTy.packing .f32)

variable [Facts₀]

def dot_S32x2x512_S32x196x512_S32x2x196_2_2_1_1_0_0 : DotDims S32x2x512 S32x196x512 S32x2x196 where
  lhsContracting := [2]
  rhsContracting := [2]
  lhsNonContracting := [1]
  rhsNonContracting := [1]
  lhsBatch := [0]
  rhsBatch := [0]
  wf := dot_S32x2x512_S32x196x512_S32x2x196_2_2_1_1_0_0_wf
def dot_S32x2x196_S32x196x512_S32x2x512_2_1_1_2_0_0 : DotDims S32x2x196 S32x196x512 S32x2x512 where
  lhsContracting := [2]
  rhsContracting := [1]
  lhsNonContracting := [1]
  rhsNonContracting := [2]
  lhsBatch := [0]
  rhsBatch := [0]
  wf := dot_S32x2x196_S32x196x512_S32x2x512_2_1_1_2_0_0_wf

abbrev win0_0 : Pipeline.Window sig grid0 :=
  Pipeline.Window.ofSpec (Memref.whole main_arg0) S32x196x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S32x2x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S32x2x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x196x512 : Shape := ⟨3, ![2048, 196, 512]⟩
abbrev S2 : Shape := ⟨1, ![2]⟩
abbrev S_ : Shape := ⟨0, ![]⟩
abbrev S2x1 : Shape := ⟨2, ![2, 1]⟩
abbrev S2048x2x512 : Shape := ⟨3, ![2048, 2, 512]⟩
abbrev S2048x196 : Shape := ⟨2, ![2048, 196]⟩
abbrev S2048x2 : Shape := ⟨2, ![2048, 2]⟩
abbrev S2048x2x1 : Shape := ⟨3, ![2048, 2, 1]⟩
abbrev S2048x2x196 : Shape := ⟨3, ![2048, 2, 196]⟩
abbrev S2048x1x196 : Shape := ⟨3, ![2048, 1, 196]⟩

abbrev nBuf : Space → Nat
  | .hbm => 414
  | .vmem => 0
  | .smem => 0
  | _ => 0

abbrev hbmTy0_0 (i : Nat) : BufTy := match i % 128 with
  | 0 => ⟨S2048x196x512, .f32⟩
  | 1 => ⟨S2, .i32⟩
  | 2 => ⟨S_, .i32⟩
  | 3 => ⟨S2, .i32⟩
  | 4 => ⟨S2, .i1⟩
  | 5 => ⟨S_, .i32⟩
  | 6 => ⟨S2, .i32⟩
  | 7 => ⟨S2, .i32⟩
  | 8 => ⟨S2, .i32⟩
  | 9 => ⟨S2x1, .i32⟩
  | 10 => ⟨S2048x2x512, .f32⟩
  | 11 => ⟨S2048x196x512, .f32⟩
  | 12 => ⟨S_, .f32⟩
  | 13 => ⟨S2048x196, .f32⟩
  | 14 => ⟨S2048x2x512, .f32⟩
  | 15 => ⟨S_, .f32⟩
  | 16 => ⟨S2048x2, .f32⟩
  | 17 => ⟨S2048x2x1, .f32⟩
  | 18 => ⟨S2048x2x196, .f32⟩
  | 19 => ⟨S_, .f32⟩
  | 20 => ⟨S2048x2x196, .f32⟩
  | 21 => ⟨S2048x2x196, .f32⟩
  | 22 => ⟨S2048x2x196, .f32⟩
  | 23 => ⟨S2048x2x196, .f32⟩
  | 24 => ⟨S2048x1x196, .f32⟩
  | 25 => ⟨S2048x2x196, .f32⟩
  | 26 => ⟨S2048x2x196, .f32⟩
  | 27 => ⟨S_, .f32⟩
  | 28 => ⟨S2048x2x196, .f32⟩
  | 29 => ⟨S2048x2x196, .f32⟩
  | 30 => ⟨S2048x2x196, .f32⟩
  | 31 => ⟨S_, .f32⟩
  | 32 => ⟨S2048x2x196, .f32⟩
  | 33 => ⟨S2048x2x196, .f32⟩
  | 34 => ⟨S_, .f32⟩
  | 35 => ⟨S2048x196, .f32⟩
  | 36 => ⟨S_, .f32⟩
  | 37 => ⟨S2048x196, .f32⟩
  | 38 => ⟨S2048x196, .f32⟩
  | 39 => ⟨S2048x1x196, .f32⟩
  | 40 => ⟨S2048x2x196, .f32⟩
  | 41 => ⟨S2048x2x196, .f32⟩
  | 42 => ⟨S2048x2x196, .f32⟩
  | 43 => ⟨S_, .f32⟩
  | 44 => ⟨S2048x196, .f32⟩
  | 45 => ⟨S2048x1x196, .f32⟩
  | 46 => ⟨S2048x2x196, .f32⟩
  | 47 => ⟨S2048x2x196, .f32⟩
  | 48 => ⟨S2048x2x512, .f32⟩
  | 49 => ⟨S_, .f32⟩
  | 50 => ⟨S2048x2, .f32⟩
  | 51 => ⟨S2048x2x1, .f32⟩
  | 52 => ⟨S2048x2x512, .f32⟩
  | 53 => ⟨S2048x2x512, .f32⟩
  | 54 => ⟨S2048x2x512, .f32⟩
  | 55 => ⟨S_, .f32⟩
  | 56 => ⟨S2048x2, .f32⟩
  | 57 => ⟨S2048x2x1, .f32⟩
  | 58 => ⟨S2048x2x196, .f32⟩
  | 59 => ⟨S_, .f32⟩
  | 60 => ⟨S2048x2x196, .f32⟩
  | 61 => ⟨S2048x2x196, .f32⟩
  | 62 => ⟨S2048x2x196, .f32⟩
  | 63 => ⟨S2048x2x196, .f32⟩
  | 64 => ⟨S2048x1x196, .f32⟩
  | 65 => ⟨S2048x2x196, .f32⟩
  | 66 => ⟨S2048x2x196, .f32⟩
  | 67 => ⟨S_, .f32⟩
  | 68 => ⟨S2048x2x196, .f32⟩
  | 69 => ⟨S2048x2x196, .f32⟩
  | 70 => ⟨S2048x2x196, .f32⟩
  | 71 => ⟨S_, .f32⟩
  | 72 => ⟨S2048x2x196, .f32⟩
  | 73 => ⟨S2048x2x196, .f32⟩
  | 74 => ⟨S_, .f32⟩
  | 75 => ⟨S2048x196, .f32⟩
  | 76 => ⟨S_, .f32⟩
  | 77 => ⟨S2048x196, .f32⟩
  | 78 => ⟨S2048x196, .f32⟩
  | 79 => ⟨S2048x1x196, .f32⟩
  | 80 => ⟨S2048x2x196, .f32⟩
  | 81 => ⟨S2048x2x196, .f32⟩
  | 82 => ⟨S2048x2x196, .f32⟩
  | 83 => ⟨S_, .f32⟩
  | 84 => ⟨S2048x196, .f32⟩
  | 85 => ⟨S2048x1x196, .f32⟩
  | 86 => ⟨S2048x2x196, .f32⟩
  | 87 => ⟨S2048x2x196, .f32⟩
  | 88 => ⟨S2048x2x512, .f32⟩
  | 89 => ⟨S_, .f32⟩
  | 90 => ⟨S2048x2, .f32⟩
  | 91 => ⟨S2048x2x1, .f32⟩
  | 92 => ⟨S2048x2x512, .f32⟩
  | 93 => ⟨S2048x2x512, .f32⟩
  | 94 => ⟨S2048x2x512, .f32⟩
  | 95 => ⟨S_, .f32⟩
  | 96 => ⟨S2048x2, .f32⟩
  | 97 => ⟨S2048x2x1, .f32⟩
  | 98 => ⟨S2048x2x196, .f32⟩
  | 99 => ⟨S_, .f32⟩
  | 100 => ⟨S2048x2x196, .f32⟩
  | 101 => ⟨S2048x2x196, .f32⟩
  | 102 => ⟨S2048x2x196, .f32⟩
  | 103 => ⟨S2048x2x196, .f32⟩
  | 104 => ⟨S2048x1x196, .f32⟩
  | 105 => ⟨S2048x2x196, .f32⟩
  | 106 => ⟨S2048x2x196, .f32⟩
  | 107 => ⟨S_, .f32⟩
  | 108 => ⟨S2048x2x196, .f32⟩
  | 109 => ⟨S2048x2x196, .f32⟩
  | 110 => ⟨S2048x2x196, .f32⟩
  | 111 => ⟨S_, .f32⟩
  | 112 => ⟨S2048x2x196, .f32⟩
  | 113 => ⟨S2048x2x196, .f32⟩
  | 114 => ⟨S_, .f32⟩
  | 115 => ⟨S2048x196, .f32⟩
  | 116 => ⟨S_, .f32⟩
  | 117 => ⟨S2048x196, .f32⟩
  | 118 => ⟨S2048x196, .f32⟩
  | 119 => ⟨S2048x1x196, .f32⟩
  | 120 => ⟨S2048x2x196, .f32⟩
  | 121 => ⟨S2048x2x196, .f32⟩
  | 122 => ⟨S2048x2x196, .f32⟩
  | 123 => ⟨S_, .f32⟩
  | 124 => ⟨S2048x196, .f32⟩
  | 125 => ⟨S2048x1x196, .f32⟩
  | 126 => ⟨S2048x2x196, .f32⟩
  | 127 => ⟨S2048x2x196, .f32⟩
  | _ => ⟨S2048x196x512, .f32⟩

abbrev hbmTy0_1 (i : Nat) : BufTy := match i % 128 with
  | 0 => ⟨S2048x2x512, .f32⟩
  | 1 => ⟨S_, .f32⟩
  | 2 => ⟨S2048x2, .f32⟩
  | 3 => ⟨S2048x2x1, .f32⟩
  | 4 => ⟨S2048x2x512, .f32⟩
  | 5 => ⟨S2048x2x512, .f32⟩
  | 6 => ⟨S2048x2x512, .f32⟩
  | 7 => ⟨S_, .f32⟩
  | 8 => ⟨S2048x2, .f32⟩
  | 9 => ⟨S2048x2x1, .f32⟩
  | 10 => ⟨S2048x2x196, .f32⟩
  | 11 => ⟨S_, .f32⟩
  | 12 => ⟨S2048x2x196, .f32⟩
  | 13 => ⟨S2048x2x196, .f32⟩
  | 14 => ⟨S2048x2x196, .f32⟩
  | 15 => ⟨S2048x2x196, .f32⟩
  | 16 => ⟨S2048x1x196, .f32⟩
  | 17 => ⟨S2048x2x196, .f32⟩
  | 18 => ⟨S2048x2x196, .f32⟩
  | 19 => ⟨S_, .f32⟩
  | 20 => ⟨S2048x2x196, .f32⟩
  | 21 => ⟨S2048x2x196, .f32⟩
  | 22 => ⟨S2048x2x196, .f32⟩
  | 23 => ⟨S_, .f32⟩
  | 24 => ⟨S2048x2x196, .f32⟩
  | 25 => ⟨S2048x2x196, .f32⟩
  | 26 => ⟨S_, .f32⟩
  | 27 => ⟨S2048x196, .f32⟩
  | 28 => ⟨S_, .f32⟩
  | 29 => ⟨S2048x196, .f32⟩
  | 30 => ⟨S2048x196, .f32⟩
  | 31 => ⟨S2048x1x196, .f32⟩
  | 32 => ⟨S2048x2x196, .f32⟩
  | 33 => ⟨S2048x2x196, .f32⟩
  | 34 => ⟨S2048x2x196, .f32⟩
  | 35 => ⟨S_, .f32⟩
  | 36 => ⟨S2048x196, .f32⟩
  | 37 => ⟨S2048x1x196, .f32⟩
  | 38 => ⟨S2048x2x196, .f32⟩
  | 39 => ⟨S2048x2x196, .f32⟩
  | 40 => ⟨S2048x2x512, .f32⟩
  | 41 => ⟨S_, .f32⟩
  | 42 => ⟨S2048x2, .f32⟩
  | 43 => ⟨S2048x2x1, .f32⟩
  | 44 => ⟨S2048x2x512, .f32⟩
  | 45 => ⟨S2048x2x512, .f32⟩
  | 46 => ⟨S2048x2x512, .f32⟩
  | 47 => ⟨S_, .f32⟩
  | 48 => ⟨S2048x2, .f32⟩
  | 49 => ⟨S2048x2x1, .f32⟩
  | 50 => ⟨S2048x2x196, .f32⟩
  | 51 => ⟨S_, .f32⟩
  | 52 => ⟨S2048x2x196, .f32⟩
  | 53 => ⟨S2048x2x196, .f32⟩
  | 54 => ⟨S2048x2x196, .f32⟩
  | 55 => ⟨S2048x2x196, .f32⟩
  | 56 => ⟨S2048x1x196, .f32⟩
  | 57 => ⟨S2048x2x196, .f32⟩
  | 58 => ⟨S2048x2x196, .f32⟩
  | 59 => ⟨S_, .f32⟩
  | 60 => ⟨S2048x2x196, .f32⟩
  | 61 => ⟨S2048x2x196, .f32⟩
  | 62 => ⟨S2048x2x196, .f32⟩
  | 63 => ⟨S_, .f32⟩
  | 64 => ⟨S2048x2x196, .f32⟩
  | 65 => ⟨S2048x2x196, .f32⟩
  | 66 => ⟨S_, .f32⟩
  | 67 => ⟨S2048x196, .f32⟩
  | 68 => ⟨S_, .f32⟩
  | 69 => ⟨S2048x196, .f32⟩
  | 70 => ⟨S2048x196, .f32⟩
  | 71 => ⟨S2048x1x196, .f32⟩
  | 72 => ⟨S2048x2x196, .f32⟩
  | 73 => ⟨S2048x2x196, .f32⟩
  | 74 => ⟨S2048x2x196, .f32⟩
  | 75 => ⟨S_, .f32⟩
  | 76 => ⟨S2048x196, .f32⟩
  | 77 => ⟨S2048x1x196, .f32⟩
  | 78 => ⟨S2048x2x196, .f32⟩
  | 79 => ⟨S2048x2x196, .f32⟩
  | 80 => ⟨S2048x2x512, .f32⟩
  | 81 => ⟨S_, .f32⟩
  | 82 => ⟨S2048x2, .f32⟩
  | 83 => ⟨S2048x2x1, .f32⟩
  | 84 => ⟨S2048x2x512, .f32⟩
  | 85 => ⟨S2048x2x512, .f32⟩
  | 86 => ⟨S2048x2x512, .f32⟩
  | 87 => ⟨S_, .f32⟩
  | 88 => ⟨S2048x2, .f32⟩
  | 89 => ⟨S2048x2x1, .f32⟩
  | 90 => ⟨S2048x2x196, .f32⟩
  | 91 => ⟨S_, .f32⟩
  | 92 => ⟨S2048x2x196, .f32⟩
  | 93 => ⟨S2048x2x196, .f32⟩
  | 94 => ⟨S2048x2x196, .f32⟩
  | 95 => ⟨S2048x2x196, .f32⟩
  | 96 => ⟨S2048x1x196, .f32⟩
  | 97 => ⟨S2048x2x196, .f32⟩
  | 98 => ⟨S2048x2x196, .f32⟩
  | 99 => ⟨S_, .f32⟩
  | 100 => ⟨S2048x2x196, .f32⟩
  | 101 => ⟨S2048x2x196, .f32⟩
  | 102 => ⟨S2048x2x196, .f32⟩
  | 103 => ⟨S_, .f32⟩
  | 104 => ⟨S2048x2x196, .f32⟩
  | 105 => ⟨S2048x2x196, .f32⟩
  | 106 => ⟨S_, .f32⟩
  | 107 => ⟨S2048x196, .f32⟩
  | 108 => ⟨S_, .f32⟩
  | 109 => ⟨S2048x196, .f32⟩
  | 110 => ⟨S2048x196, .f32⟩
  | 111 => ⟨S2048x1x196, .f32⟩
  | 112 => ⟨S2048x2x196, .f32⟩
  | 113 => ⟨S2048x2x196, .f32⟩
  | 114 => ⟨S2048x2x196, .f32⟩
  | 115 => ⟨S_, .f32⟩
  | 116 => ⟨S2048x196, .f32⟩
  | 117 => ⟨S2048x1x196, .f32⟩
  | 118 => ⟨S2048x2x196, .f32⟩
  | 119 => ⟨S2048x2x196, .f32⟩
  | 120 => ⟨S2048x2x512, .f32⟩
  | 121 => ⟨S_, .f32⟩
  | 122 => ⟨S2048x2, .f32⟩
  | 123 => ⟨S2048x2x1, .f32⟩
  | 124 => ⟨S2048x2x512, .f32⟩
  | 125 => ⟨S2048x2x512, .f32⟩
  | 126 => ⟨S2048x2x512, .f32⟩
  | 127 => ⟨S_, .f32⟩
  | _ => ⟨S2048x196x512, .f32⟩

abbrev hbmTy0_2 (i : Nat) : BufTy := match i % 128 with
  | 0 => ⟨S2048x2, .f32⟩
  | 1 => ⟨S2048x2x1, .f32⟩
  | 2 => ⟨S2048x2x196, .f32⟩
  | 3 => ⟨S_, .f32⟩
  | 4 => ⟨S2048x2x196, .f32⟩
  | 5 => ⟨S2048x2x196, .f32⟩
  | 6 => ⟨S2048x2x196, .f32⟩
  | 7 => ⟨S2048x2x196, .f32⟩
  | 8 => ⟨S2048x1x196, .f32⟩
  | 9 => ⟨S2048x2x196, .f32⟩
  | 10 => ⟨S2048x2x196, .f32⟩
  | 11 => ⟨S_, .f32⟩
  | 12 => ⟨S2048x2x196, .f32⟩
  | 13 => ⟨S2048x2x196, .f32⟩
  | 14 => ⟨S2048x2x196, .f32⟩
  | 15 => ⟨S_, .f32⟩
  | 16 => ⟨S2048x2x196, .f32⟩
  | 17 => ⟨S2048x2x196, .f32⟩
  | 18 => ⟨S_, .f32⟩
  | 19 => ⟨S2048x196, .f32⟩
  | 20 => ⟨S_, .f32⟩
  | 21 => ⟨S2048x196, .f32⟩
  | 22 => ⟨S2048x196, .f32⟩
  | 23 => ⟨S2048x1x196, .f32⟩
  | 24 => ⟨S2048x2x196, .f32⟩
  | 25 => ⟨S2048x2x196, .f32⟩
  | 26 => ⟨S2048x2x196, .f32⟩
  | 27 => ⟨S_, .f32⟩
  | 28 => ⟨S2048x196, .f32⟩
  | 29 => ⟨S2048x1x196, .f32⟩
  | 30 => ⟨S2048x2x196, .f32⟩
  | 31 => ⟨S2048x2x196, .f32⟩
  | 32 => ⟨S2048x2x512, .f32⟩
  | 33 => ⟨S_, .f32⟩
  | 34 => ⟨S2048x2, .f32⟩
  | 35 => ⟨S2048x2x1, .f32⟩
  | 36 => ⟨S2048x2x512, .f32⟩
  | 37 => ⟨S2048x2x512, .f32⟩
  | 38 => ⟨S2048x2x512, .f32⟩
  | 39 => ⟨S_, .f32⟩
  | 40 => ⟨S2048x2, .f32⟩
  | 41 => ⟨S2048x2x1, .f32⟩
  | 42 => ⟨S2048x2x196, .f32⟩
  | 43 => ⟨S_, .f32⟩
  | 44 => ⟨S2048x2x196, .f32⟩
  | 45 => ⟨S2048x2x196, .f32⟩
  | 46 => ⟨S2048x2x196, .f32⟩
  | 47 => ⟨S2048x2x196, .f32⟩
  | 48 => ⟨S2048x1x196, .f32⟩
  | 49 => ⟨S2048x2x196, .f32⟩
  | 50 => ⟨S2048x2x196, .f32⟩
  | 51 => ⟨S_, .f32⟩
  | 52 => ⟨S2048x2x196, .f32⟩
  | 53 => ⟨S2048x2x196, .f32⟩
  | 54 => ⟨S2048x2x196, .f32⟩
  | 55 => ⟨S_, .f32⟩
  | 56 => ⟨S2048x2x196, .f32⟩
  | 57 => ⟨S2048x2x196, .f32⟩
  | 58 => ⟨S_, .f32⟩
  | 59 => ⟨S2048x196, .f32⟩
  | 60 => ⟨S_, .f32⟩
  | 61 => ⟨S2048x196, .f32⟩
  | 62 => ⟨S2048x196, .f32⟩
  | 63 => ⟨S2048x1x196, .f32⟩
  | 64 => ⟨S2048x2x196, .f32⟩
  | 65 => ⟨S2048x2x196, .f32⟩
  | 66 => ⟨S2048x2x196, .f32⟩
  | 67 => ⟨S_, .f32⟩
  | 68 => ⟨S2048x196, .f32⟩
  | 69 => ⟨S2048x1x196, .f32⟩
  | 70 => ⟨S2048x2x196, .f32⟩
  | 71 => ⟨S2048x2x196, .f32⟩
  | 72 => ⟨S2048x2x512, .f32⟩
  | 73 => ⟨S_, .f32⟩
  | 74 => ⟨S2048x2, .f32⟩
  | 75 => ⟨S2048x2x1, .f32⟩
  | 76 => ⟨S2048x2x512, .f32⟩
  | 77 => ⟨S2048x2x512, .f32⟩
  | 78 => ⟨S2048x2x512, .f32⟩
  | 79 => ⟨S_, .f32⟩
  | 80 => ⟨S2048x2, .f32⟩
  | 81 => ⟨S2048x2x1, .f32⟩
  | 82 => ⟨S2048x2x196, .f32⟩
  | 83 => ⟨S_, .f32⟩
  | 84 => ⟨S2048x2x196, .f32⟩
  | 85 => ⟨S2048x2x196, .f32⟩
  | 86 => ⟨S2048x2x196, .f32⟩
  | 87 => ⟨S2048x2x196, .f32⟩
  | 88 => ⟨S2048x1x196, .f32⟩
  | 89 => ⟨S2048x2x196, .f32⟩
  | 90 => ⟨S2048x2x196, .f32⟩
  | 91 => ⟨S_, .f32⟩
  | 92 => ⟨S2048x2x196, .f32⟩
  | 93 => ⟨S2048x2x196, .f32⟩
  | 94 => ⟨S2048x2x196, .f32⟩
  | 95 => ⟨S_, .f32⟩
  | 96 => ⟨S2048x2x196, .f32⟩
  | 97 => ⟨S2048x2x196, .f32⟩
  | 98 => ⟨S_, .f32⟩
  | 99 => ⟨S2048x196, .f32⟩
  | 100 => ⟨S_, .f32⟩
  | 101 => ⟨S2048x196, .f32⟩
  | 102 => ⟨S2048x196, .f32⟩
  | 103 => ⟨S2048x1x196, .f32⟩
  | 104 => ⟨S2048x2x196, .f32⟩
  | 105 => ⟨S2048x2x196, .f32⟩
  | 106 => ⟨S2048x2x196, .f32⟩
  | 107 => ⟨S_, .f32⟩
  | 108 => ⟨S2048x196, .f32⟩
  | 109 => ⟨S2048x1x196, .f32⟩
  | 110 => ⟨S2048x2x196, .f32⟩
  | 111 => ⟨S2048x2x196, .f32⟩
  | 112 => ⟨S2048x2x512, .f32⟩
  | 113 => ⟨S_, .f32⟩
  | 114 => ⟨S2048x2, .f32⟩
  | 115 => ⟨S2048x2x1, .f32⟩
  | 116 => ⟨S2048x2x512, .f32⟩
  | 117 => ⟨S2048x2x512, .f32⟩
  | 118 => ⟨S2048x2x512, .f32⟩
  | 119 => ⟨S_, .f32⟩
  | 120 => ⟨S2048x2, .f32⟩
  | 121 => ⟨S2048x2x1, .f32⟩
  | 122 => ⟨S2048x2x196, .f32⟩
  | 123 => ⟨S_, .f32⟩
  | 124 => ⟨S2048x2x196, .f32⟩
  | 125 => ⟨S2048x2x196, .f32⟩
  | 126 => ⟨S2048x2x196, .f32⟩
  | 127 => ⟨S2048x2x196, .f32⟩
  | _ => ⟨S2048x196x512, .f32⟩

abbrev hbmTy0_3 (i : Nat) : BufTy := match i % 128 with
  | 0 => ⟨S2048x1x196, .f32⟩
  | 1 => ⟨S2048x2x196, .f32⟩
  | 2 => ⟨S2048x2x196, .f32⟩
  | 3 => ⟨S_, .f32⟩
  | 4 => ⟨S2048x2x196, .f32⟩
  | 5 => ⟨S2048x2x196, .f32⟩
  | 6 => ⟨S2048x2x196, .f32⟩
  | 7 => ⟨S_, .f32⟩
  | 8 => ⟨S2048x2x196, .f32⟩
  | 9 => ⟨S2048x2x196, .f32⟩
  | 10 => ⟨S_, .f32⟩
  | 11 => ⟨S2048x196, .f32⟩
  | 12 => ⟨S_, .f32⟩
  | 13 => ⟨S2048x196, .f32⟩
  | 14 => ⟨S2048x196, .f32⟩
  | 15 => ⟨S2048x1x196, .f32⟩
  | 16 => ⟨S2048x2x196, .f32⟩
  | 17 => ⟨S2048x2x196, .f32⟩
  | 18 => ⟨S2048x2x196, .f32⟩
  | 19 => ⟨S_, .f32⟩
  | 20 => ⟨S2048x196, .f32⟩
  | 21 => ⟨S2048x1x196, .f32⟩
  | 22 => ⟨S2048x2x196, .f32⟩
  | 23 => ⟨S2048x2x196, .f32⟩
  | 24 => ⟨S2048x2x512, .f32⟩
  | 25 => ⟨S_, .f32⟩
  | 26 => ⟨S2048x2, .f32⟩
  | 27 => ⟨S2048x2x1, .f32⟩
  | 28 => ⟨S2048x2x512, .f32⟩
  | 29 => ⟨S2048x2x512, .f32⟩
  | _ => ⟨S2048x196x512, .f32⟩

abbrev hbmTy (i : Nat) : BufTy := match i / 128 with
  | 0 => hbmTy0_0 i
  | 1 => hbmTy0_1 i
  | 2 => hbmTy0_2 i
  | 3 => hbmTy0_3 i
  | _ => ⟨S2048x196x512, .f32⟩

abbrev bufTy : (tb : Table) → Fin (tcTables nBuf tb) → BufTy
  | .hbm, ⟨i, _⟩ => hbmTy i
  | _, _ => ⟨S2048x196x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_c_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_9 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_10 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_11 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_12 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_13 : Ref sig .tc := ⟨.hbm, 71, rfl⟩
abbrev main_v55 : Ref sig .tc := ⟨.hbm, 72, rfl⟩
abbrev main_v56 : Ref sig .tc := ⟨.hbm, 73, rfl⟩
abbrev main_cst_14 : Ref sig .tc := ⟨.hbm, 74, rfl⟩
abbrev main_v57 : Ref sig .tc := ⟨.hbm, 75, rfl⟩
abbrev main_cst_15 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_16 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_17 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_18 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_19 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_20 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_21 : Ref sig .tc := ⟨.hbm, 111, rfl⟩
abbrev main_v87 : Ref sig .tc := ⟨.hbm, 112, rfl⟩
abbrev main_v88 : Ref sig .tc := ⟨.hbm, 113, rfl⟩
abbrev main_cst_22 : Ref sig .tc := ⟨.hbm, 114, rfl⟩
abbrev main_v89 : Ref sig .tc := ⟨.hbm, 115, rfl⟩
abbrev main_cst_23 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_24 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_25 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_26 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_cst_27 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_28 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_29 : Ref sig .tc := ⟨.hbm, 151, rfl⟩
abbrev main_v119 : Ref sig .tc := ⟨.hbm, 152, rfl⟩
abbrev main_v120 : Ref sig .tc := ⟨.hbm, 153, rfl⟩
abbrev main_cst_30 : Ref sig .tc := ⟨.hbm, 154, rfl⟩
abbrev main_v121 : Ref sig .tc := ⟨.hbm, 155, rfl⟩
abbrev main_cst_31 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_cst_32 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_cst_33 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_cst_34 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_cst_35 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_cst_36 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_cst_37 : Ref sig .tc := ⟨.hbm, 191, rfl⟩
abbrev main_v151 : Ref sig .tc := ⟨.hbm, 192, rfl⟩
abbrev main_v152 : Ref sig .tc := ⟨.hbm, 193, rfl⟩
abbrev main_cst_38 : Ref sig .tc := ⟨.hbm, 194, rfl⟩
abbrev main_v153 : Ref sig .tc := ⟨.hbm, 195, rfl⟩
abbrev main_cst_39 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_cst_40 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_cst_41 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_cst_42 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_cst_43 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_cst_44 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_cst_45 : Ref sig .tc := ⟨.hbm, 231, rfl⟩
abbrev main_v183 : Ref sig .tc := ⟨.hbm, 232, rfl⟩
abbrev main_v184 : Ref sig .tc := ⟨.hbm, 233, rfl⟩
abbrev main_cst_46 : Ref sig .tc := ⟨.hbm, 234, rfl⟩
abbrev main_v185 : Ref sig .tc := ⟨.hbm, 235, rfl⟩
abbrev main_cst_47 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_cst_48 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_cst_49 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_cst_50 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_cst_51 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_cst_52 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_cst_53 : Ref sig .tc := ⟨.hbm, 271, rfl⟩
abbrev main_v215 : Ref sig .tc := ⟨.hbm, 272, rfl⟩
abbrev main_v216 : Ref sig .tc := ⟨.hbm, 273, rfl⟩
abbrev main_cst_54 : Ref sig .tc := ⟨.hbm, 274, rfl⟩
abbrev main_v217 : Ref sig .tc := ⟨.hbm, 275, rfl⟩
abbrev main_cst_55 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_cst_56 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_cst_57 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_v232 : Ref sig .tc := ⟨.hbm, 293, rfl⟩
abbrev main_v233 : Ref sig .tc := ⟨.hbm, 294, rfl⟩
abbrev main_cst_58 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_cst_59 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_cst_60 : Ref sig .tc := ⟨.hbm, 307, rfl⟩
abbrev main_v244 : Ref sig .tc := ⟨.hbm, 308, rfl⟩
abbrev main_v245 : Ref sig .tc := ⟨.hbm, 309, rfl⟩
abbrev main_v246 : Ref sig .tc := ⟨.hbm, 310, rfl⟩
abbrev main_cst_61 : Ref sig .tc := ⟨.hbm, 311, rfl⟩
abbrev main_v247 : Ref sig .tc := ⟨.hbm, 312, rfl⟩
abbrev main_v248 : Ref sig .tc := ⟨.hbm, 313, rfl⟩
abbrev main_cst_62 : Ref sig .tc := ⟨.hbm, 314, rfl⟩
abbrev main_v249 : Ref sig .tc := ⟨.hbm, 315, rfl⟩
abbrev main_cst_63 : Ref sig .tc := ⟨.hbm, 316, rfl⟩
abbrev main_v250 : Ref sig .tc := ⟨.hbm, 317, rfl⟩
abbrev main_v251 : Ref sig .tc := ⟨.hbm, 318, rfl⟩
abbrev main_v252 : Ref sig .tc := ⟨.hbm, 319, rfl⟩
abbrev main_v253 : Ref sig .tc := ⟨.hbm, 320, rfl⟩
abbrev main_v254 : Ref sig .tc := ⟨.hbm, 321, rfl⟩
abbrev main_v255 : Ref sig .tc := ⟨.hbm, 322, rfl⟩
abbrev main_cst_64 : Ref sig .tc := ⟨.hbm, 323, rfl⟩
abbrev main_v256 : Ref sig .tc := ⟨.hbm, 324, rfl⟩
abbrev main_v257 : Ref sig .tc := ⟨.hbm, 325, rfl⟩
abbrev main_v258 : Ref sig .tc := ⟨.hbm, 326, rfl⟩
abbrev main_v259 : Ref sig .tc := ⟨.hbm, 327, rfl⟩
abbrev main_v260 : Ref sig .tc := ⟨.hbm, 328, rfl⟩
abbrev main_cst_65 : Ref sig .tc := ⟨.hbm, 329, rfl⟩
abbrev main_v261 : Ref sig .tc := ⟨.hbm, 330, rfl⟩
abbrev main_v262 : Ref sig .tc := ⟨.hbm, 331, rfl⟩
abbrev main_v263 : Ref sig .tc := ⟨.hbm, 332, rfl⟩
abbrev main_v264 : Ref sig .tc := ⟨.hbm, 333, rfl⟩
abbrev main_v265 : Ref sig .tc := ⟨.hbm, 334, rfl⟩
abbrev main_cst_66 : Ref sig .tc := ⟨.hbm, 335, rfl⟩
abbrev main_v266 : Ref sig .tc := ⟨.hbm, 336, rfl⟩
abbrev main_v267 : Ref sig .tc := ⟨.hbm, 337, rfl⟩
abbrev main_v268 : Ref sig .tc := ⟨.hbm, 338, rfl⟩
abbrev main_cst_67 : Ref sig .tc := ⟨.hbm, 339, rfl⟩
abbrev main_v269 : Ref sig .tc := ⟨.hbm, 340, rfl⟩
abbrev main_v270 : Ref sig .tc := ⟨.hbm, 341, rfl⟩
abbrev main_v271 : Ref sig .tc := ⟨.hbm, 342, rfl⟩
abbrev main_v272 : Ref sig .tc := ⟨.hbm, 343, rfl⟩
abbrev main_v273 : Ref sig .tc := ⟨.hbm, 344, rfl⟩
abbrev main_v274 : Ref sig .tc := ⟨.hbm, 345, rfl⟩
abbrev main_v275 : Ref sig .tc := ⟨.hbm, 346, rfl⟩
abbrev main_cst_68 : Ref sig .tc := ⟨.hbm, 347, rfl⟩
abbrev main_v276 : Ref sig .tc := ⟨.hbm, 348, rfl⟩
abbrev main_v277 : Ref sig .tc := ⟨.hbm, 349, rfl⟩
abbrev main_v278 : Ref sig .tc := ⟨.hbm, 350, rfl⟩
abbrev main_cst_69 : Ref sig .tc := ⟨.hbm, 351, rfl⟩
abbrev main_v279 : Ref sig .tc := ⟨.hbm, 352, rfl⟩
abbrev main_v280 : Ref sig .tc := ⟨.hbm, 353, rfl⟩
abbrev main_cst_70 : Ref sig .tc := ⟨.hbm, 354, rfl⟩
abbrev main_v281 : Ref sig .tc := ⟨.hbm, 355, rfl⟩
abbrev main_cst_71 : Ref sig .tc := ⟨.hbm, 356, rfl⟩
abbrev main_v282 : Ref sig .tc := ⟨.hbm, 357, rfl⟩
abbrev main_v283 : Ref sig .tc := ⟨.hbm, 358, rfl⟩
abbrev main_v284 : Ref sig .tc := ⟨.hbm, 359, rfl⟩
abbrev main_v285 : Ref sig .tc := ⟨.hbm, 360, rfl⟩
abbrev main_v286 : Ref sig .tc := ⟨.hbm, 361, rfl⟩
abbrev main_v287 : Ref sig .tc := ⟨.hbm, 362, rfl⟩
abbrev main_cst_72 : Ref sig .tc := ⟨.hbm, 363, rfl⟩
abbrev main_v288 : Ref sig .tc := ⟨.hbm, 364, rfl⟩
abbrev main_v289 : Ref sig .tc := ⟨.hbm, 365, rfl⟩
abbrev main_v290 : Ref sig .tc := ⟨.hbm, 366, rfl⟩
abbrev main_v291 : Ref sig .tc := ⟨.hbm, 367, rfl⟩
abbrev main_v292 : Ref sig .tc := ⟨.hbm, 368, rfl⟩
abbrev main_cst_73 : Ref sig .tc := ⟨.hbm, 369, rfl⟩
abbrev main_v293 : Ref sig .tc := ⟨.hbm, 370, rfl⟩
abbrev main_v294 : Ref sig .tc := ⟨.hbm, 371, rfl⟩
abbrev main_v295 : Ref sig .tc := ⟨.hbm, 372, rfl⟩
abbrev main_v296 : Ref sig .tc := ⟨.hbm, 373, rfl⟩
abbrev main_v297 : Ref sig .tc := ⟨.hbm, 374, rfl⟩
abbrev main_cst_74 : Ref sig .tc := ⟨.hbm, 375, rfl⟩
abbrev main_v298 : Ref sig .tc := ⟨.hbm, 376, rfl⟩
abbrev main_v299 : Ref sig .tc := ⟨.hbm, 377, rfl⟩
abbrev main_v300 : Ref sig .tc := ⟨.hbm, 378, rfl⟩
abbrev main_cst_75 : Ref sig .tc := ⟨.hbm, 379, rfl⟩
abbrev main_v301 : Ref sig .tc := ⟨.hbm, 380, rfl⟩
abbrev main_v302 : Ref sig .tc := ⟨.hbm, 381, rfl⟩
abbrev main_v303 : Ref sig .tc := ⟨.hbm, 382, rfl⟩
abbrev main_v304 : Ref sig .tc := ⟨.hbm, 383, rfl⟩
abbrev main_v305 : Ref sig .tc := ⟨.hbm, 384, rfl⟩
abbrev main_v306 : Ref sig .tc := ⟨.hbm, 385, rfl⟩
abbrev main_v307 : Ref sig .tc := ⟨.hbm, 386, rfl⟩
abbrev main_cst_76 : Ref sig .tc := ⟨.hbm, 387, rfl⟩
abbrev main_v308 : Ref sig .tc := ⟨.hbm, 388, rfl⟩
abbrev main_v309 : Ref sig .tc := ⟨.hbm, 389, rfl⟩
abbrev main_v310 : Ref sig .tc := ⟨.hbm, 390, rfl⟩
abbrev main_cst_77 : Ref sig .tc := ⟨.hbm, 391, rfl⟩
abbrev main_v311 : Ref sig .tc := ⟨.hbm, 392, rfl⟩
abbrev main_v312 : Ref sig .tc := ⟨.hbm, 393, rfl⟩
abbrev main_cst_78 : Ref sig .tc := ⟨.hbm, 394, rfl⟩
abbrev main_v313 : Ref sig .tc := ⟨.hbm, 395, rfl⟩
abbrev main_cst_79 : Ref sig .tc := ⟨.hbm, 396, rfl⟩
abbrev main_v314 : Ref sig .tc := ⟨.hbm, 397, rfl⟩
abbrev main_v315 : Ref sig .tc := ⟨.hbm, 398, rfl⟩
abbrev main_v316 : Ref sig .tc := ⟨.hbm, 399, rfl⟩
abbrev main_v317 : Ref sig .tc := ⟨.hbm, 400, rfl⟩
abbrev main_v318 : Ref sig .tc := ⟨.hbm, 401, rfl⟩
abbrev main_v319 : Ref sig .tc := ⟨.hbm, 402, rfl⟩
abbrev main_cst_80 : Ref sig .tc := ⟨.hbm, 403, rfl⟩
abbrev main_v320 : Ref sig .tc := ⟨.hbm, 404, rfl⟩
abbrev main_v321 : Ref sig .tc := ⟨.hbm, 405, rfl⟩
abbrev main_v322 : Ref sig .tc := ⟨.hbm, 406, rfl⟩
abbrev main_v323 : Ref sig .tc := ⟨.hbm, 407, rfl⟩
abbrev main_v324 : Ref sig .tc := ⟨.hbm, 408, rfl⟩
abbrev main_cst_81 : Ref sig .tc := ⟨.hbm, 409, rfl⟩
abbrev main_v325 : Ref sig .tc := ⟨.hbm, 410, rfl⟩
abbrev main_v326 : Ref sig .tc := ⟨.hbm, 411, rfl⟩
abbrev main_v327 : Ref sig .tc := ⟨.hbm, 412, rfl⟩
abbrev main_v328 : Ref sig .tc := ⟨.hbm, 413, rfl⟩

abbrev nD : Nat := 1
abbrev τ : Topo := Topo.v7x

variable {F : FTy → Type} [FloatOps F]

class Facts₀ : Prop where
  bcast_S_S2 : S_.BroadcastsInDim S2 (![] : Fin 0 → Fin S2.rank)
  bcast_S2_S2x1_0 : S2.BroadcastsInDim S2x1 (![0] : Fin 1 → Fin S2x1.rank)
  reducesTo_S2048x196x512_S2048x196_d2 : S2048x196x512.ReducesTo [2] S2048x196
  h_S_ : 0 < S_.numel
  reducesTo_S2048x2x512_S2048x2_d2 : S2048x2x512.ReducesTo [2] S2048x2
  bcast_S2048x2_S2048x2x1_0_1 : S2048x2.BroadcastsInDim S2048x2x1 (![0, 1] : Fin 2 → Fin S2048x2x1.rank)
  bcast_S_S2048x2x196 : S_.BroadcastsInDim S2048x2x196 (![] : Fin 0 → Fin S2048x2x196.rank)
  bcast_S2048x2x1_S2048x2x196_0_1_2 : S2048x2x1.BroadcastsInDim S2048x2x196 (![0, 1, 2] : Fin 3 → Fin S2048x2x196.rank)
  bcast_S2048x196_S2048x1x196_0_2 : S2048x196.BroadcastsInDim S2048x1x196 (![0, 2] : Fin 2 → Fin S2048x1x196.rank)
  bcast_S2048x1x196_S2048x2x196_0_1_2 : S2048x1x196.BroadcastsInDim S2048x2x196 (![0, 1, 2] : Fin 3 → Fin S2048x2x196.rank)
  reducesTo_S2048x2x196_S2048x196_d1 : S2048x2x196.ReducesTo [1] S2048x196
  bcast_S_S2048x196 : S_.BroadcastsInDim S2048x196 (![] : Fin 0 → Fin S2048x196.rank)
  reducesTo_S2048x2x196_S2048x2_d2 : S2048x2x196.ReducesTo [2] S2048x2
  bcast_S2048x2x1_S2048x2x512_0_1_2 : S2048x2x1.BroadcastsInDim S2048x2x512 (![0, 1, 2] : Fin 3 → Fin S2048x2x512.rank)
  gather_S2048x196x512_S2x1_S2048x2x512_02_1_n_n_1_1_20481512_wf : GatherDims.WF S2048x196x512 S2x1 S2048x2x512 [0, 2] [1] [] [1] [] 1 ![2048, 1, 512]
  dot_S2048x2x512_S2048x196x512_S2048x2x196_2_2_1_1_0_0_wf : DotDims.WF S2048x2x512 S2048x196x512 S2048x2x196 [2] [2] [1] [1] [0] [0]
  dot_S2048x2x196_S2048x196x512_S2048x2x512_2_1_1_2_0_0_wf : DotDims.WF S2048x2x196 S2048x196x512 S2048x2x512 [2] [1] [1] [2] [0] [0]

variable [Facts₀]

def gather_S2048x196x512_S2x1_S2048x2x512_02_1_n_n_1_1_20481512 : GatherDims S2048x196x512 S2x1 S2048x2x512 where
  offsetDims := [0, 2]
  collapsedSliceDims := [1]
  operandBatchingDims := []
  startIndicesBatchingDims := []
  startIndexMap := [1]
  indexVectorDim := 1
  sliceSizes := ![2048, 1, 512]
  wf := gather_S2048x196x512_S2x1_S2048x2x512_02_1_n_n_1_1_20481512_wf
def dot_S2048x2x512_S2048x196x512_S2048x2x196_2_2_1_1_0_0 : DotDims S2048x2x512 S2048x196x512 S2048x2x196 where
  lhsContracting := [2]
  rhsContracting := [2]
  lhsNonContracting := [1]
  rhsNonContracting := [1]
  lhsBatch := [0]
  rhsBatch := [0]
  wf := dot_S2048x2x512_S2048x196x512_S2048x2x196_2_2_1_1_0_0_wf
def dot_S2048x2x196_S2048x196x512_S2048x2x512_2_1_1_2_0_0 : DotDims S2048x2x196 S2048x196x512 S2048x2x512 where
  lhsContracting := [2]
  rhsContracting := [1]
  lhsNonContracting := [1]
  rhsNonContracting := [2]
  lhsBatch := [0]
  rhsBatch := [0]
  wf := dot_S2048x2x196_S2048x196x512_S2048x2x512_2_1_1_2_0_0_wf

class Facts : Prop extends Facts₀ where

variable [Facts]
-- ==== Proof.KSteps.lean ====
/-
  The kernel body's arithmetic on one block of 32 batch elements, as whole-vector functions: the squared norms of
  the points, the two initial centroids (rows 50 and 98), the distances of every point to both centroids, the two
  weights per point in the closed logistic form, and the weighted-mean update; ten rounds of these make the
  block's centroid output, and the weights of the tenth round, padded with zeros to 256 lanes, its weight output.
-/
import proofs.«122523_j36721970381457_2_alg».proof.Proof.Gen.KernelIdeal

set_option synthInstance.maxSize 4096

noncomputable section

namespace Cert.KernelIdeal.KSteps

open Idealize.ShloMosaic Idealize.SL.Sem Cert.KernelIdeal Cert.KernelIdeal.Facts₀ Cert.KernelIdeal.Facts

variable {F : FTy → Type} [FloatOps F]

/-- `‖u_n‖²` for every point of the block: the sum over the feature axis of the squares. -/
def sqNorms (x : Vec F S32x196x512 .f32) : FVec F S32x196 .f32 :=
  multiReduction .add [2] S32x196 (mulf x x) 0x00000000#32 reduces_S32x196x512_S32x196 (.inl rfl) rfl

/-- The block's points in the narrower format the update's product reads (no change of value at the ideal instance). -/
def narrow (x : Vec F S32x196x512 .f32) : FVec F S32x196x512 .bf16 :=
  shapeCast S32x196x512 (truncf .bf16 x bitsLt_bf16_f32) shapeCasts_S32x196x512_S32x196x512

/-- The two initial centroids of every batch element, from its rows 50 and 98. -/
def init (r50 r98 : Vec F S32x1x512 .f32) : FVec F S32x2x512 .f32 :=
  concatenate S32x2x512 1 [⟨S32x1x512, r50⟩, ⟨S32x1x512, r98⟩] concatenates_S32x1x512_S32x1x512_S32x2x512_d1

/-- The distances: `√ max (‖o_k‖² − 2·⟨o_k, u_n⟩ + ‖u_n‖²) ε`. -/
def dist (x : Vec F S32x196x512 .f32) (ny : FVec F S32x196 .f32) (o : FVec F S32x2x512 .f32) : FVec F S32x2x196 .f32 :=
  sqrt (maximumf
    (addf
      (subf
        (broadcastTo S32x2x196
          (shapeCast S32x2x1 (multiReduction .add [2] S32x2 (mulf o o) 0x00000000#32 reduces_S32x2x512_S32x2 (.inl rfl) rfl) shapeCasts_S32x2_S32x2x1)
          broadcasts_S32x2x1_S32x2x196)
        (mulf (broadcast S32x2x196 (Scalar.ofBits .f32 0x40000000#32))
          (matmul dot_S32x2x512_S32x196x512_S32x2x196_2_2_1_1_0_0 (some .fp32) o x (constant S32x2x196 .f32 0x00000000#32))))
      (broadcastTo S32x2x196 (shapeCast S32x1x196 ny shapeCasts_S32x196_S32x1x196) broadcasts_S32x1x196_S32x2x196))
    (broadcast S32x2x196 (Scalar.ofBits .f32 0x2EDBE6FF#32)))

/-- The weight of class 1: the logistic of `−10·(b₀ − b₁)`. -/
def weight1 (b : FVec F S32x2x196 .f32) : FVec F S32x1x196 .f32 :=
  logistic (mulf (broadcast S32x1x196 (Scalar.ofBits .f32 0xC1200000#32))
    (subf (extractStridedSlice S32x1x196 ![0, 0, 0] b slices_S32x2x196_o0_0_0_S32x1x196)
      (extractStridedSlice S32x1x196 ![0, 1, 0] b slices_S32x2x196_o0_1_0_S32x1x196)))

/-- Both weights from the class-1 weight: `1 − w₁` for class 0, then `w₁`. -/
def weights (w1 : FVec F S32x1x196 .f32) : FVec F S32x2x196 .f32 :=
  concatenate S32x2x196 1
    [⟨S32x1x196, subf (broadcast S32x1x196 (Scalar.ofBits .f32 0x3F800000#32)) w1⟩, ⟨S32x1x196, w1⟩]
    concatenates_S32x1x196_S32x1x196_S32x2x196_d1

/-- The two weights of every point from its two distances. -/
def assign (b : FVec F S32x2x196 .f32) : FVec F S32x2x196 .f32 := weights (weight1 b)

/-- The new centroids: the weighted sums of the points divided by the sums of the weights. -/
def update (xb : Vec F S32x196x512 .bf16) (c : FVec F S32x2x196 .f32) : FVec F S32x2x512 .f32 :=
  divf
    (matmul dot_S32x2x196_S32x196x512_S32x2x512_2_1_1_2_0_0 none (truncf .bf16 c bitsLt_bf16_f32) xb (constant S32x2x512 .f32 0x00000000#32))
    (broadcastTo S32x2x512
      (shapeCast S32x2x1 (multiReduction .add [2] S32x2 c 0x00000000#32 reduces_S32x2x196_S32x2 (.inl rfl) rfl) shapeCasts_S32x2_S32x2x1)
      broadcasts_S32x2x1_S32x2x512)

/-- One round on the block. -/
def step (x : Vec F S32x196x512 .f32) (ny : FVec F S32x196 .f32) (xb : Vec F S32x196x512 .bf16)
    (o : FVec F S32x2x512 .f32) : FVec F S32x2x512 .f32 :=
  update xb (assign (dist x ny o))

/-- The weights with 60 zero lanes appended (196 → 256). -/
def pad (c : FVec F S32x2x196 .f32) : FVec F S32x2x256 .f32 :=
  concatenate S32x2x256 2 [⟨S32x2x196, c⟩, ⟨S32x2x60, broadcast S32x2x60 (Scalar.ofBits .f32 0x00000000#32)⟩]
    concatenates_S32x2x196_S32x2x60_S32x2x256_d2

/-- The block's centroid output: ten rounds from the initial centroids. -/
def blockO (x : Vec F S32x196x512 .f32) (r50 r98 : Vec F S32x1x512 .f32) : FVec F S32x2x512 .f32 :=
  (step x (sqNorms x) (narrow x))^[10] (init r50 r98)

/-- The block's weight output: the weights of the tenth round, padded. -/
def blockC (x : Vec F S32x196x512 .f32) (r50 r98 : Vec F S32x1x512 .f32) : FVec F S32x2x256 .f32 :=
  pad (assign (dist x (sqNorms x) ((step x (sqNorms x) (narrow x))^[9] (init r50 r98))))

end Cert.KernelIdeal.KSteps

end
-- ==== Proof.KPieces.lean ====
/-
  What the kernel body leaves in its two output blocks, as functions of the block of points it was handed: the
  centroid block after ten rounds, and the weights of the tenth round padded with zeros.  The body's stores each
  cover a whole output block, every load of the points reads the whole input block (or one of its rows 50 / 98),
  and every load of the narrowed copy reads back what the body's first store put there; so each output is the
  composed arithmetic of the body applied to the input block.
-/
import proofs.«122523_j36721970381457_2_alg».proof.Proof.Gen.KernelIdeal.Frame
import proofs.«122523_j36721970381457_2_alg».proof.Proof.KSteps
import Idealize.ShloMosaic.Lib.Pipeline.Value

set_option maxRecDepth 65536

noncomputable section

namespace Cert.KernelIdeal.KPieces

open Idealize.ShloMosaic Idealize.ShloMosaic.TcCoe Idealize.ShloMosaic.Tactic Idealize.SL.Sem Cert.KernelIdeal Cert.KernelIdeal.Gen
open Idealize.ShloMosaic.Pipeline

variable {F : FTy → Type} [FloatOps F]

/-- Row 50 of every batch element of the block. -/
def row50 (x0 : Vec F S32x196x512 .f32) : Vec F S32x1x512 .f32 :=
  View.ld x0 (Rect.unit (s := S32x196x512) ![0, 50, 0] S32x1x512.size Cert.KernelIdeal.Facts₀.inb_S32x196x512_S32x1x512_0_50_0)

/-- Row 98 of every batch element of the block. -/
def row98 (x0 : Vec F S32x196x512 .f32) : Vec F S32x1x512 .f32 :=
  View.ld x0 (Rect.unit (s := S32x196x512) ![0, 98, 0] S32x1x512.size Cert.KernelIdeal.Facts₀.inb_S32x196x512_S32x1x512_0_98_0)

theorem zero3 : (![0, 0, 0] : Fin 3 → Nat) = fun _ => 0 := funext fun a => by fin_cases a <;> rfl

/-- The centroid block: ten rounds from rows 50 and 98. -/
theorem out1_eq (c : Dev nD) (i : grid0.Coords) (arg1 : Memref sig .tc .vmem S32x196x512 .f32) (harg1 : arg1.IsWhole) (arg2 : Memref sig .tc .vmem S32x2x512 .f32) (harg2 : arg2.IsWhole) (arg3 : Memref sig .tc .vmem S32x2x256 .f32) (harg3 : arg3.IsWhole) (arg4 : Memref sig .tc .vmem S32x196x512 .bf16) (harg4 : arg4.IsWhole)
    (x0 : Vec F S32x196x512 .f32) :
    out0_A_1 (F := F) c i arg1 harg1 arg2 harg2 arg3 harg3 arg4 harg4 x0 = KSteps.blockO x0 (row50 x0) (row98 x0) := by
  unfold out0_A_1
  rw [View.read_writes_eq_canon _ _ _ (cover0_A_1 c i arg1 harg1 arg2 harg2 arg3 harg3 arg4 harg4 x0)]
  unfold kernelRun0_A
  dsimp only
  sl_unfold_run_names
  rw [View.canon_unit_zero zero3]
  simp only [View.readAt_eq_ld, harg1.read_unread]
  simp only [View.ld_unit_zero (S := S32x196x512) zero3, View.readCov_unit_zero (S := S32x196x512) arg4.view zero3]
  rfl

/-- The weight block: the weights of the tenth round, padded to 256 lanes. -/
theorem out2_eq (c : Dev nD) (i : grid0.Coords) (arg1 : Memref sig .tc .vmem S32x196x512 .f32) (harg1 : arg1.IsWhole) (arg2 : Memref sig .tc .vmem S32x2x512 .f32) (harg2 : arg2.IsWhole) (arg3 : Memref sig .tc .vmem S32x2x256 .f32) (harg3 : arg3.IsWhole) (arg4 : Memref sig .tc .vmem S32x196x512 .bf16) (harg4 : arg4.IsWhole)
    (x0 : Vec F S32x196x512 .f32) :
    out0_A_2 (F := F) c i arg1 harg1 arg2 harg2 arg3 harg3 arg4 harg4 x0 = KSteps.blockC x0 (row50 x0) (row98 x0) := by
  unfold out0_A_2
  rw [View.read_writes_eq_canon _ _ _ (cover0_A_2 c i arg1 harg1 arg2 harg2 arg3 harg3 arg4 harg4 x0)]
  unfold kernelRun0_A
  dsimp only
  sl_unfold_run_names
  rw [View.canon_unit_zero zero3]
  simp only [View.readAt_eq_ld, harg1.read_unread]
  simp only [View.ld_unit_zero (S := S32x196x512) zero3, View.readCov_unit_zero (S := S32x196x512) arg4.view zero3]
  rfl

end Cert.KernelIdeal.KPieces

end
-- ==== Proof.Spec.lean ====
/-
  Soft two-means over the extended reals, for ONE batch element: `N` points `u n` in dimension `D`, two centroids
  `o k`. One round computes every point's distance to both centroids, turns the two distances into two weights,
  and replaces each centroid by the weighted mean of the points.

  The two programs differ only in how the weights are formed. The reference takes the softmax of the logits
  `β·b₀, β·b₁` (`softmax2`). The kernel takes `w₁ = logistic (β·(b₀ − b₁))` and `w₀ = 1 − w₁` (`sigmoid2`);
  for real logits that is `w₁ = softmax₀` and `w₀ = softmax₁`: the two classes exchanged. Everything else in a
  round treats the two classes alike, so the kernel's round is the reference's round followed by the exchange,
  and an even number of rounds agree.
-/
import Idealize.ShloMosaic.PureOps.Ideal

noncomputable section

namespace Cert.SoftKMeans

open Idealize.ShloMosaic

variable {N D : ℕ}

/-- Distance of point `n` to centroid `k`: `√ max (‖o_k‖² − two·⟨o_k, u_n⟩ + ny_n) eps`, with `ny_n` standing for `‖u_n‖²`. -/
def dist (two eps : EReal) (u : Fin N → Fin D → EReal) (ny : Fin N → EReal) (o : Fin 2 → Fin D → EReal)
    (k : Fin 2) (n : Fin N) : EReal :=
  Ideal.sqrt (max (((∑ d, o k d * o k d) - two * ∑ d, o k d * u n d) + ny n) eps)

/-- The reference's weights: the two-class softmax of the logits `beta·b`, the larger logit subtracted first. -/
def softmax2 (beta : EReal) (b : Fin 2 → Fin N → EReal) (k : Fin 2) (n : Fin N) : EReal :=
  Ideal.div (Ideal.exp (beta * b k n - max (beta * b 0 n) (beta * b 1 n)))
    (Ideal.exp (beta * b 0 n - max (beta * b 0 n) (beta * b 1 n))
      + Ideal.exp (beta * b 1 n - max (beta * b 0 n) (beta * b 1 n)))

/-- The kernel's weights: class 1 gets the logistic of `beta·(b₀ − b₁)`, class 0 the complement to one. -/
def sigmoid2 (beta : EReal) (b : Fin 2 → Fin N → EReal) (k : Fin 2) (n : Fin N) : EReal :=
  if k = 0 then 1 - Ideal.logistic (beta * (b 0 n - b 1 n)) else Ideal.logistic (beta * (b 0 n - b 1 n))

/-- The weighted mean of the points under the weights `c k`. -/
def update (u : Fin N → Fin D → EReal) (c : Fin 2 → Fin N → EReal) (k : Fin 2) (d : Fin D) : EReal :=
  Ideal.div (∑ n, c k n * u n d) (∑ n, c k n)

/-- One round of the reference. -/
def stepR (two eps beta : EReal) (u : Fin N → Fin D → EReal) (ny : Fin N → EReal)
    (o : Fin 2 → Fin D → EReal) : Fin 2 → Fin D → EReal :=
  update u (softmax2 beta (dist two eps u ny o))

/-- One round of the kernel. -/
def stepK (two eps beta : EReal) (u : Fin N → Fin D → EReal) (ny : Fin N → EReal)
    (o : Fin 2 → Fin D → EReal) : Fin 2 → Fin D → EReal :=
  update u (sigmoid2 beta (dist two eps u ny o))

end Cert.SoftKMeans

end
-- ==== Proof.KReadBase.lean ====
/-
  The per-batch-element views of the block's vectors. A block holds 32 batch elements; element `b` of it has
  196 points in dimension 512, two centroids, two weights per point and one squared norm per point. Each view
  fixes the batch coordinate and reads the remaining coordinates as plain functions into the extended reals,
  which is the form the index-level mathematics of one batch element is stated in. Also the three constants
  of a round as extended reals: the factor two of the cross term, the floor under the square root, and the
  slope of the logits.
-/
import proofs.«122523_j36721970381457_2_alg».proof.Proof.KSteps
import proofs.«122523_j36721970381457_2_alg».proof.Proof.Spec
import Idealize.ShloMosaic.Lib.ValueIdx

noncomputable section

namespace Cert.KernelIdeal.KRead

open Idealize.ShloMosaic ValueIdx Cert.KernelIdeal

/-- The points of batch element `b`: point `n`, feature `d`. -/
def pts (x : Vec Ideal S32x196x512 .f32) (b : Fin 32) : Fin 196 → Fin 512 → EReal := fun n d => x (ix3 b n d)

/-- The two centroids of batch element `b`: class `k`, feature `d`. -/
def cen (o : FVec Ideal S32x2x512 .f32) (b : Fin 32) : Fin 2 → Fin 512 → EReal := fun k d => o (ix3 b k d)

/-- The two rows over the points of batch element `b` (distances, or weights): class `k`, point `n`. -/
def wts (c : FVec Ideal S32x2x196 .f32) (b : Fin 32) : Fin 2 → Fin 196 → EReal := fun k n => c (ix3 b k n)

/-- The squared norms of the points of batch element `b`. -/
def nrm (ny : FVec Ideal S32x196 .f32) (b : Fin 32) : Fin 196 → EReal := fun n => ny (ix2 b n)

/-- The factor of the cross term `⟨o_k, u_n⟩` in the squared distance. -/
abbrev TWO : EReal := Ideal.ofBits .f32 0x40000000#32

/-- The floor the squared distance is raised to before the square root. -/
abbrev EPS : EReal := Ideal.ofBits .f32 0x2EDBE6FF#32

/-- The slope the distances are multiplied by to give the logits. -/
abbrev BETA : EReal := Ideal.ofBits .f32 0xC1200000#32

end Cert.KernelIdeal.KRead

end
-- ==== Proof.KReadLayout.lean ====
/-
  Layout operations of the round read at an index given by coordinates, for arrays of three axes: a trailing or
  a middle unit axis added by a shape cast, a unit axis repeated by a broadcast, one row cut out along the
  middle axis, two one-row arrays stacked along the middle axis, and two arrays joined along the last axis.
  Each statement names the operand's index by its coordinates, so that it applies to an operation by
  unification; the extents are arbitrary.
-/
import Idealize.ShloMosaic.Lib.ValueIdx
import Idealize.ShloMosaic.Lib.ValueLayout
import Idealize.ShloMosaic.Lib.Pipeline.Value

namespace Cert.KernelIdeal.KRead

open Idealize.ShloMosaic ValueIdx

variable {α : Type}

/-! ## A unit axis added by a shape cast -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-! ## A unit axis repeated by a broadcast -/

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-! ## One row cut out along the middle axis -/

/-- Row `r` of an `[a, b, c]` array, cut out as an `[a, 1, c]` array, reads at `(i, u, k)` the source at `(i, r, k)`. -/
theorem sliceRow_apply {a b c : ℕ} (r : Fin b) (X : (⟨3, ![a, b, c]⟩ : Shape).Idx → α)
    (h : (⟨3, ![a, b, c]⟩ : Shape).Slices ![0, r.val, 0] ⟨3, ![a, 1, c]⟩) (i : Fin a) (u : Fin 1) (k : Fin c) :
    extractStridedSlice ⟨3, ![a, 1, c]⟩ ![0, r.val, 0] X h (ix3 i u k) = X (ix3 i r k) :=
  slice3_axis1_apply r.val X h i u k r (by have : u.val = 0 := by omega
                                           rw [this, Nat.add_zero])

/-! ## Two one-row arrays stacked along the middle axis -/

/-- Two `[a, 1, c]` arrays stacked into `[a, 2, c]` read, at `(i, k, j)`, the first at `(i, 0, j)` when `k = 0` and
    the second at `(i, 0, j)` otherwise. -/
theorem stackRows_apply {a c : ℕ} (x₁ x₂ : (⟨3, ![a, 1, c]⟩ : Shape).Idx → α)
    (h : Shape.Concatenates [(⟨3, ![a, 1, c]⟩ : Shape), ⟨3, ![a, 1, c]⟩] ⟨3, ![a, 2, c]⟩ (1 : Fin 3))
    (i : Fin a) (k : Fin 2) (j : Fin c) :
    concatenate ⟨3, ![a, 2, c]⟩ (1 : Fin 3) [⟨⟨3, ![a, 1, c]⟩, x₁⟩, ⟨⟨3, ![a, 1, c]⟩, x₂⟩] h (ix3 i k j)
      = if k = 0 then x₁ (ix3 i (0 : Fin 1) j) else x₂ (ix3 i (0 : Fin 1) j) := by
  by_cases hk : k = 0
  · subst hk
    rw [if_pos rfl]
    refine concatenate_pair_apply_left (t := ⟨3, ![a, 2, c]⟩) (1 : Fin 3) x₁ x₂ h (ix3 i (0 : Fin 2) j) rfl
      (ix3 i (0 : Fin 1) j) fun ax => ?_
    match ax with
    | ⟨0, _⟩ => rfl
    | ⟨1, _⟩ => rfl
    | ⟨2, _⟩ => rfl
  · have hk1 : k = 1 := Fin.ext (by
      have h0 : k.val ≠ 0 := fun e => hk (Fin.ext e)
      have := k.isLt
      show k.val = 1
      omega)
    subst hk1
    rw [if_neg hk]
    refine concatenate_pair_apply_right (t := ⟨3, ![a, 2, c]⟩) (1 : Fin 3) x₁ x₂ h (ix3 i (1 : Fin 2) j) rfl rfl
      (ix3 i (0 : Fin 1) j) (fun ax hax => ?_) rfl
    match ax with
    | ⟨0, _⟩ => rfl
    | ⟨1, _⟩ => exact absurd rfl hax
    | ⟨2, _⟩ => rfl

/-! ## Two arrays joined along the last axis -/

/-- An `[a, b, c₁]` and an `[a, b, c₂]` array joined into `[a, b, c₁ + c₂]` read, at `(i, j, n)`, the first at
    `(i, j, n)` when `n < c₁` and the second at `(i, j, n - c₁)` otherwise. -/
theorem joinLanes_apply {a b c₁ c₂ : ℕ} (x₁ : (⟨3, ![a, b, c₁]⟩ : Shape).Idx → α) (x₂ : (⟨3, ![a, b, c₂]⟩ : Shape).Idx → α)
    (h : Shape.Concatenates [(⟨3, ![a, b, c₁]⟩ : Shape), ⟨3, ![a, b, c₂]⟩] ⟨3, ![a, b, c₁ + c₂]⟩ (2 : Fin 3))
    (i : Fin a) (j : Fin b) (n : Fin (c₁ + c₂)) :
    concatenate ⟨3, ![a, b, c₁ + c₂]⟩ (2 : Fin 3) [⟨⟨3, ![a, b, c₁]⟩, x₁⟩, ⟨⟨3, ![a, b, c₂]⟩, x₂⟩] h (ix3 i j n)
      = if hn : n.val < c₁ then x₁ (ix3 i j ⟨n.val, hn⟩)
        else x₂ (ix3 i j ⟨n.val - c₁, by have := n.isLt; omega⟩) := by
  by_cases hn : n.val < c₁
  · rw [dif_pos hn]
    refine concatenate_pair_apply_left (t := ⟨3, ![a, b, c₁ + c₂]⟩) (2 : Fin 3) x₁ x₂ h (ix3 i j n) rfl
      (ix3 i j ⟨n.val, hn⟩) fun ax => ?_
    match ax with
    | ⟨0, _⟩ => rfl
    | ⟨1, _⟩ => rfl
    | ⟨2, _⟩ => rfl
  · rw [dif_neg hn]
    refine concatenate_pair_apply_right (t := ⟨3, ![a, b, c₁ + c₂]⟩) (2 : Fin 3) x₁ x₂ h (ix3 i j n) rfl rfl
      (ix3 i j ⟨n.val - c₁, by have := n.isLt; omega⟩) (fun ax hax => ?_) ?_
    · match ax with
      | ⟨0, _⟩ => rfl
      | ⟨1, _⟩ => rfl
      | ⟨2, _⟩ => exact absurd rfl hax
    · show n.val - c₁ + c₁ = n.val
      omega

end Cert.KernelIdeal.KRead
-- ==== Proof.KReadSum.lean ====
/-
  A sum over the last axis of an array of three axes, read at an index: at the extended reals it is the finite
  sum over the last coordinate, with nothing added for the zero word the reduction starts from.
-/
import Idealize.ShloMosaic.Lib.ValueIdx
import Idealize.ShloMosaic.PureOps.Ideal.Laws

open scoped BigOperators

namespace Cert.KernelIdeal.KRead

open Idealize.ShloMosaic ValueIdx

/-- The sum of an `[a, b, c]` array over its last axis reads, at `(i, j)`, the sum over `d` of the array at `(i, j, d)`. -/
theorem laneSum_apply {a b c : ℕ} (src : FVec Ideal ⟨3, ![a, b, c]⟩ .f32)
    (h : (⟨3, ![a, b, c]⟩ : Shape).Reduces [(2 : Fin 3)] ⟨2, ![a, b]⟩) (hφ : FKind.Formats .f32)
    (hacc : (0x00000000#32 : BitVec 32) = 0x00000000#32) (i : Fin a) (j : Fin b) :
    multiReduction .add [(2 : Fin 3)] ⟨2, ![a, b]⟩ src 0x00000000#32 h hφ hacc (ix2 i j)
      = ∑ d : Fin c, src (ix3 i j d) := by
  refine (Ideal.multiReduction_add_single src 0x00000000#32 h hφ hacc (ix2 i j)).trans ?_
  refine Finset.sum_congr rfl fun d _ => congrArg src ?_
  funext ax
  apply Fin.ext
  match ax with
  | ⟨0, _⟩ => rfl
  | ⟨1, _⟩ => rfl
  | ⟨2, _⟩ => rfl

end Cert.KernelIdeal.KRead
-- ==== Proof.KReadDot.lean ====
/-
  The two products of a round read at an index. Both are taken batch element by batch element and contract one
  axis into the zero array, so at the extended reals each entry is the finite sum, over the contracted
  coordinate, of the products of the two operands' entries: the inner product of a centroid with a point (the
  feature axis of both contracted), and the weighted sum of the points (the point axis of both contracted).
-/
import proofs.«122523_j36721970381457_2_alg».proof.Proof.Gen.KernelIdeal
import Idealize.ShloMosaic.Lib.ValueIdx
import Idealize.ShloMosaic.PureOps.Ideal.Laws

set_option synthInstance.maxSize 4096

open scoped BigOperators

namespace Cert.KernelIdeal.KRead

open Idealize.ShloMosaic Idealize.SL.Sem ValueIdx Cert.KernelIdeal Cert.KernelIdeal.Facts₀ Cert.KernelIdeal.Facts

/-- The inner products of the centroids with the points: entry `(b, k, n)` is `∑ d, o (b, k, d) · x (b, n, d)`. -/
theorem dotCross_apply {φ₁ φ₂ : FTy} (prec : Option ContractPrecision) (o : FVec Ideal S32x2x512 φ₁) (x : FVec Ideal S32x196x512 φ₂)
    (b : Fin 32) (k : Fin 2) (n : Fin 196) :
    matmul dot_S32x2x512_S32x196x512_S32x2x196_2_2_1_1_0_0 prec o x (constant S32x2x196 .f32 0x00000000#32) (ix3 b k n)
      = ∑ d : Fin 512, o (ix3 b k d) * x (ix3 b n d) := by
  show FloatOps.matmul _ prec o x (constant S32x2x196 .f32 0x00000000#32) (ix3 b k n) = _
  rw [Ideal.matmul_constant_zero_apply,
    ← Equiv.sum_comp (contrEquiv1 dot_S32x2x512_S32x196x512_S32x2x196_2_2_1_1_0_0 512 rfl rfl).symm]
  refine Finset.sum_congr rfl fun d _ => ?_
  have c3 := contrEquiv1_symm_val dot_S32x2x512_S32x196x512_S32x2x196_2_2_1_1_0_0 512 rfl rfl d
  have l3 : dot_S32x2x512_S32x196x512_S32x2x196_2_2_1_1_0_0.lhsIdx (ix3 b k n)
      ((contrEquiv1 dot_S32x2x512_S32x196x512_S32x2x196_2_2_1_1_0_0 512 rfl rfl).symm d) = ix3 b k d := by
    funext ax; apply Fin.ext
    match ax with
    | ⟨0, _⟩ => simp [DotDims.lhsIdx, dot_S32x2x512_S32x196x512_S32x2x196_2_2_1_1_0_0]; rfl
    | ⟨1, _⟩ => simp [DotDims.lhsIdx, dot_S32x2x512_S32x196x512_S32x2x196_2_2_1_1_0_0]; rfl
    | ⟨2, _⟩ => simp [DotDims.lhsIdx, dot_S32x2x512_S32x196x512_S32x2x196_2_2_1_1_0_0]; exact c3
  have r3 : dot_S32x2x512_S32x196x512_S32x2x196_2_2_1_1_0_0.rhsIdx (ix3 b k n)
      ((contrEquiv1 dot_S32x2x512_S32x196x512_S32x2x196_2_2_1_1_0_0 512 rfl rfl).symm d) = ix3 b n d := by
    funext ax; apply Fin.ext
    match ax with
    | ⟨0, _⟩ => simp [DotDims.rhsIdx, dot_S32x2x512_S32x196x512_S32x2x196_2_2_1_1_0_0]; rfl
    | ⟨1, _⟩ => simp [DotDims.rhsIdx, dot_S32x2x512_S32x196x512_S32x2x196_2_2_1_1_0_0]; rfl
    | ⟨2, _⟩ => simp [DotDims.rhsIdx, dot_S32x2x512_S32x196x512_S32x2x196_2_2_1_1_0_0]; exact c3
  rw [l3, r3]

/-- The weighted sums of the points: entry `(b, k, d)` is `∑ n, c (b, k, n) · x (b, n, d)`. -/
theorem dotMean_apply {φ₁ φ₂ : FTy} (prec : Option ContractPrecision) (c : FVec Ideal S32x2x196 φ₁) (x : FVec Ideal S32x196x512 φ₂)
    (b : Fin 32) (k : Fin 2) (d : Fin 512) :
    matmul dot_S32x2x196_S32x196x512_S32x2x512_2_1_1_2_0_0 prec c x (constant S32x2x512 .f32 0x00000000#32) (ix3 b k d)
      = ∑ n : Fin 196, c (ix3 b k n) * x (ix3 b n d) := by
  show FloatOps.matmul _ prec c x (constant S32x2x512 .f32 0x00000000#32) (ix3 b k d) = _
  rw [Ideal.matmul_constant_zero_apply,
    ← Equiv.sum_comp (contrEquiv1 dot_S32x2x196_S32x196x512_S32x2x512_2_1_1_2_0_0 196 rfl rfl).symm]
  refine Finset.sum_congr rfl fun n _ => ?_
  have c3 := contrEquiv1_symm_val dot_S32x2x196_S32x196x512_S32x2x512_2_1_1_2_0_0 196 rfl rfl n
  have l3 : dot_S32x2x196_S32x196x512_S32x2x512_2_1_1_2_0_0.lhsIdx (ix3 b k d)
      ((contrEquiv1 dot_S32x2x196_S32x196x512_S32x2x512_2_1_1_2_0_0 196 rfl rfl).symm n) = ix3 b k n := by
    funext ax; apply Fin.ext
    match ax with
    | ⟨0, _⟩ => simp [DotDims.lhsIdx, dot_S32x2x196_S32x196x512_S32x2x512_2_1_1_2_0_0]; rfl
    | ⟨1, _⟩ => simp [DotDims.lhsIdx, dot_S32x2x196_S32x196x512_S32x2x512_2_1_1_2_0_0]; rfl
    | ⟨2, _⟩ => simp [DotDims.lhsIdx, dot_S32x2x196_S32x196x512_S32x2x512_2_1_1_2_0_0]; exact c3
  have r3 : dot_S32x2x196_S32x196x512_S32x2x512_2_1_1_2_0_0.rhsIdx (ix3 b k d)
      ((contrEquiv1 dot_S32x2x196_S32x196x512_S32x2x512_2_1_1_2_0_0 196 rfl rfl).symm n) = ix3 b n d := by
    funext ax; apply Fin.ext
    match ax with
    | ⟨0, _⟩ => simp [DotDims.rhsIdx, dot_S32x2x196_S32x196x512_S32x2x512_2_1_1_2_0_0]; rfl
    | ⟨1, _⟩ => simp [DotDims.rhsIdx, dot_S32x2x196_S32x196x512_S32x2x512_2_1_1_2_0_0]; exact c3
    | ⟨2, _⟩ => simp [DotDims.rhsIdx, dot_S32x2x196_S32x196x512_S32x2x512_2_1_1_2_0_0]; rfl
  rw [l3, r3]

end Cert.KernelIdeal.KRead
-- ==== Proof.KReadDist.lean ====
/-
  The distances of a round read for one batch element. The whole-vector expression is the square root of the
  larger of `‖o_k‖² − 2·⟨o_k, u_n⟩ + ‖u_n‖²` and the floor: the squared norms of the centroids are a sum over
  the feature axis repeated along the points, the cross term is the product of the centroids with the points,
  and the squared norms of the points are repeated along the two classes. Read at `(b, k, n)` these are the
  three finite sums of the index-level distance of batch element `b`.
-/
import proofs.«122523_j36721970381457_2_alg».proof.Proof.KReadBase
import proofs.«122523_j36721970381457_2_alg».proof.Proof.KReadLayout
import proofs.«122523_j36721970381457_2_alg».proof.Proof.KReadSum
import proofs.«122523_j36721970381457_2_alg».proof.Proof.KReadDot

set_option synthInstance.maxSize 4096

open scoped BigOperators

noncomputable section

namespace Cert.KernelIdeal.KRead

open Idealize.ShloMosaic Idealize.SL.Sem ValueIdx Cert.KernelIdeal Cert.KernelIdeal.Facts₀ Cert.KernelIdeal.Facts

/-- The squared norms of the points of batch element `b`: `∑ d, x (b, n, d)²`. -/
theorem sqNorms_apply (x : Vec Ideal S32x196x512 .f32) (b : Fin 32) :
    nrm (KSteps.sqNorms (F := Ideal) x) b = fun n => ∑ d : Fin 512, x (ix3 b n d) * x (ix3 b n d) := by
  funext n
  exact laneSum_apply (mulf x x) reduces_S32x196x512_S32x196 (.inl rfl) rfl b n

/-- Two extended reals built alike from equal parts are equal: the shape of one distance. -/
private theorem dist_congr (two eps : EReal) {A M C A' M' C' : EReal} (hA : A = A') (hM : M = M') (hC : C = C') :
    Ideal.sqrt (max ((A - two * M) + C) eps) = Ideal.sqrt (max ((A' - two * M') + C') eps) := by
  rw [hA, hM, hC]

/-- The distances of batch element `b` are the index-level distances of its points, squared norms and centroids. -/
theorem dist_apply (x : Vec Ideal S32x196x512 .f32) (ny : FVec Ideal S32x196 .f32) (o : FVec Ideal S32x2x512 .f32) (b : Fin 32) :
    wts (KSteps.dist (F := Ideal) x ny o) b = Cert.SoftKMeans.dist TWO EPS (pts x b) (nrm ny b) (cen o b) := by
  funext k n
  have hA : broadcastTo S32x2x196
        (shapeCast S32x2x1 (multiReduction .add [2] S32x2 (mulf o o) 0x00000000#32 reduces_S32x2x512_S32x2 (.inl rfl) rfl)
          shapeCasts_S32x2_S32x2x1)
        broadcasts_S32x2x1_S32x2x196 (ix3 b k n)
      = ∑ d : Fin 512, o (ix3 b k d) * o (ix3 b k d) :=
    (broadcastTo_ab1_abc_apply _ _ b k n).trans
      ((shapeCast_ab_ab1_apply _ _ b k 0).trans (laneSum_apply (mulf o o) reduces_S32x2x512_S32x2 (.inl rfl) rfl b k))
  have hM : matmul (φ₂ := .f32) dot_S32x2x512_S32x196x512_S32x2x196_2_2_1_1_0_0 (some .fp32) o x (constant S32x2x196 .f32 0x00000000#32) (ix3 b k n)
      = ∑ d : Fin 512, o (ix3 b k d) * x (ix3 b n d) := dotCross_apply (φ₂ := .f32) (some .fp32) o x b k n
  have hC : broadcastTo S32x2x196 (shapeCast S32x1x196 ny shapeCasts_S32x196_S32x1x196) broadcasts_S32x1x196_S32x2x196 (ix3 b k n)
      = ny (ix2 b n) :=
    (broadcastTo_a1c_abc_apply _ _ b k n).trans (shapeCast_ab_a1b_apply _ _ b 0 n)
  exact dist_congr TWO EPS hA hM hC

end Cert.KernelIdeal.KRead

end
-- ==== Proof.KReadAssign.lean ====
/-
  The weights of a round read for one batch element. The weight of class 1 is the logistic of the slope times
  the difference of the two distances, `b₀ − b₁`, each distance being one row cut out of the two; the weight of
  class 0 is its complement to one; the two rows are stacked back into one array. Read at `(b, k, n)` this is
  the index-level closed logistic form of batch element `b`.
-/
import proofs.«122523_j36721970381457_2_alg».proof.Proof.KReadBase
import proofs.«122523_j36721970381457_2_alg».proof.Proof.KReadLayout
import Idealize.ShloMosaic.Lib.IdealHost

set_option synthInstance.maxSize 4096

open scoped BigOperators

noncomputable section

namespace Cert.KernelIdeal.KRead

open Idealize.ShloMosaic Idealize.SL.Sem ValueIdx Cert.KernelIdeal Cert.KernelIdeal.Facts₀ Cert.KernelIdeal.Facts

/-- The weight of class 1 at point `n` of batch element `b`: the logistic of `β·(b₀ − b₁)`. -/
theorem weight1_apply (bd : FVec Ideal S32x2x196 .f32) (b : Fin 32) (n : Fin 196) :
    KSteps.weight1 (F := Ideal) bd (ix3 b (0 : Fin 1) n)
      = Ideal.logistic (BETA * (bd (ix3 b (0 : Fin 2) n) - bd (ix3 b (1 : Fin 2) n))) := by
  have s0 : extractStridedSlice S32x1x196 ![0, 0, 0] bd slices_S32x2x196_o0_0_0_S32x1x196 (ix3 b (0 : Fin 1) n)
      = bd (ix3 b (0 : Fin 2) n) := sliceRow_apply (0 : Fin 2) bd slices_S32x2x196_o0_0_0_S32x1x196 b 0 n
  have s1 : extractStridedSlice S32x1x196 ![0, 1, 0] bd slices_S32x2x196_o0_1_0_S32x1x196 (ix3 b (0 : Fin 1) n)
      = bd (ix3 b (1 : Fin 2) n) := sliceRow_apply (1 : Fin 2) bd slices_S32x2x196_o0_1_0_S32x1x196 b 0 n
  exact congrArg₂ (fun p q : EReal => Ideal.logistic (BETA * (p - q))) s0 s1

/-- The two weights of batch element `b` are the index-level closed logistic form of its two distances. -/
theorem assign_apply (bd : FVec Ideal S32x2x196 .f32) (b : Fin 32) :
    wts (KSteps.assign (F := Ideal) bd) b = Cert.SoftKMeans.sigmoid2 BETA (wts bd b) := by
  funext k n
  refine (stackRows_apply _ _ concatenates_S32x1x196_S32x1x196_S32x2x196_d1 b k n).trans ?_
  show _ = if k = 0 then 1 - Ideal.logistic (BETA * (bd (ix3 b (0 : Fin 2) n) - bd (ix3 b (1 : Fin 2) n)))
      else Ideal.logistic (BETA * (bd (ix3 b (0 : Fin 2) n) - bd (ix3 b (1 : Fin 2) n)))
  by_cases hk : k = 0
  · rw [if_pos hk, if_pos hk]
    show Ideal.ofBits .f32 0x3F800000#32 - KSteps.weight1 (F := Ideal) bd (ix3 b (0 : Fin 1) n) = _
    rw [weight1_apply, Ideal.ofBits_one_f32]
  · rw [if_neg hk, if_neg hk]
    exact weight1_apply bd b n

end Cert.KernelIdeal.KRead

end
-- ==== Proof.KReadUpdate.lean ====
/-
  The new centroids of a round read for one batch element. The whole-vector expression divides the product of
  the weights with the points by the sum of the weights over the points, repeated along the features. The
  product reads the points and the weights through a change of format that changes no value at the extended
  reals. Read at `(b, k, d)` this is the index-level weighted mean of batch element `b`.
-/
import proofs.«122523_j36721970381457_2_alg».proof.Proof.KReadBase
import proofs.«122523_j36721970381457_2_alg».proof.Proof.KReadLayout
import proofs.«122523_j36721970381457_2_alg».proof.Proof.KReadSum
import proofs.«122523_j36721970381457_2_alg».proof.Proof.KReadDot

set_option synthInstance.maxSize 4096

open scoped BigOperators

noncomputable section

namespace Cert.KernelIdeal.KRead

open Idealize.ShloMosaic Idealize.SL.Sem ValueIdx Cert.KernelIdeal Cert.KernelIdeal.Facts₀ Cert.KernelIdeal.Facts

/-- The points in the narrower format are the points. -/
theorem narrow_apply (x : Vec Ideal S32x196x512 .f32) (i : S32x196x512.Idx) : KSteps.narrow (F := Ideal) x i = x i := by
  unfold KSteps.narrow
  rw [shapeCast_self]
  rfl

/-- The new centroids of batch element `b` are the index-level weighted means of its points under its weights. -/
theorem update_apply (x : Vec Ideal S32x196x512 .f32) (c : FVec Ideal S32x2x196 .f32) (b : Fin 32) :
    cen (KSteps.update (F := Ideal) (KSteps.narrow x) c) b = Cert.SoftKMeans.update (pts x b) (wts c b) := by
  funext k d
  have hnum : matmul dot_S32x2x196_S32x196x512_S32x2x512_2_1_1_2_0_0 none (truncf .bf16 c bitsLt_bf16_f32) (KSteps.narrow x)
        (constant S32x2x512 .f32 0x00000000#32) (ix3 b k d)
      = ∑ n : Fin 196, c (ix3 b k n) * x (ix3 b n d) :=
    (dotMean_apply none (truncf .bf16 c bitsLt_bf16_f32) (KSteps.narrow x) b k d).trans
      (Finset.sum_congr rfl fun n _ => congrArg (c (ix3 b k n) * ·) (narrow_apply x (ix3 b n d)))
  have hden : broadcastTo S32x2x512
        (shapeCast S32x2x1 (multiReduction .add [2] S32x2 c 0x00000000#32 reduces_S32x2x196_S32x2 (.inl rfl) rfl) shapeCasts_S32x2_S32x2x1)
        broadcasts_S32x2x1_S32x2x512 (ix3 b k d)
      = ∑ n : Fin 196, c (ix3 b k n) :=
    (broadcastTo_ab1_abc_apply _ _ b k d).trans
      ((shapeCast_ab_ab1_apply _ _ b k 0).trans (laneSum_apply c reduces_S32x2x196_S32x2 (.inl rfl) rfl b k))
  exact congrArg₂ Ideal.div hnum hden

end Cert.KernelIdeal.KRead

end
-- ==== Proof.KReadPad.lean ====
/-
  The initial centroids and the padded weights read at an index. The initial centroids stack one chosen point
  per class; the weight output joins the 196 weights of a class with 60 zero lanes.
-/
import proofs.«122523_j36721970381457_2_alg».proof.Proof.KReadBase
import proofs.«122523_j36721970381457_2_alg».proof.Proof.KReadLayout
import Idealize.ShloMosaic.PureOps.Ideal.Laws

set_option synthInstance.maxSize 4096

open scoped BigOperators

noncomputable section

namespace Cert.KernelIdeal.KRead

open Idealize.ShloMosaic Idealize.SL.Sem ValueIdx Cert.KernelIdeal Cert.KernelIdeal.Facts₀ Cert.KernelIdeal.Facts

/-- The initial centroids of batch element `b`: class 0 is the first chosen row, class 1 the second. -/
theorem init_apply (r50 r98 : Vec Ideal S32x1x512 .f32) (b : Fin 32) :
    cen (KSteps.init (F := Ideal) r50 r98) b = fun k d => if k = 0 then r50 (ix3 b 0 d) else r98 (ix3 b 0 d) := by
  funext k d
  exact stackRows_apply r50 r98 concatenates_S32x1x512_S32x1x512_S32x2x512_d1 b k d

/-- The padded weights: lane `n` holds the weight of point `n` for `n < 196` and zero beyond. -/
theorem pad_apply (c : FVec Ideal S32x2x196 .f32) (b : Fin 32) (k : Fin 2) (n : Fin 256) :
    KSteps.pad (F := Ideal) c (ix3 b k n) = if h : n.val < 196 then c (ix3 b k ⟨n.val, h⟩) else 0 := by
  refine (joinLanes_apply (c₁ := 196) (c₂ := 60) c (broadcast S32x2x60 (Scalar.ofBits .f32 0x00000000#32))
    concatenates_S32x2x196_S32x2x60_S32x2x256_d2 b k n).trans ?_
  by_cases hn : n.val < 196
  · rw [dif_pos hn, dif_pos hn]
  · rw [dif_neg hn, dif_neg hn]
    exact Ideal.ofBits_zero_f32

end Cert.KernelIdeal.KRead

end
-- ==== Proof.KRead.lean ====
/-
  The whole-vector functions of one round on a block of 32 batch elements, read batch element by batch
  element: the squared norms, the initial centroids, the distances, the weights, the weighted means and the
  padded weights each agree, at every batch coordinate, with the index-level mathematics of one batch element.
  This module gathers the statements; each is proved in the module named after its operation.
-/
import proofs.«122523_j36721970381457_2_alg».proof.Proof.KReadBase
import proofs.«122523_j36721970381457_2_alg».proof.Proof.KReadDist
import proofs.«122523_j36721970381457_2_alg».proof.Proof.KReadAssign
import proofs.«122523_j36721970381457_2_alg».proof.Proof.KReadUpdate
import proofs.«122523_j36721970381457_2_alg».proof.Proof.KReadPad
-- ==== Proof.ArrSpec.lean ====
/-
  The two results as functions of the WHOLE argument array, batch element by batch element: element `B`'s points
  are `X (B, ·, ·)`, its squared norms their sums of squares, its starting centroids its rows 50 and 98; the
  centroid result is ten rounds from there, the weight result the weights of the tenth round.  `…K` runs the
  kernel's round (weights by the logistic form), `…R` the reference's (weights by the softmax).
-/
import proofs.«122523_j36721970381457_2_alg».proof.Proof.Spec
import Idealize.ShloMosaic.Lib.ValueIdx

noncomputable section

namespace Cert.ArrSpec

open Idealize.ShloMosaic ValueIdx Cert.SoftKMeans

abbrev TWO : EReal := Ideal.ofBits .f32 0x40000000#32
abbrev EPS : EReal := Ideal.ofBits .f32 0x2EDBE6FF#32
abbrev BETA : EReal := Ideal.ofBits .f32 0xC1200000#32

/-- The array of points, f32[2048, 196, 512], at the ideal instance. -/
abbrev Pts : Type := (⟨3, ![2048, 196, 512]⟩ : Shape).Idx → EReal

/-- Batch element `B`'s points. -/
def pts (X : Pts) (B : Fin 2048) : Fin 196 → Fin 512 → EReal := fun n d => X (ix3 B n d)

/-- Their squared norms. -/
def nrm (X : Pts) (B : Fin 2048) : Fin 196 → EReal := fun n => ∑ d : Fin 512, X (ix3 B n d) * X (ix3 B n d)

/-- The starting centroids: rows 50 and 98. -/
def start (X : Pts) (B : Fin 2048) : Fin 2 → Fin 512 → EReal :=
  fun k d => X (ix3 B (if k = 0 then (50 : Fin 196) else 98) d)

/-- The kernel's centroids after ten rounds. -/
def cenK (X : Pts) (B : Fin 2048) : Fin 2 → Fin 512 → EReal :=
  (stepK TWO EPS BETA (pts X B) (nrm X B))^[10] (start X B)

/-- The kernel's weights in the tenth round. -/
def wtsK (X : Pts) (B : Fin 2048) : Fin 2 → Fin 196 → EReal :=
  sigmoid2 BETA (dist TWO EPS (pts X B) (nrm X B) ((stepK TWO EPS BETA (pts X B) (nrm X B))^[9] (start X B)))

/-- The reference's centroids after ten rounds. -/
def cenR (X : Pts) (B : Fin 2048) : Fin 2 → Fin 512 → EReal :=
  (stepR TWO EPS BETA (pts X B) (nrm X B))^[10] (start X B)

/-- The reference's weights in the tenth round. -/
def wtsR (X : Pts) (B : Fin 2048) : Fin 2 → Fin 196 → EReal :=
  softmax2 BETA (dist TWO EPS (pts X B) (nrm X B) ((stepR TWO EPS BETA (pts X B) (nrm X B))^[9] (start X B)))

/-- The centroid result array, f32[2048, 2, 512]. -/
def arrO (cen : Fin 2048 → Fin 2 → Fin 512 → EReal) : (⟨3, ![2048, 2, 512]⟩ : Shape).Idx → EReal :=
  fun j => cen (j 0) (j 1) (j 2)

/-- The weight result array, f32[2048, 2, 196]. -/
def arrC (wts : Fin 2048 → Fin 2 → Fin 196 → EReal) : (⟨3, ![2048, 2, 196]⟩ : Shape).Idx → EReal :=
  fun j => wts (j 0) (j 1) (j 2)

/-- The weight array as the kernel region writes it, f32[2048, 2, 256]: lanes 196 … 255 are zero. -/
def arrCpad (wts : Fin 2048 → Fin 2 → Fin 196 → EReal) : (⟨3, ![2048, 2, 256]⟩ : Shape).Idx → EReal :=
  fun j => if h : (j 2).val < 196 then wts (j 0) (j 1) ⟨(j 2).val, h⟩ else 0

theorem arrO_ix3 (cen : Fin 2048 → Fin 2 → Fin 512 → EReal) (B : Fin 2048) (k : Fin 2) (d : Fin 512) :
    arrO cen (ix3 B k d) = cen B k d := rfl

theorem arrC_ix3 (wts : Fin 2048 → Fin 2 → Fin 196 → EReal) (B : Fin 2048) (k : Fin 2) (n : Fin 196) :
    arrC wts (ix3 B k n) = wts B k n := rfl

theorem arrCpad_ix3 (wts : Fin 2048 → Fin 2 → Fin 196 → EReal) (B : Fin 2048) (k : Fin 2) (n : Fin 256) :
    arrCpad wts (ix3 B k n) = if h : n.val < 196 then wts B k ⟨n.val, h⟩ else 0 := rfl

end Cert.ArrSpec

end
-- ==== Proof.KBlock.lean ====
/-
  The kernel's two output blocks read entry by entry: batch element `b` of the block runs the per-element rounds
  of the specification on its own points, squared norms and starting rows, because every whole-vector operation of
  the body acts on each batch element separately.
-/
import proofs.«122523_j36721970381457_2_alg».proof.Proof.KPieces
import proofs.«122523_j36721970381457_2_alg».proof.Proof.KRead
import proofs.«122523_j36721970381457_2_alg».proof.Proof.ArrSpec

noncomputable section

namespace Cert.KernelIdeal.KBlock

open Idealize.ShloMosaic Idealize.SL.Sem Cert.KernelIdeal ValueIdx Cert.SoftKMeans
open Cert.KernelIdeal.KPieces Cert.KernelIdeal.KRead

/-- Batch element `b`'s squared norms within the block. -/
def blkNrm (x : Vec Ideal S32x196x512 .f32) (b : Fin 32) : Fin 196 → EReal :=
  fun n => ∑ d : Fin 512, x (ix3 b n d) * x (ix3 b n d)

/-- Batch element `b`'s starting centroids within the block: its rows 50 and 98. -/
def blkStart (x : Vec Ideal S32x196x512 .f32) (b : Fin 32) : Fin 2 → Fin 512 → EReal :=
  fun k d => x (ix3 b (if k = 0 then (50 : Fin 196) else 98) d)

theorem row50_apply (x : Vec Ideal S32x196x512 .f32) (b : Fin 32) (d : Fin 512) : row50 x (ix3 b 0 d) = x (ix3 b 50 d) := by
  unfold row50
  show x ((Rect.unit (s := S32x196x512) ![0, 50, 0] S32x1x512.size _).emb (ix3 b 0 d)) = _
  congr 1
  funext a; apply Fin.ext
  match a with
  | ⟨0, _⟩ => show 0 + 1 * b.val = b.val; omega
  | ⟨1, _⟩ => show 50 + 1 * 0 = 50; rfl
  | ⟨2, _⟩ => show 0 + 1 * d.val = d.val; omega

theorem row98_apply (x : Vec Ideal S32x196x512 .f32) (b : Fin 32) (d : Fin 512) : row98 x (ix3 b 0 d) = x (ix3 b 98 d) := by
  unfold row98
  show x ((Rect.unit (s := S32x196x512) ![0, 98, 0] S32x1x512.size _).emb (ix3 b 0 d)) = _
  congr 1
  funext a; apply Fin.ext
  match a with
  | ⟨0, _⟩ => show 0 + 1 * b.val = b.val; omega
  | ⟨1, _⟩ => show 98 + 1 * 0 = 98; rfl
  | ⟨2, _⟩ => show 0 + 1 * d.val = d.val; omega

/-- The starting centroids of batch element `b`. -/
theorem start_eq (x : Vec Ideal S32x196x512 .f32) (b : Fin 32) :
    cen (KSteps.init (F := Ideal) (row50 x) (row98 x)) b = blkStart x b := by
  rw [init_apply]
  funext k d
  unfold blkStart
  by_cases hk : k = 0
  · rw [if_pos hk, if_pos hk, row50_apply]
  · rw [if_neg hk, if_neg hk, row98_apply]

/-- One round of the block is, on batch element `b`, one round of the specification. -/
theorem step_cen (x : Vec Ideal S32x196x512 .f32) (o : FVec Ideal S32x2x512 .f32) (b : Fin 32) :
    cen (KSteps.step (F := Ideal) x (KSteps.sqNorms x) (KSteps.narrow x) o) b
      = stepK TWO EPS BETA (pts x b) (blkNrm x b) (cen o b) := by
  unfold KSteps.step stepK
  rw [update_apply, assign_apply, dist_apply, sqNorms_apply]
  rfl

theorem iterate_cen (x : Vec Ideal S32x196x512 .f32) (b : Fin 32) (n : ℕ) (o : FVec Ideal S32x2x512 .f32) :
    cen ((KSteps.step (F := Ideal) x (KSteps.sqNorms x) (KSteps.narrow x))^[n] o) b
      = (stepK TWO EPS BETA (pts x b) (blkNrm x b))^[n] (cen o b) := by
  induction n generalizing o with
  | zero => rfl
  | succ n ih => rw [Function.iterate_succ_apply, Function.iterate_succ_apply, ih, step_cen]

/-- The centroid block at an entry. -/
theorem blockO_apply (x : Vec Ideal S32x196x512 .f32) (b : Fin 32) (k : Fin 2) (d : Fin 512) :
    KSteps.blockO (F := Ideal) x (row50 x) (row98 x) (ix3 b k d)
      = (stepK TWO EPS BETA (pts x b) (blkNrm x b))^[10] (blkStart x b) k d := by
  have h := iterate_cen x b 10 (KSteps.init (F := Ideal) (row50 x) (row98 x))
  rw [start_eq] at h
  exact congrFun (congrFun h k) d

/-- The weight block at an entry: the tenth round's weights on lanes below 196, zero above. -/
theorem blockC_apply (x : Vec Ideal S32x196x512 .f32) (b : Fin 32) (k : Fin 2) (n : Fin 256) :
    KSteps.blockC (F := Ideal) x (row50 x) (row98 x) (ix3 b k n)
      = if h : n.val < 196 then
          sigmoid2 BETA (dist TWO EPS (pts x b) (blkNrm x b) ((stepK TWO EPS BETA (pts x b) (blkNrm x b))^[9] (blkStart x b))) k ⟨n.val, h⟩
        else 0 := by
  unfold KSteps.blockC
  rw [pad_apply]
  have h9 := iterate_cen x b 9 (KSteps.init (F := Ideal) (row50 x) (row98 x))
  rw [start_eq] at h9
  have hw : wts (KSteps.assign (F := Ideal) (KSteps.dist (F := Ideal) x (KSteps.sqNorms x)
        ((KSteps.step (F := Ideal) x (KSteps.sqNorms x) (KSteps.narrow x))^[9] (KSteps.init (F := Ideal) (row50 x) (row98 x))))) b
      = sigmoid2 BETA (dist TWO EPS (pts x b) (blkNrm x b) ((stepK TWO EPS BETA (pts x b) (blkNrm x b))^[9] (blkStart x b))) := by
    rw [assign_apply, dist_apply, sqNorms_apply, h9]
    rfl
  by_cases hn : n.val < 196
  · rw [dif_pos hn, dif_pos hn]
    exact congrFun (congrFun hw k) ⟨n.val, hn⟩
  · rw [dif_neg hn, dif_neg hn]

end Cert.KernelIdeal.KBlock

end
-- ==== Proof.KFinal.lean ====
/-
  From the kernel's blocks to its result arrays.  The grid has 64 points; point `t` works on batch rows
  `32·t … 32·t+31`, whole on the other axes, for the input and for both outputs.  What point `t` writes back is
  therefore block `t` of one whole-array function — the per-element ten rounds of the specification — and the 64
  blocks tile each output array, so after the region each output array IS that function.  The program then slices
  the padded weight array back to 196 lanes.
-/
import proofs.«122523_j36721970381457_2_alg».proof.Proof.Gen.KernelIdeal.Frame
import proofs.«122523_j36721970381457_2_alg».proof.Proof.KPieces
import proofs.«122523_j36721970381457_2_alg».proof.Proof.KBlock
import proofs.«122523_j36721970381457_2_alg».proof.Proof.ArrSpec
import Idealize.ShloMosaic.Lib.Pipeline.Value
import Idealize.ShloMosaic.Lib.ValueIdx
import Idealize.ShloMosaic.Lib.StableHlo.Run

set_option maxRecDepth 16384

noncomputable section

namespace Cert.KernelIdeal.KFinal

open Idealize.ShloMosaic Idealize.ShloMosaic.TcCoe Idealize.SL.Sem Cert.KernelIdeal Cert.KernelIdeal.Gen ValueIdx
open Idealize.ShloMosaic.Pipeline (Dat Cfg Window)
open Cert.SoftKMeans Cert.ArrSpec Cert.KernelIdeal.KPieces Cert.KernelIdeal.KBlock

variable (m : (ℓ : Loc nD τ sig) → Buf (Elt Ideal) ℓ) (ρ : Dev nD → PrngReg)

/-- The printed index maps over the grid: every window's block at point `t` is batch rows `32·t … 32·t+31`, whole on the other two axes. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Batch row `32·t + b` of the whole array. -/
def row (t : Fin cfg0.N) (b : Fin 32) : Fin 2048 := ⟨32 * t.val + b.val, by have ht : t.val < 64 := t.isLt; omega⟩

/-- The input block at point `t` holds batch rows `32·t … 32·t+31` of the argument array. -/
theorem iblk_apply (c : Dev nD) (t : Fin cfg0.N) (b : Fin 32) (n : Fin 196) (d : Fin 512) :
    iblk m c 0 t (ix3 b n d) = V m c main_arg0 (ix3 (row t b) n d) := by
  obtain ⟨e0, e1, e2, -⟩ := idx_facts t
  show V m c main_arg0 (((cfg0.win 0).blk t).view.emb (ix3 b n d)) = V m c main_arg0 (ix3 (row t b) n d)
  congr 1
  funext a; apply Fin.ext
  match a with
  | ⟨0, _⟩ => show win0_0.index t (0 : Fin 3) * 32 + 1 * b.val = 32 * t.val + b.val; omega
  | ⟨1, _⟩ => show win0_0.index t (1 : Fin 3) * 196 + 1 * n.val = n.val; omega
  | ⟨2, _⟩ => show win0_0.index t (2 : Fin 3) * 512 + 1 * d.val = d.val; omega

theorem pts_iblk (c : Dev nD) (t : Fin cfg0.N) (b : Fin 32) :
    Cert.KernelIdeal.KRead.pts (iblk m c 0 t) b = Cert.ArrSpec.pts (V m c main_arg0) (row t b) := by
  funext n d; exact iblk_apply m c t b n d

theorem nrm_iblk (c : Dev nD) (t : Fin cfg0.N) (b : Fin 32) :
    blkNrm (iblk m c 0 t) b = Cert.ArrSpec.nrm (V m c main_arg0) (row t b) := by
  funext n; unfold blkNrm Cert.ArrSpec.nrm
  exact Finset.sum_congr rfl fun d _ => by rw [iblk_apply]

theorem start_iblk (c : Dev nD) (t : Fin cfg0.N) (b : Fin 32) :
    blkStart (iblk m c 0 t) b = Cert.ArrSpec.start (V m c main_arg0) (row t b) := by
  funext k d; exact iblk_apply m c t b _ d

/-- WHAT POINT `t` WRITES BACK to the centroid array is block `t` of the per-element ten rounds. -/
theorem flushed1_eq (c : Dev nD) (t : Fin cfg0.N) :
    (dats m 0 c).flushed 1 t = ((cfg0.win 1).blk t).view.read (Elt Ideal) (arrO (cenK (V m c main_arg0))) := by
  show (cfg0.win 1).cut (grid0.coords t) ((dats m 0 c).after 1 t) = _
  rw [after0_1]
  unfold outsAt0
  dsimp only
  rw [out1_eq]
  obtain ⟨-, -, -, e0, e1, e2, -⟩ := idx_facts t
  funext y
  obtain ⟨b, k, d, rfl⟩ : ∃ (b : Fin 32) (k : Fin 2) (d : Fin 512), y = ix3 b k d := ⟨y 0, y 1, y 2, eq_ix3 y⟩
  show KSteps.blockO (F := Ideal) (iblk m c 0 t) (row50 (iblk m c 0 t)) (row98 (iblk m c 0 t)) (ix3 b k d)
    = arrO (cenK (V m c main_arg0)) (((cfg0.win 1).blk t).view.emb (ix3 b k d))
  have hemb : ((cfg0.win 1).blk t).view.emb (ix3 b k d) = ix3 (row t b) k d := by
    funext a; apply Fin.ext
    match a with
    | ⟨0, _⟩ => show win0_1.index t (0 : Fin 3) * 32 + 1 * b.val = 32 * t.val + b.val; omega
    | ⟨1, _⟩ => show win0_1.index t (1 : Fin 3) * 2 + 1 * k.val = k.val; omega
    | ⟨2, _⟩ => show win0_1.index t (2 : Fin 3) * 512 + 1 * d.val = d.val; omega
  rw [hemb, arrO_ix3, blockO_apply, pts_iblk, nrm_iblk, start_iblk]
  rfl

/-- WHAT POINT `t` WRITES BACK to the padded weight array is block `t` of the per-element tenth-round weights, zero past lane 195. -/
theorem flushed2_eq (c : Dev nD) (t : Fin cfg0.N) :
    (dats m 0 c).flushed 2 t = ((cfg0.win 2).blk t).view.read (Elt Ideal) (arrCpad (wtsK (V m c main_arg0))) := by
  show (cfg0.win 2).cut (grid0.coords t) ((dats m 0 c).after 2 t) = _
  rw [after0_2]
  unfold outsAt0
  dsimp only
  rw [out2_eq]
  obtain ⟨-, -, -, -, -, -, e0, e1, e2⟩ := idx_facts t
  funext y
  obtain ⟨b, k, n, rfl⟩ : ∃ (b : Fin 32) (k : Fin 2) (n : Fin 256), y = ix3 b k n := ⟨y 0, y 1, y 2, eq_ix3 y⟩
  show KSteps.blockC (F := Ideal) (iblk m c 0 t) (row50 (iblk m c 0 t)) (row98 (iblk m c 0 t)) (ix3 b k n)
    = arrCpad (wtsK (V m c main_arg0)) (((cfg0.win 2).blk t).view.emb (ix3 b k n))
  have hemb : ((cfg0.win 2).blk t).view.emb (ix3 b k n) = ix3 (row t b) k n := by
    funext a; apply Fin.ext
    match a with
    | ⟨0, _⟩ => show win0_2.index t (0 : Fin 3) * 32 + 1 * b.val = 32 * t.val + b.val; omega
    | ⟨1, _⟩ => show win0_2.index t (1 : Fin 3) * 2 + 1 * k.val = k.val; omega
    | ⟨2, _⟩ => show win0_2.index t (2 : Fin 3) * 256 + 1 * n.val = n.val; omega
  rw [hemb, arrCpad_ix3, blockC_apply, pts_iblk, nrm_iblk, start_iblk]
  rfl

/-- An index of the centroid array is in point `t`'s block iff each coordinate is in the block's range. -/
theorem mem_blk1 (t : Fin cfg0.N) (i : S2048x2x512.Idx) :
    i ∈ ((cfg0.win 1).blk t).view.set ↔ ∀ a : Fin 3, win0_1.index t a * S32x2x512.size a ≤ (i a).val ∧ (i a).val < win0_1.index t a * S32x2x512.size a + S32x2x512.size a := by
  show i ∈ ((View.whole main_v0_0).slice (win0_1.rect t)).set ↔ _
  rw [View.set_slice_whole, Rect.mem_set_unit]
  exact Iff.rfl

theorem mem_blk2 (t : Fin cfg0.N) (i : S2048x2x256.Idx) :
    i ∈ ((cfg0.win 2).blk t).view.set ↔ ∀ a : Fin 3, win0_2.index t a * S32x2x256.size a ≤ (i a).val ∧ (i a).val < win0_2.index t a * S32x2x256.size a + S32x2x256.size a := by
  show i ∈ ((View.whole main_v0_1).slice (win0_2.rect t)).set ↔ _
  rw [View.set_slice_whole, Rect.mem_set_unit]
  exact Iff.rfl

/-- The 64 blocks tile the centroid array: batch row `r` is in block `r / 32`. -/
theorem cover1 (i : S2048x2x512.Idx) : ∃ t : Fin cfg0.N, (cfg0.win 1).flush t = true ∧ i ∈ ((cfg0.win 1).blk t).view.set := by
  have h0 : (i 0).val < 2048 := (i 0).isLt
  have h1 : (i 1).val < 2 := (i 1).isLt
  have h2 : (i 2).val < 512 := (i 2).isLt
  refine ⟨⟨(i 0).val / 32, by show (i 0).val / 32 < 64; omega⟩, flush0_1 _, ?_⟩
  rw [mem_blk1]
  obtain ⟨-, -, -, e0, e1, e2, -⟩ := idx_facts ⟨(i 0).val / 32, by show (i 0).val / 32 < 64; omega⟩
  intro a
  match a with
  | ⟨0, _⟩ => show win0_1.index _ (0 : Fin 3) * 32 ≤ (i 0).val ∧ (i 0).val < win0_1.index _ (0 : Fin 3) * 32 + 32; rw [e0]; show (i 0).val / 32 * 32 ≤ _ ∧ _ < (i 0).val / 32 * 32 + 32; omega
  | ⟨1, _⟩ => show win0_1.index _ (1 : Fin 3) * 2 ≤ (i 1).val ∧ (i 1).val < win0_1.index _ (1 : Fin 3) * 2 + 2; rw [e1]; omega
  | ⟨2, _⟩ => show win0_1.index _ (2 : Fin 3) * 512 ≤ (i 2).val ∧ (i 2).val < win0_1.index _ (2 : Fin 3) * 512 + 512; rw [e2]; omega

theorem cover2 (i : S2048x2x256.Idx) : ∃ t : Fin cfg0.N, (cfg0.win 2).flush t = true ∧ i ∈ ((cfg0.win 2).blk t).view.set := by
  have h0 : (i 0).val < 2048 := (i 0).isLt
  have h1 : (i 1).val < 2 := (i 1).isLt
  have h2 : (i 2).val < 256 := (i 2).isLt
  refine ⟨⟨(i 0).val / 32, by show (i 0).val / 32 < 64; omega⟩, flush0_2 _, ?_⟩
  rw [mem_blk2]
  obtain ⟨-, -, -, -, -, -, e0, e1, e2⟩ := idx_facts ⟨(i 0).val / 32, by show (i 0).val / 32 < 64; omega⟩
  intro a
  match a with
  | ⟨0, _⟩ => show win0_2.index _ (0 : Fin 3) * 32 ≤ (i 0).val ∧ (i 0).val < win0_2.index _ (0 : Fin 3) * 32 + 32; rw [e0]; show (i 0).val / 32 * 32 ≤ _ ∧ _ < (i 0).val / 32 * 32 + 32; omega
  | ⟨1, _⟩ => show win0_2.index _ (1 : Fin 3) * 2 ≤ (i 1).val ∧ (i 1).val < win0_2.index _ (1 : Fin 3) * 2 + 2; rw [e1]; omega
  | ⟨2, _⟩ => show win0_2.index _ (2 : Fin 3) * 256 ≤ (i 2).val ∧ (i 2).val < win0_2.index _ (2 : Fin 3) * 256 + 256; rw [e2]; omega

/-- THE CENTROID ARRAY after the region. -/
theorem final1 (c : Dev nD) : (dats m 0 c).arrAt 1 cfg0.N = arrO (cenK (V m c main_arg0)) :=
  (dats m 0 c).arrAt_eq_of_cover 1 _ (fun t _ => flushed1_eq m c t) cover1

/-- THE PADDED WEIGHT ARRAY after the region. -/
theorem final2 (c : Dev nD) : (dats m 0 c).arrAt 2 cfg0.N = arrCpad (wtsK (V m c main_arg0)) :=
  (dats m 0 c).arrAt_eq_of_cover 2 _ (fun t _ => flushed2_eq m c t) cover2

end Cert.KernelIdeal.KFinal

namespace Cert.KernelIdeal.KFinal

open Idealize.ShloMosaic Idealize.ShloMosaic.TcCoe Idealize.SL.Sem Cert.KernelIdeal Cert.KernelIdeal.Gen ValueIdx
open Idealize.ShloMosaic.Pipeline (Dat Cfg Window)
open Idealize.ShloMosaic.StableHlo
open Cert.SoftKMeans Cert.ArrSpec

variable (m : (ℓ : Loc nD τ sig) → Buf (Elt Ideal) ℓ) (ρ : Dev nD → PrngReg)

/-- Dropping the 60 padding lanes of the padded weight array leaves the weight array. -/
theorem slice_pad (w : Fin 2048 → Fin 2 → Fin 196 → EReal) :
    extractStridedSlice S2048x2x196 ![0, 0, 0] (arrCpad w) Cert.KernelIdeal.Facts₀.slices_S2048x2x256_S2048x2x196_0_0_0 = arrC w := by
  funext j
  obtain ⟨B, k, n, rfl⟩ : ∃ (B : Fin 2048) (k : Fin 2) (n : Fin 196), j = ix3 B k n := ⟨j 0, j 1, j 2, eq_ix3 j⟩
  have hn : n.val < 256 := by have := n.isLt; omega
  rw [extractStridedSlice_apply ![0, 0, 0] (arrCpad w) _ (ix3 B k n) (ix3 B k ⟨n.val, hn⟩) (by
    intro a
    match a with
    | ⟨0, _⟩ => show B.val = 0 + B.val; omega
    | ⟨1, _⟩ => show k.val = 0 + k.val; omega
    | ⟨2, _⟩ => show n.val = 0 + n.val; omega)]
  rw [arrCpad_ix3, arrC_ix3, dif_pos n.isLt]

/-- The weight result: the host's slice of the region's padded weight array. -/
theorem tail_v1 (c : Dev nD) :
    Pipeline.afterTail₀ cfgs (dats m) 0 (V0 m) [hostOps1] c main_v1 = arrC (wtsK (V m c main_arg0)) := by
  unfold Pipeline.afterTail₀
  show StableHlo.after hostOps1 _ (Proc.devRef .tc main_v1) = _
  after_results
  have h2 := (Pipeline.withArrays_arr spec0 launch0.win.arr_inj c (V0 m c) (fun w => (dats m 0 c).arrAt w cfg0.N) 2).trans (final2 m c)
  exact (congrArg (fun z => extractStridedSlice S2048x2x196 ![0, 0, 0] z Cert.KernelIdeal.Facts₀.slices_S2048x2x256_S2048x2x196_0_0_0) h2).trans (slice_pad (wtsK (V m c main_arg0)))

theorem v1_rest : main_v1 ∈ Pipeline.restRefs sig (cfgs 0).spec :=
  Pipeline.mem_restRefs_of main_v1 rfl (fun w => by fin_cases w <;> decide)

/-- THE KERNEL PROGRAM'S RUN, READ: the centroid result holds the per-element ten rounds, the weight result the
    tenth round's weights, the argument array is unchanged. -/
theorem run : θ_run defs (onTc (τ := τ) (main (F := Ideal))) ⟨m, fun _ => 0, ρ⟩ fun r => ∀ c : Dev nD,
      r.2.mem ((c.tc : Thread nD τ).loc main_v0_0) = arrO (cenK (m ((c.tc : Thread nD τ).loc main_arg0)))
      ∧ r.2.mem ((c.tc : Thread nD τ).loc main_v1) = arrC (wtsK (m ((c.tc : Thread nD τ).loc main_arg0)))
      ∧ r.2.mem ((c.tc : Thread nD τ).loc main_arg0) = m ((c.tc : Thread nD τ).loc main_arg0) :=
  (θ_run defs _ _).mono (fun r h c => ⟨((h c).1 1).trans (final1 m c),
      ((h c).2 main_v1 v1_rest).trans (tail_v1 m c),
      ((h c).1 0).trans (((dats m 0 c).arrAt_in 0 rfl _).trans ((A_eq m c 0).trans (V_main_arg0 m c)))⟩)
    (run_main m ρ)

end Cert.KernelIdeal.KFinal

end
-- ==== Proof.RSteps.lean ====
/-
  The reference's arithmetic on the whole batch, as whole-array functions: the squared norms of the points, the
  two initial centroids (rows 50 and 98, gathered), the distances of every point to both centroids, the two
  weights per point as a softmax over the two classes, and the weighted-mean update; ten rounds of these make
  the centroid result, and the weights of the tenth round the weight result.
-/
import proofs.«122523_j36721970381457_2_alg».proof.Proof.Gen.ReferenceIdeal

set_option synthInstance.maxSize 4096

noncomputable section

namespace Cert.ReferenceIdeal.RSteps

open Idealize.ShloMosaic Idealize.SL.Sem Cert.ReferenceIdeal Cert.ReferenceIdeal.Facts₀ Cert.ReferenceIdeal.Facts

variable {F : FTy → Type} [FloatOps F]

/-- A float array of shape `s` as a host buffer holds it. -/
abbrev Arr (F : FTy → Type) (s : Shape) : Type := (⟨s, .f32⟩ : BufTy).Contents (Elt F)

/-- The rows to start from, `[50, 98]`, after the wrap of negative indices (none is negative), as a column. -/
def rows : (⟨S2x1, .i32⟩ : BufTy).Contents (Elt F) :=
  broadcastInDim S2x1 ![0] bcast_S2_S2x1_0
    (select
      (cmpi .slt (fun i => lit0 (S2.rowMajor i) : (⟨S2, .i32⟩ : BufTy).Contents (Elt F)) (broadcastInDim S2 ![] bcast_S_S2 (constantI S_ 32 0#32)))
      (addi (fun i => lit0 (S2.rowMajor i) : (⟨S2, .i32⟩ : BufTy).Contents (Elt F)) (broadcastInDim S2 ![] bcast_S_S2 (constantI S_ 32 196#32)))
      (fun i => lit0 (S2.rowMajor i) : (⟨S2, .i32⟩ : BufTy).Contents (Elt F)))

/-- The two initial centroids of every batch element: its rows 50 and 98. -/
def init (x : Arr F S2048x196x512) : Arr F S2048x2x512 :=
  Host.gather gather_S2048x196x512_S2x1_S2048x2x512_02_1_n_n_1_1_20481512 x (rows (F := F))

/-- `‖u_n‖²` for every point: the sum over the feature axis of the squares. -/
def sqNorms (x : Arr F S2048x196x512) : Arr F S2048x196 :=
  Host.reduceAdd (mulf x x) (constant S_ .f32 0x00000000#32) reducesTo_S2048x196x512_S2048x196_d2 h_S_

/-- The distances: `√ max (‖o_k‖² − 2·⟨o_k, u_n⟩ + ‖u_n‖²) ε`. -/
def dist (x : Arr F S2048x196x512) (ny : Arr F S2048x196) (o : Arr F S2048x2x512) : Arr F S2048x2x196 :=
  Host.sqrt (maximumf
    (addf
      (subf
        (broadcastInDim S2048x2x196 ![0, 1, 2] bcast_S2048x2x1_S2048x2x196_0_1_2
          (broadcastInDim S2048x2x1 ![0, 1] bcast_S2048x2_S2048x2x1_0_1
            (Host.reduceAdd (mulf o o) (constant S_ .f32 0x00000000#32) reducesTo_S2048x2x512_S2048x2_d2 h_S_)))
        (mulf (broadcastInDim S2048x2x196 ![] bcast_S_S2048x2x196 (constant S_ .f32 0x40000000#32))
          (Host.dotGeneral dot_S2048x2x512_S2048x196x512_S2048x2x196_2_2_1_1_0_0 none o x)))
      (broadcastInDim S2048x2x196 ![0, 1, 2] bcast_S2048x1x196_S2048x2x196_0_1_2
        (broadcastInDim S2048x1x196 ![0, 2] bcast_S2048x196_S2048x1x196_0_2 ny)))
    (broadcastInDim S2048x2x196 ![] bcast_S_S2048x2x196 (constant S_ .f32 0x2EDBE6FF#32)))

/-- The logits `−10·b`. -/
def logits (b : Arr F S2048x2x196) : Arr F S2048x2x196 :=
  mulf (broadcastInDim S2048x2x196 ![] bcast_S_S2048x2x196 (constant S_ .f32 0xC1200000#32)) b

/-- The logits with their maximum over the two classes subtracted, exponentiated. -/
def expShift (l : Arr F S2048x2x196) : Arr F S2048x2x196 :=
  Host.exp (subf l
    (broadcastInDim S2048x2x196 ![0, 1, 2] bcast_S2048x1x196_S2048x2x196_0_1_2
      (broadcastInDim S2048x1x196 ![0, 2] bcast_S2048x196_S2048x1x196_0_2
        (maximumf (broadcastInDim S2048x196 ![] bcast_S_S2048x196 (constant S_ .f32 0xFF800000#32))
          (Host.reduce FloatOps.maximumf l (constant S_ .f32 0xFF800000#32) reducesTo_S2048x2x196_S2048x196_d1 h_S_)))))

/-- Each entry divided by the sum over the two classes. -/
def normalize (e : Arr F S2048x2x196) : Arr F S2048x2x196 :=
  Host.divf e
    (broadcastInDim S2048x2x196 ![0, 1, 2] bcast_S2048x1x196_S2048x2x196_0_1_2
      (broadcastInDim S2048x1x196 ![0, 2] bcast_S2048x196_S2048x1x196_0_2
        (Host.reduceAdd e (constant S_ .f32 0x00000000#32) reducesTo_S2048x2x196_S2048x196_d1 h_S_)))

/-- The two weights of every point from its two distances: the softmax of the logits over the classes. -/
def assign (b : Arr F S2048x2x196) : Arr F S2048x2x196 := normalize (expShift (logits b))

/-- The new centroids: the weighted sums of the points divided by the sums of the weights. -/
def update (x : Arr F S2048x196x512) (c : Arr F S2048x2x196) : Arr F S2048x2x512 :=
  Host.divf
    (Host.dotGeneral dot_S2048x2x196_S2048x196x512_S2048x2x512_2_1_1_2_0_0 none c x)
    (broadcastInDim S2048x2x512 ![0, 1, 2] bcast_S2048x2x1_S2048x2x512_0_1_2
      (broadcastInDim S2048x2x1 ![0, 1] bcast_S2048x2_S2048x2x1_0_1
        (Host.reduceAdd c (constant S_ .f32 0x00000000#32) reducesTo_S2048x2x196_S2048x2_d2 h_S_)))

/-- One round on the whole batch. -/
def step (x : Arr F S2048x196x512) (ny : Arr F S2048x196) (o : Arr F S2048x2x512) : Arr F S2048x2x512 :=
  update x (assign (dist x ny o))

/-- The centroid result: ten rounds from the initial centroids. -/
def resultO (x : Arr F S2048x196x512) : Arr F S2048x2x512 :=
  (step x (sqNorms x))^[10] (init x)

/-- The weight result: the weights of the tenth round. -/
def resultC (x : Arr F S2048x196x512) : Arr F S2048x2x196 :=
  assign (dist x (sqNorms x) ((step x (sqNorms x))^[9] (init x)))

end Cert.ReferenceIdeal.RSteps

end
-- ==== Proof.RefCongr.lean ====
/-
  Congruence statements for four of the reference's operations, stated once here so that every module that rewrites
  inside an application of one of them (the start and each of the ten rounds do) refers to this single copy: the
  gather of the starting rows, the two contractions (centroids against points over the features, weights against
  points over the points), and the reduction by maximum over the classes. Each says only that the operation applied
  to equal arguments gives equal results.
-/
import proofs.«122523_j36721970381457_2_alg».proof.Proof.RSteps
import Idealize.ShloMosaic.Lib.StableHlo.Run

namespace Cert.ReferenceIdeal.RefRun

open Cert.ReferenceIdeal Idealize.ShloMosaic

theorem congr_stated : True := by
  have := @Host.reduce.congr_simp
  have := @dot_S2048x2x512_S2048x196x512_S2048x2x196_2_2_1_1_0_0.congr_simp
  have := @dot_S2048x2x196_S2048x196x512_S2048x2x512_2_1_1_2_0_0.congr_simp
  have := @gather_S2048x196x512_S2x1_S2048x2x512_02_1_n_n_1_1_20481512.congr_simp
  trivial

end Cert.ReferenceIdeal.RefRun
-- ==== Proof.RefPrologue.lean ====
/-
  The start of the reference's straight line: the table of the two starting rows (50 and 98, none negative, so the
  wrap of negative indices leaves them), the gather of those two rows of every batch element as the initial
  centroids, and the squared norms of all points (the squares summed over the feature axis). For any contents of
  the buffers at the start, what the three buffers of interest hold afterwards: the initial centroids, the squared
  norms, and the points themselves untouched.
-/
import proofs.«122523_j36721970381457_2_alg».proof.Proof.RSteps
import proofs.«122523_j36721970381457_2_alg».proof.Proof.RefCongr
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]
/-- The thirteen operations before the first round. -/
def prologue : List (HloOp τ sig (Elt F)) :=
  [ StableHlo.nullary main_c (fun i => lit0 (S2.rowMajor i)),
    StableHlo.nullary main_c_0 (constantI S_ 32 0#32),
    StableHlo.unary main_c_0 main_v0 (broadcastInDim S2 ![] bcast_S_S2 : (⟨S_, .i32⟩ : BufTy).Contents (Elt F) → (⟨S2, .i32⟩ : BufTy).Contents (Elt F)),
    StableHlo.binary main_c main_v0 main_v1 (cmpi .slt : (⟨S2, .i32⟩ : BufTy).Contents (Elt F) → (⟨S2, .i32⟩ : BufTy).Contents (Elt F) → (⟨S2, .i1⟩ : BufTy).Contents (Elt F)),
    StableHlo.nullary main_c_1 (constantI S_ 32 196#32),
    StableHlo.unary main_c_1 main_v2 (broadcastInDim S2 ![] bcast_S_S2 : (⟨S_, .i32⟩ : BufTy).Contents (Elt F) → (⟨S2, .i32⟩ : BufTy).Contents (Elt F)),
    StableHlo.binary main_c main_v2 main_v3 (addi : (⟨S2, .i32⟩ : BufTy).Contents (Elt F) → (⟨S2, .i32⟩ : BufTy).Contents (Elt F) → (⟨S2, .i32⟩ : BufTy).Contents (Elt F)),
    StableHlo.ternary main_v1 main_v3 main_c main_v4 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v4 main_v5 (broadcastInDim S2x1 ![0] bcast_S2_S2x1_0 : (⟨S2, .i32⟩ : BufTy).Contents (Elt F) → (⟨S2x1, .i32⟩ : BufTy).Contents (Elt F)),
    StableHlo.binary main_arg0 main_v5 main_v6 ((fun x i => Host.gather gather_S2048x196x512_S2x1_S2048x2x512_02_1_n_n_1_1_20481512 x i) : (⟨S2048x196x512, .f32⟩ : BufTy).Contents (Elt F) → (⟨S2x1, .i32⟩ : BufTy).Contents (Elt F) → (⟨S2048x2x512, .f32⟩ : BufTy).Contents (Elt F)),
    StableHlo.binary main_arg0 main_arg0 main_v7 (mulf : (⟨S2048x196x512, .f32⟩ : BufTy).Contents (Elt F) → (⟨S2048x196x512, .f32⟩ : BufTy).Contents (Elt F) → (⟨S2048x196x512, .f32⟩ : BufTy).Contents (Elt F)),
    StableHlo.nullary main_cst (constant S_ .f32 0x00000000#32),
    StableHlo.binary main_v7 main_cst main_v8 ((fun x v => Host.reduceAdd x v reducesTo_S2048x196x512_S2048x196_d2 h_S_) : (⟨S2048x196x512, .f32⟩ : BufTy).Contents (Elt F) → (⟨S_, .f32⟩ : BufTy).Contents (Elt F) → (⟨S2048x196, .f32⟩ : BufTy).Contents (Elt F)) ]

/-- Every operation of the stretch touches buffers of the device's own core only. -/
theorem prologue_sub : (prologue (F := F)).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub ..⟩

/-- Every operation of the stretch determines all that it writes. -/
theorem prologue_fresh : (prologue (F := F)).Forall fun op => op.fresh = ∅ :=
  ⟨rfl, rfl, rfl, rfl, rfl, rfl, rfl, rfl, rfl, rfl, rfl, rfl, rfl⟩

/-- After the start the centroid buffer holds rows 50 and 98 of every batch element. -/
theorem prologue_init (V : Valuation τ sig (Elt F)) :
    after prologue V (Proc.devRef .tc main_v6) = RSteps.init (V (Proc.devRef .tc main_arg0)) := by
  delta prologue
  after_results
  rfl

/-- After the start the norm buffer holds the squared norms of the points. -/
theorem prologue_sqNorms (V : Valuation τ sig (Elt F)) :
    after prologue V (Proc.devRef .tc main_v8) = RSteps.sqNorms (V (Proc.devRef .tc main_arg0)) := by
  delta prologue
  after_results
  rfl

/-- The start does not write the points. -/
theorem prologue_arg0 (V : Valuation τ sig (Elt F)) :
    after prologue V (Proc.devRef .tc main_arg0) = V (Proc.devRef .tc main_arg0) := by
  delta prologue
  after_results

end Cert.ReferenceIdeal.RefRun

end
-- ==== Proof.RefRound1.lean ====
/-
  The first round of the reference's straight line: forty operations that read the points, their squared norms and
  the round's incoming centroids, and write, through intermediate buffers of their own, the distances of every point
  to both centroids, the two weights of every point (the softmax over the classes of minus ten times the distances)
  and the weighted means as the outgoing centroids. For any contents of the buffers before the round: the outgoing
  centroid buffer holds one whole-array step of the incoming one, and the points and the norms are not written.
-/
import proofs.«122523_j36721970381457_2_alg».proof.Proof.RSteps
import proofs.«122523_j36721970381457_2_alg».proof.Proof.RefCongr
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]
/-- The forty operations of round 1. -/
def round1 : List (HloOp τ sig (Elt F)) :=
  [ StableHlo.binary main_v6 main_v6 main_v9 (mulf : (⟨S2048x2x512, .f32⟩ : BufTy).Contents (Elt F) → (⟨S2048x2x512, .f32⟩ : BufTy).Contents (Elt F) → (⟨S2048x2x512, .f32⟩ : BufTy).Contents (Elt F)),
    StableHlo.nullary main_cst_2 (constant S_ .f32 0x00000000#32),
    StableHlo.binary main_v9 main_cst_2 main_v10 ((fun x v => Host.reduceAdd x v reducesTo_S2048x2x512_S2048x2_d2 h_S_) : (⟨S2048x2x512, .f32⟩ : BufTy).Contents (Elt F) → (⟨S_, .f32⟩ : BufTy).Contents (Elt F) → (⟨S2048x2, .f32⟩ : BufTy).Contents (Elt F)),
    StableHlo.unary main_v10 main_v11 (broadcastInDim S2048x2x1 ![0, 1] bcast_S2048x2_S2048x2x1_0_1 : (⟨S2048x2, .f32⟩ : BufTy).Contents (Elt F) → (⟨S2048x2x1, .f32⟩ : BufTy).Contents (Elt F)),
    StableHlo.binary main_v6 main_arg0 main_v12 ((fun l r => Host.dotGeneral dot_S2048x2x512_S2048x196x512_S2048x2x196_2_2_1_1_0_0 none l r) : (⟨S2048x2x512, .f32⟩ : BufTy).Contents (Elt F) → (⟨S2048x196x512, .f32⟩ : BufTy).Contents (Elt F) → (⟨S2048x2x196, .f32⟩ : BufTy).Contents (Elt F)),
    StableHlo.nullary main_cst_3 (constant S_ .f32 0x40000000#32),
    StableHlo.unary main_cst_3 main_v13 (broadcastInDim S2048x2x196 ![] bcast_S_S2048x2x196 : (⟨S_, .f32⟩ : BufTy).Contents (Elt F) → (⟨S2048x2x196, .f32⟩ : BufTy).Contents (Elt F)),
    StableHlo.binary main_v13 main_v12 main_v14 (mulf : (⟨S2048x2x196, .f32⟩ : BufTy).Contents (Elt F) → (⟨S2048x2x196, .f32⟩ : BufTy).Contents (Elt F) → (⟨S2048x2x196, .f32⟩ : BufTy).Contents (Elt F)),
    StableHlo.unary main_v11 main_v15 (broadcastInDim S2048x2x196 ![0, 1, 2] bcast_S2048x2x1_S2048x2x196_0_1_2 : (⟨S2048x2x1, .f32⟩ : BufTy).Contents (Elt F) → (⟨S2048x2x196, .f32⟩ : BufTy).Contents (Elt F)),
    StableHlo.binary main_v15 main_v14 main_v16 (subf : (⟨S2048x2x196, .f32⟩ : BufTy).Contents (Elt F) → (⟨S2048x2x196, .f32⟩ : BufTy).Contents (Elt F) → (⟨S2048x2x196, .f32⟩ : BufTy).Contents (Elt F)),
    StableHlo.unary main_v8 main_v17 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v17 main_v18 (broadcastInDim S2048x2x196 ![0, 1, 2] bcast_S2048x1x196_S2048x2x196_0_1_2 : (⟨S2048x1x196, .f32⟩ : BufTy).Contents (Elt F) → (⟨S2048x2x196, .f32⟩ : BufTy).Contents (Elt F)),
    StableHlo.binary main_v16 main_v18 main_v19 (addf : (⟨S2048x2x196, .f32⟩ : BufTy).Contents (Elt F) → (⟨S2048x2x196, .f32⟩ : BufTy).Contents (Elt F) → (⟨S2048x2x196, .f32⟩ : BufTy).Contents (Elt F)),
    StableHlo.nullary main_cst_4 (constant S_ .f32 0x2EDBE6FF#32),
    StableHlo.unary main_cst_4 main_v20 (broadcastInDim S2048x2x196 ![] bcast_S_S2048x2x196 : (⟨S_, .f32⟩ : BufTy).Contents (Elt F) → (⟨S2048x2x196, .f32⟩ : BufTy).Contents (Elt F)),
    StableHlo.binary main_v19 main_v20 main_v21 (maximumf : (⟨S2048x2x196, .f32⟩ : BufTy).Contents (Elt F) → (⟨S2048x2x196, .f32⟩ : BufTy).Contents (Elt F) → (⟨S2048x2x196, .f32⟩ : BufTy).Contents (Elt F)),
    StableHlo.unary main_v21 main_v22 (Host.sqrt : (⟨S2048x2x196, .f32⟩ : BufTy).Contents (Elt F) → (⟨S2048x2x196, .f32⟩ : BufTy).Contents (Elt F)),
    StableHlo.nullary main_cst_5 (constant S_ .f32 0xC1200000#32),
    StableHlo.unary main_cst_5 main_v23 (broadcastInDim S2048x2x196 ![] bcast_S_S2048x2x196 : (⟨S_, .f32⟩ : BufTy).Contents (Elt F) → (⟨S2048x2x196, .f32⟩ : BufTy).Contents (Elt F)),
    StableHlo.binary main_v23 main_v22 main_v24 (mulf : (⟨S2048x2x196, .f32⟩ : BufTy).Contents (Elt F) → (⟨S2048x2x196, .f32⟩ : BufTy).Contents (Elt F) → (⟨S2048x2x196, .f32⟩ : BufTy).Contents (Elt F)),
    StableHlo.nullary main_cst_6 (constant S_ .f32 0xFF800000#32),
    StableHlo.binary main_v24 main_cst_6 main_v25 ((fun x v => Host.reduce FloatOps.maximumf x v reducesTo_S2048x2x196_S2048x196_d1 h_S_) : (⟨S2048x2x196, .f32⟩ : BufTy).Contents (Elt F) → (⟨S_, .f32⟩ : BufTy).Contents (Elt F) → (⟨S2048x196, .f32⟩ : BufTy).Contents (Elt F)),
    StableHlo.nullary main_cst_7 (constant S_ .f32 0xFF800000#32),
    StableHlo.unary main_cst_7 main_v26 (broadcastInDim S2048x196 ![] bcast_S_S2048x196 : (⟨S_, .f32⟩ : BufTy).Contents (Elt F) → (⟨S2048x196, .f32⟩ : BufTy).Contents (Elt F)),
    StableHlo.binary main_v26 main_v25 main_v27 (maximumf : (⟨S2048x196, .f32⟩ : BufTy).Contents (Elt F) → (⟨S2048x196, .f32⟩ : BufTy).Contents (Elt F) → (⟨S2048x196, .f32⟩ : BufTy).Contents (Elt F)),
    StableHlo.unary main_v27 main_v28 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v28 main_v29 (broadcastInDim S2048x2x196 ![0, 1, 2] bcast_S2048x1x196_S2048x2x196_0_1_2 : (⟨S2048x1x196, .f32⟩ : BufTy).Contents (Elt F) → (⟨S2048x2x196, .f32⟩ : BufTy).Contents (Elt F)),
    StableHlo.binary main_v24 main_v29 main_v30 (subf : (⟨S2048x2x196, .f32⟩ : BufTy).Contents (Elt F) → (⟨S2048x2x196, .f32⟩ : BufTy).Contents (Elt F) → (⟨S2048x2x196, .f32⟩ : BufTy).Contents (Elt F)),
    StableHlo.unary main_v30 main_v31 (Host.exp : (⟨S2048x2x196, .f32⟩ : BufTy).Contents (Elt F) → (⟨S2048x2x196, .f32⟩ : BufTy).Contents (Elt F)),
    StableHlo.nullary main_cst_8 (constant S_ .f32 0x00000000#32),
    StableHlo.binary main_v31 main_cst_8 main_v32 ((fun x v => Host.reduceAdd x v reducesTo_S2048x2x196_S2048x196_d1 h_S_) : (⟨S2048x2x196, .f32⟩ : BufTy).Contents (Elt F) → (⟨S_, .f32⟩ : BufTy).Contents (Elt F) → (⟨S2048x196, .f32⟩ : BufTy).Contents (Elt F)),
    StableHlo.unary main_v32 main_v33 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v33 main_v34 (broadcastInDim S2048x2x196 ![0, 1, 2] bcast_S2048x1x196_S2048x2x196_0_1_2 : (⟨S2048x1x196, .f32⟩ : BufTy).Contents (Elt F) → (⟨S2048x2x196, .f32⟩ : BufTy).Contents (Elt F)),
    StableHlo.binary main_v31 main_v34 main_v35 (Host.divf : (⟨S2048x2x196, .f32⟩ : BufTy).Contents (Elt F) → (⟨S2048x2x196, .f32⟩ : BufTy).Contents (Elt F) → (⟨S2048x2x196, .f32⟩ : BufTy).Contents (Elt F)),
    StableHlo.binary main_v35 main_arg0 main_v36 ((fun l r => Host.dotGeneral dot_S2048x2x196_S2048x196x512_S2048x2x512_2_1_1_2_0_0 none l r) : (⟨S2048x2x196, .f32⟩ : BufTy).Contents (Elt F) → (⟨S2048x196x512, .f32⟩ : BufTy).Contents (Elt F) → (⟨S2048x2x512, .f32⟩ : BufTy).Contents (Elt F)),
    StableHlo.nullary main_cst_9 (constant S_ .f32 0x00000000#32),
    StableHlo.binary main_v35 main_cst_9 main_v37 ((fun x v => Host.reduceAdd x v reducesTo_S2048x2x196_S2048x2_d2 h_S_) : (⟨S2048x2x196, .f32⟩ : BufTy).Contents (Elt F) → (⟨S_, .f32⟩ : BufTy).Contents (Elt F) → (⟨S2048x2, .f32⟩ : BufTy).Contents (Elt F)),
    StableHlo.unary main_v37 main_v38 (broadcastInDim S2048x2x1 ![0, 1] bcast_S2048x2_S2048x2x1_0_1 : (⟨S2048x2, .f32⟩ : BufTy).Contents (Elt F) → (⟨S2048x2x1, .f32⟩ : BufTy).Contents (Elt F)),
    StableHlo.unary main_v38 main_v39 (broadcastInDim S2048x2x512 ![0, 1, 2] bcast_S2048x2x1_S2048x2x512_0_1_2 : (⟨S2048x2x1, .f32⟩ : BufTy).Contents (Elt F) → (⟨S2048x2x512, .f32⟩ : BufTy).Contents (Elt F)),
    StableHlo.binary main_v36 main_v39 main_v40 (Host.divf : (⟨S2048x2x512, .f32⟩ : BufTy).Contents (Elt F) → (⟨S2048x2x512, .f32⟩ : BufTy).Contents (Elt F) → (⟨S2048x2x512, .f32⟩ : BufTy).Contents (Elt F)) ]

/-- Every operation of the stretch touches buffers of the device's own core only. -/
theorem round1_sub : (round1 (F := F)).Forall fun op => op.bufs ⊆ tcRefs τ sig :=
  ⟨binary_bufs_sub .., nullary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., binary_bufs_sub .., unary_bufs_sub .., unary_bufs_sub .., binary_bufs_sub ..⟩

/-- Every operation of the stretch determines all that it writes. -/
theorem round1_fresh : (round1 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- After the round the outgoing centroids are one step of the incoming ones. -/
theorem round1_step (V : Valuation τ sig (Elt F)) :
    after round1 V (Proc.devRef .tc main_v40)
      = RSteps.step (V (Proc.devRef .tc main_arg0)) (V (Proc.devRef .tc main_v8)) (V (Proc.devRef .tc main_v6)) := by
  delta round1
  after_results_simp
  rfl

/-- The round does not write the points. -/
theorem round1_arg0 (V : Valuation τ sig (Elt F)) :
    after round1 V (Proc.devRef .tc main_arg0) = V (Proc.devRef .tc main_arg0) := by
  delta round1
  after_results_simp

/-- The round does not write the squared norms. -/
theorem round1_sqNorms (V : Valuation τ sig (Elt F)) :
    after round1 V (Proc.devRef .tc main_v8) = V (Proc.devRef .tc main_v8) := by
  delta round1
  after_results_simp

end Cert.ReferenceIdeal.RefRun

end
-- ==== Proof.RefRound2.lean ====
/-
  The second round of the reference's straight line: forty operations that read the points, their squared norms and
  the round's incoming centroids, and write, through intermediate buffers of their own, the distances of every point
  to both centroids, the two weights of every point (the softmax over the classes of minus ten times the distances)
  and the weighted means as the outgoing centroids. For any contents of the buffers before the round: the outgoing
  centroid buffer holds one whole-array step of the incoming one, and the points and the norms are not written.
  The forty operations are listed in two consecutive stretches; the contents after both are the second's fold over the first's.
-/
import proofs.«122523_j36721970381457_2_alg».proof.Proof.RSteps
import proofs.«122523_j36721970381457_2_alg».proof.Proof.RefCongr
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]
/-- Operations 1 to 7 of round 2's forty. -/
def round2a : List (HloOp τ sig (Elt F)) :=
  [ StableHlo.binary main_v40 main_v40 main_v41 (mulf : (⟨S2048x2x512, .f32⟩ : BufTy).Contents (Elt F) → (⟨S2048x2x512, .f32⟩ : BufTy).Contents (Elt F) → (⟨S2048x2x512, .f32⟩ : BufTy).Contents (Elt F)),
    StableHlo.nullary main_cst_10 (constant S_ .f32 0x00000000#32),
    StableHlo.binary main_v41 main_cst_10 main_v42 ((fun x v => Host.reduceAdd x v reducesTo_S2048x2x512_S2048x2_d2 h_S_) : (⟨S2048x2x512, .f32⟩ : BufTy).Contents (Elt F) → (⟨S_, .f32⟩ : BufTy).Contents (Elt F) → (⟨S2048x2, .f32⟩ : BufTy).Contents (Elt F)),
    StableHlo.unary main_v42 main_v43 (broadcastInDim S2048x2x1 ![0, 1] bcast_S2048x2_S2048x2x1_0_1 : (⟨S2048x2, .f32⟩ : BufTy).Contents (Elt F) → (⟨S2048x2x1, .f32⟩ : BufTy).Contents (Elt F)),
    StableHlo.binary main_v40 main_arg0 main_v44 ((fun l r => Host.dotGeneral dot_S2048x2x512_S2048x196x512_S2048x2x196_2_2_1_1_0_0 none l r) : (⟨S2048x2x512, .f32⟩ : BufTy).Contents (Elt F) → (⟨S2048x196x512, .f32⟩ : BufTy).Contents (Elt F) → (⟨S2048x2x196, .f32⟩ : BufTy).Contents (Elt F)),
    StableHlo.nullary main_cst_11 (constant S_ .f32 0x40000000#32),
    StableHlo.unary main_cst_11 main_v45 (broadcastInDim S2048x2x196 ![] bcast_S_S2048x2x196 : (⟨S_, .f32⟩ : BufTy).Contents (Elt F) → (⟨S2048x2x196, .f32⟩ : BufTy).Contents (Elt F)) ]

/-- Every operation of the stretch touches buffers of the device's own core only. -/
theorem round2a_sub : (round2a (F := F)).Forall fun op => op.bufs ⊆ tcRefs τ sig :=
  ⟨binary_bufs_sub .., nullary_bufs_sub .., binary_bufs_sub .., unary_bufs_sub .., binary_bufs_sub .., nullary_bufs_sub .., unary_bufs_sub ..⟩

/-- Every operation of the stretch determines all that it writes. -/
theorem round2a_fresh : (round2a (F := F)).Forall fun op => op.fresh = ∅ :=
  ⟨rfl, rfl, rfl, rfl, rfl, rfl, rfl⟩

/-- Operations 8 to 40 of round 2's forty. -/
def round2b : List (HloOp τ sig (Elt F)) :=
  [ StableHlo.binary main_v45 main_v44 main_v46 (mulf : (⟨S2048x2x196, .f32⟩ : BufTy).Contents (Elt F) → (⟨S2048x2x196, .f32⟩ : BufTy).Contents (Elt F) → (⟨S2048x2x196, .f32⟩ : BufTy).Contents (Elt F)),
    StableHlo.unary main_v43 main_v47 (broadcastInDim S2048x2x196 ![0, 1, 2] bcast_S2048x2x1_S2048x2x196_0_1_2 : (⟨S2048x2x1, .f32⟩ : BufTy).Contents (Elt F) → (⟨S2048x2x196, .f32⟩ : BufTy).Contents (Elt F)),
    StableHlo.binary main_v47 main_v46 main_v48 (subf : (⟨S2048x2x196, .f32⟩ : BufTy).Contents (Elt F) → (⟨S2048x2x196, .f32⟩ : BufTy).Contents (Elt F) → (⟨S2048x2x196, .f32⟩ : BufTy).Contents (Elt F)),
    StableHlo.unary main_v8 main_v49 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v49 main_v50 (broadcastInDim S2048x2x196 ![0, 1, 2] bcast_S2048x1x196_S2048x2x196_0_1_2 : (⟨S2048x1x196, .f32⟩ : BufTy).Contents (Elt F) → (⟨S2048x2x196, .f32⟩ : BufTy).Contents (Elt F)),
    StableHlo.binary main_v48 main_v50 main_v51 (addf : (⟨S2048x2x196, .f32⟩ : BufTy).Contents (Elt F) → (⟨S2048x2x196, .f32⟩ : BufTy).Contents (Elt F) → (⟨S2048x2x196, .f32⟩ : BufTy).Contents (Elt F)),
    StableHlo.nullary main_cst_12 (constant S_ .f32 0x2EDBE6FF#32),
    StableHlo.unary main_cst_12 main_v52 (broadcastInDim S2048x2x196 ![] bcast_S_S2048x2x196 : (⟨S_, .f32⟩ : BufTy).Contents (Elt F) → (⟨S2048x2x196, .f32⟩ : BufTy).Contents (Elt F)),
    StableHlo.binary main_v51 main_v52 main_v53 (maximumf : (⟨S2048x2x196, .f32⟩ : BufTy).Contents (Elt F) → (⟨S2048x2x196, .f32⟩ : BufTy).Contents (Elt F) → (⟨S2048x2x196, .f32⟩ : BufTy).Contents (Elt F)),
    StableHlo.unary main_v53 main_v54 (Host.sqrt : (⟨S2048x2x196, .f32⟩ : BufTy).Contents (Elt F) → (⟨S2048x2x196, .f32⟩ : BufTy).Contents (Elt F)),
    StableHlo.nullary main_cst_13 (constant S_ .f32 0xC1200000#32),
    StableHlo.unary main_cst_13 main_v55 (broadcastInDim S2048x2x196 ![] bcast_S_S2048x2x196 : (⟨S_, .f32⟩ : BufTy).Contents (Elt F) → (⟨S2048x2x196, .f32⟩ : BufTy).Contents (Elt F)),
    StableHlo.binary main_v55 main_v54 main_v56 (mulf : (⟨S2048x2x196, .f32⟩ : BufTy).Contents (Elt F) → (⟨S2048x2x196, .f32⟩ : BufTy).Contents (Elt F) → (⟨S2048x2x196, .f32⟩ : BufTy).Contents (Elt F)),
    StableHlo.nullary main_cst_14 (constant S_ .f32 0xFF800000#32),
    StableHlo.binary main_v56 main_cst_14 main_v57 ((fun x v => Host.reduce FloatOps.maximumf x v reducesTo_S2048x2x196_S2048x196_d1 h_S_) : (⟨S2048x2x196, .f32⟩ : BufTy).Contents (Elt F) → (⟨S_, .f32⟩ : BufTy).Contents (Elt F) → (⟨S2048x196, .f32⟩ : BufTy).Contents (Elt F)),
    StableHlo.nullary main_cst_15 (constant S_ .f32 0xFF800000#32),
    StableHlo.unary main_cst_15 main_v58 (broadcastInDim S2048x196 ![] bcast_S_S2048x196 : (⟨S_, .f32⟩ : BufTy).Contents (Elt F) → (⟨S2048x196, .f32⟩ : BufTy).Contents (Elt F)),
    StableHlo.binary main_v58 main_v57 main_v59 (maximumf : (⟨S2048x196, .f32⟩ : BufTy).Contents (Elt F) → (⟨S2048x196, .f32⟩ : BufTy).Contents (Elt F) → (⟨S2048x196, .f32⟩ : BufTy).Contents (Elt F)),
    StableHlo.unary main_v59 main_v60 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v60 main_v61 (broadcastInDim S2048x2x196 ![0, 1, 2] bcast_S2048x1x196_S2048x2x196_0_1_2 : (⟨S2048x1x196, .f32⟩ : BufTy).Contents (Elt F) → (⟨S2048x2x196, .f32⟩ : BufTy).Contents (Elt F)),
    StableHlo.binary main_v56 main_v61 main_v62 (subf : (⟨S2048x2x196, .f32⟩ : BufTy).Contents (Elt F) → (⟨S2048x2x196, .f32⟩ : BufTy).Contents (Elt F) → (⟨S2048x2x196, .f32⟩ : BufTy).Contents (Elt F)),
    StableHlo.unary main_v62 main_v63 (Host.exp : (⟨S2048x2x196, .f32⟩ : BufTy).Contents (Elt F) → (⟨S2048x2x196, .f32⟩ : BufTy).Contents (Elt F)),
    StableHlo.nullary main_cst_16 (constant S_ .f32 0x00000000#32),
    StableHlo.binary main_v63 main_cst_16 main_v64 ((fun x v => Host.reduceAdd x v reducesTo_S2048x2x196_S2048x196_d1 h_S_) : (⟨S2048x2x196, .f32⟩ : BufTy).Contents (Elt F) → (⟨S_, .f32⟩ : BufTy).Contents (Elt F) → (⟨S2048x196, .f32⟩ : BufTy).Contents (Elt F)),
    StableHlo.unary main_v64 main_v65 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v65 main_v66 (broadcastInDim S2048x2x196 ![0, 1, 2] bcast_S2048x1x196_S2048x2x196_0_1_2 : (⟨S2048x1x196, .f32⟩ : BufTy).Contents (Elt F) → (⟨S2048x2x196, .f32⟩ : BufTy).Contents (Elt F)),
    StableHlo.binary main_v63 main_v66 main_v67 (Host.divf : (⟨S2048x2x196, .f32⟩ : BufTy).Contents (Elt F) → (⟨S2048x2x196, .f32⟩ : BufTy).Contents (Elt F) → (⟨S2048x2x196, .f32⟩ : BufTy).Contents (Elt F)),
    StableHlo.binary main_v67 main_arg0 main_v68 ((fun l r => Host.dotGeneral dot_S2048x2x196_S2048x196x512_S2048x2x512_2_1_1_2_0_0 none l r) : (⟨S2048x2x196, .f32⟩ : BufTy).Contents (Elt F) → (⟨S2048x196x512, .f32⟩ : BufTy).Contents (Elt F) → (⟨S2048x2x512, .f32⟩ : BufTy).Contents (Elt F)),
    StableHlo.nullary main_cst_17 (constant S_ .f32 0x00000000#32),
    StableHlo.binary main_v67 main_cst_17 main_v69 ((fun x v => Host.reduceAdd x v reducesTo_S2048x2x196_S2048x2_d2 h_S_) : (⟨S2048x2x196, .f32⟩ : BufTy).Contents (Elt F) → (⟨S_, .f32⟩ : BufTy).Contents (Elt F) → (⟨S2048x2, .f32⟩ : BufTy).Contents (Elt F)),
    StableHlo.unary main_v69 main_v70 (broadcastInDim S2048x2x1 ![0, 1] bcast_S2048x2_S2048x2x1_0_1 : (⟨S2048x2, .f32⟩ : BufTy).Contents (Elt F) → (⟨S2048x2x1, .f32⟩ : BufTy).Contents (Elt F)),
    StableHlo.unary main_v70 main_v71 (broadcastInDim S2048x2x512 ![0, 1, 2] bcast_S2048x2x1_S2048x2x512_0_1_2 : (⟨S2048x2x1, .f32⟩ : BufTy).Contents (Elt F) → (⟨S2048x2x512, .f32⟩ : BufTy).Contents (Elt F)),
    StableHlo.binary main_v68 main_v71 main_v72 (Host.divf : (⟨S2048x2x512, .f32⟩ : BufTy).Contents (Elt F) → (⟨S2048x2x512, .f32⟩ : BufTy).Contents (Elt F) → (⟨S2048x2x512, .f32⟩ : BufTy).Contents (Elt F)) ]

/-- Every operation of the stretch touches buffers of the device's own core only. -/
theorem round2b_sub : (round2b (F := F)).Forall fun op => op.bufs ⊆ tcRefs τ sig :=
  ⟨binary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., binary_bufs_sub .., unary_bufs_sub .., unary_bufs_sub .., binary_bufs_sub ..⟩

/-- Every operation of the stretch determines all that it writes. -/
theorem round2b_fresh : (round2b (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- After the round the outgoing centroids are one step of the incoming ones. -/
theorem round2_step (V : Valuation τ sig (Elt F)) :
    after round2b (after round2a V) (Proc.devRef .tc main_v72)
      = RSteps.step (V (Proc.devRef .tc main_arg0)) (V (Proc.devRef .tc main_v8)) (V (Proc.devRef .tc main_v40)) := by
  delta round2a round2b
  after_results_simp
  rfl

/-- The round does not write the points. -/
theorem round2_arg0 (V : Valuation τ sig (Elt F)) :
    after round2b (after round2a V) (Proc.devRef .tc main_arg0) = V (Proc.devRef .tc main_arg0) := by
  delta round2a round2b
  after_results_simp

/-- The round does not write the squared norms. -/
theorem round2_sqNorms (V : Valuation τ sig (Elt F)) :
    after round2b (after round2a V) (Proc.devRef .tc main_v8) = V (Proc.devRef .tc main_v8) := by
  delta round2a round2b
  after_results_simp

end Cert.ReferenceIdeal.RefRun

end
-- ==== Proof.RefRound3.lean ====
/-
  The third round of the reference's straight line: forty operations that read the points, their squared norms and
  the round's incoming centroids, and write, through intermediate buffers of their own, the distances of every point
  to both centroids, the two weights of every point (the softmax over the classes of minus ten times the distances)
  and the weighted means as the outgoing centroids. For any contents of the buffers before the round: the outgoing
  centroid buffer holds one whole-array step of the incoming one, and the points and the norms are not written.
  The forty operations are listed in two consecutive stretches; the contents after both are the second's fold over the first's.
-/
import proofs.«122523_j36721970381457_2_alg».proof.Proof.RSteps
import proofs.«122523_j36721970381457_2_alg».proof.Proof.RefCongr
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]
/-- Operations 1 to 27 of round 3's forty. -/
def round3a : List (HloOp τ sig (Elt F)) :=
  [ StableHlo.binary main_v72 main_v72 main_v73 (mulf : (⟨S2048x2x512, .f32⟩ : BufTy).Contents (Elt F) → (⟨S2048x2x512, .f32⟩ : BufTy).Contents (Elt F) → (⟨S2048x2x512, .f32⟩ : BufTy).Contents (Elt F)),
    StableHlo.nullary main_cst_18 (constant S_ .f32 0x00000000#32),
    StableHlo.binary main_v73 main_cst_18 main_v74 ((fun x v => Host.reduceAdd x v reducesTo_S2048x2x512_S2048x2_d2 h_S_) : (⟨S2048x2x512, .f32⟩ : BufTy).Contents (Elt F) → (⟨S_, .f32⟩ : BufTy).Contents (Elt F) → (⟨S2048x2, .f32⟩ : BufTy).Contents (Elt F)),
    StableHlo.unary main_v74 main_v75 (broadcastInDim S2048x2x1 ![0, 1] bcast_S2048x2_S2048x2x1_0_1 : (⟨S2048x2, .f32⟩ : BufTy).Contents (Elt F) → (⟨S2048x2x1, .f32⟩ : BufTy).Contents (Elt F)),
    StableHlo.binary main_v72 main_arg0 main_v76 ((fun l r => Host.dotGeneral dot_S2048x2x512_S2048x196x512_S2048x2x196_2_2_1_1_0_0 none l r) : (⟨S2048x2x512, .f32⟩ : BufTy).Contents (Elt F) → (⟨S2048x196x512, .f32⟩ : BufTy).Contents (Elt F) → (⟨S2048x2x196, .f32⟩ : BufTy).Contents (Elt F)),
    StableHlo.nullary main_cst_19 (constant S_ .f32 0x40000000#32),
    StableHlo.unary main_cst_19 main_v77 (broadcastInDim S2048x2x196 ![] bcast_S_S2048x2x196 : (⟨S_, .f32⟩ : BufTy).Contents (Elt F) → (⟨S2048x2x196, .f32⟩ : BufTy).Contents (Elt F)),
    StableHlo.binary main_v77 main_v76 main_v78 (mulf : (⟨S2048x2x196, .f32⟩ : BufTy).Contents (Elt F) → (⟨S2048x2x196, .f32⟩ : BufTy).Contents (Elt F) → (⟨S2048x2x196, .f32⟩ : BufTy).Contents (Elt F)),
    StableHlo.unary main_v75 main_v79 (broadcastInDim S2048x2x196 ![0, 1, 2] bcast_S2048x2x1_S2048x2x196_0_1_2 : (⟨S2048x2x1, .f32⟩ : BufTy).Contents (Elt F) → (⟨S2048x2x196, .f32⟩ : BufTy).Contents (Elt F)),
    StableHlo.binary main_v79 main_v78 main_v80 (subf : (⟨S2048x2x196, .f32⟩ : BufTy).Contents (Elt F) → (⟨S2048x2x196, .f32⟩ : BufTy).Contents (Elt F) → (⟨S2048x2x196, .f32⟩ : BufTy).Contents (Elt F)),
    StableHlo.unary main_v8 main_v81 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v81 main_v82 (broadcastInDim S2048x2x196 ![0, 1, 2] bcast_S2048x1x196_S2048x2x196_0_1_2 : (⟨S2048x1x196, .f32⟩ : BufTy).Contents (Elt F) → (⟨S2048x2x196, .f32⟩ : BufTy).Contents (Elt F)),
    StableHlo.binary main_v80 main_v82 main_v83 (addf : (⟨S2048x2x196, .f32⟩ : BufTy).Contents (Elt F) → (⟨S2048x2x196, .f32⟩ : BufTy).Contents (Elt F) → (⟨S2048x2x196, .f32⟩ : BufTy).Contents (Elt F)),
    StableHlo.nullary main_cst_20 (constant S_ .f32 0x2EDBE6FF#32),
    StableHlo.unary main_cst_20 main_v84 (broadcastInDim S2048x2x196 ![] bcast_S_S2048x2x196 : (⟨S_, .f32⟩ : BufTy).Contents (Elt F) → (⟨S2048x2x196, .f32⟩ : BufTy).Contents (Elt F)),
    StableHlo.binary main_v83 main_v84 main_v85 (maximumf : (⟨S2048x2x196, .f32⟩ : BufTy).Contents (Elt F) → (⟨S2048x2x196, .f32⟩ : BufTy).Contents (Elt F) → (⟨S2048x2x196, .f32⟩ : BufTy).Contents (Elt F)),
    StableHlo.unary main_v85 main_v86 (Host.sqrt : (⟨S2048x2x196, .f32⟩ : BufTy).Contents (Elt F) → (⟨S2048x2x196, .f32⟩ : BufTy).Contents (Elt F)),
    StableHlo.nullary main_cst_21 (constant S_ .f32 0xC1200000#32),
    StableHlo.unary main_cst_21 main_v87 (broadcastInDim S2048x2x196 ![] bcast_S_S2048x2x196 : (⟨S_, .f32⟩ : BufTy).Contents (Elt F) → (⟨S2048x2x196, .f32⟩ : BufTy).Contents (Elt F)),
    StableHlo.binary main_v87 main_v86 main_v88 (mulf : (⟨S2048x2x196, .f32⟩ : BufTy).Contents (Elt F) → (⟨S2048x2x196, .f32⟩ : BufTy).Contents (Elt F) → (⟨S2048x2x196, .f32⟩ : BufTy).Contents (Elt F)),
    StableHlo.nullary main_cst_22 (constant S_ .f32 0xFF800000#32),
    StableHlo.binary main_v88 main_cst_22 main_v89 ((fun x v => Host.reduce FloatOps.maximumf x v reducesTo_S2048x2x196_S2048x196_d1 h_S_) : (⟨S2048x2x196, .f32⟩ : BufTy).Contents (Elt F) → (⟨S_, .f32⟩ : BufTy).Contents (Elt F) → (⟨S2048x196, .f32⟩ : BufTy).Contents (Elt F)),
    StableHlo.nullary main_cst_23 (constant S_ .f32 0xFF800000#32),
    StableHlo.unary main_cst_23 main_v90 (broadcastInDim S2048x196 ![] bcast_S_S2048x196 : (⟨S_, .f32⟩ : BufTy).Contents (Elt F) → (⟨S2048x196, .f32⟩ : BufTy).Contents (Elt F)),
    StableHlo.binary main_v90 main_v89 main_v91 (maximumf : (⟨S2048x196, .f32⟩ : BufTy).Contents (Elt F) → (⟨S2048x196, .f32⟩ : BufTy).Contents (Elt F) → (⟨S2048x196, .f32⟩ : BufTy).Contents (Elt F)),
    StableHlo.unary main_v91 main_v92 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v92 main_v93 (broadcastInDim S2048x2x196 ![0, 1, 2] bcast_S2048x1x196_S2048x2x196_0_1_2 : (⟨S2048x1x196, .f32⟩ : BufTy).Contents (Elt F) → (⟨S2048x2x196, .f32⟩ : BufTy).Contents (Elt F)) ]

/-- Every operation of the stretch touches buffers of the device's own core only. -/
theorem round3a_sub : (round3a (F := F)).Forall fun op => op.bufs ⊆ tcRefs τ sig :=
  ⟨binary_bufs_sub .., nullary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., binary_bufs_sub .., nullary_bufs_sub .., unary_bufs_sub .., binary_bufs_sub .., unary_bufs_sub .., unary_bufs_sub ..⟩

/-- Every operation of the stretch determines all that it writes. -/
theorem round3a_fresh : (round3a (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

/-- Operations 28 to 40 of round 3's forty. -/
def round3b : List (HloOp τ sig (Elt F)) :=
  [ StableHlo.binary main_v88 main_v93 main_v94 (subf : (⟨S2048x2x196, .f32⟩ : BufTy).Contents (Elt F) → (⟨S2048x2x196, .f32⟩ : BufTy).Contents (Elt F) → (⟨S2048x2x196, .f32⟩ : BufTy).Contents (Elt F)),
    StableHlo.unary main_v94 main_v95 (Host.exp : (⟨S2048x2x196, .f32⟩ : BufTy).Contents (Elt F) → (⟨S2048x2x196, .f32⟩ : BufTy).Contents (Elt F)),
    StableHlo.nullary main_cst_24 (constant S_ .f32 0x00000000#32),
    StableHlo.binary main_v95 main_cst_24 main_v96 ((fun x v => Host.reduceAdd x v reducesTo_S2048x2x196_S2048x196_d1 h_S_) : (⟨S2048x2x196, .f32⟩ : BufTy).Contents (Elt F) → (⟨S_, .f32⟩ : BufTy).Contents (Elt F) → (⟨S2048x196, .f32⟩ : BufTy).Contents (Elt F)),
    StableHlo.unary main_v96 main_v97 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v97 main_v98 (broadcastInDim S2048x2x196 ![0, 1, 2] bcast_S2048x1x196_S2048x2x196_0_1_2 : (⟨S2048x1x196, .f32⟩ : BufTy).Contents (Elt F) → (⟨S2048x2x196, .f32⟩ : BufTy).Contents (Elt F)),
    StableHlo.binary main_v95 main_v98 main_v99 (Host.divf : (⟨S2048x2x196, .f32⟩ : BufTy).Contents (Elt F) → (⟨S2048x2x196, .f32⟩ : BufTy).Contents (Elt F) → (⟨S2048x2x196, .f32⟩ : BufTy).Contents (Elt F)),
    StableHlo.binary main_v99 main_arg0 main_v100 ((fun l r => Host.dotGeneral dot_S2048x2x196_S2048x196x512_S2048x2x512_2_1_1_2_0_0 none l r) : (⟨S2048x2x196, .f32⟩ : BufTy).Contents (Elt F) → (⟨S2048x196x512, .f32⟩ : BufTy).Contents (Elt F) → (⟨S2048x2x512, .f32⟩ : BufTy).Contents (Elt F)),
    StableHlo.nullary main_cst_25 (constant S_ .f32 0x00000000#32),
    StableHlo.binary main_v99 main_cst_25 main_v101 ((fun x v => Host.reduceAdd x v reducesTo_S2048x2x196_S2048x2_d2 h_S_) : (⟨S2048x2x196, .f32⟩ : BufTy).Contents (Elt F) → (⟨S_, .f32⟩ : BufTy).Contents (Elt F) → (⟨S2048x2, .f32⟩ : BufTy).Contents (Elt F)),
    StableHlo.unary main_v101 main_v102 (broadcastInDim S2048x2x1 ![0, 1] bcast_S2048x2_S2048x2x1_0_1 : (⟨S2048x2, .f32⟩ : BufTy).Contents (Elt F) → (⟨S2048x2x1, .f32⟩ : BufTy).Contents (Elt F)),
    StableHlo.unary main_v102 main_v103 (broadcastInDim S2048x2x512 ![0, 1, 2] bcast_S2048x2x1_S2048x2x512_0_1_2 : (⟨S2048x2x1, .f32⟩ : BufTy).Contents (Elt F) → (⟨S2048x2x512, .f32⟩ : BufTy).Contents (Elt F)),
    StableHlo.binary main_v100 main_v103 main_v104 (Host.divf : (⟨S2048x2x512, .f32⟩ : BufTy).Contents (Elt F) → (⟨S2048x2x512, .f32⟩ : BufTy).Contents (Elt F) → (⟨S2048x2x512, .f32⟩ : BufTy).Contents (Elt F)) ]

/-- Every operation of the stretch touches buffers of the device's own core only. -/
theorem round3b_sub : (round3b (F := F)).Forall fun op => op.bufs ⊆ tcRefs τ sig :=
  ⟨binary_bufs_sub .., unary_bufs_sub .., nullary_bufs_sub .., binary_bufs_sub .., unary_bufs_sub .., unary_bufs_sub .., binary_bufs_sub .., binary_bufs_sub .., nullary_bufs_sub .., binary_bufs_sub .., unary_bufs_sub .., unary_bufs_sub .., binary_bufs_sub ..⟩

/-- Every operation of the stretch determines all that it writes. -/
theorem round3b_fresh : (round3b (F := F)).Forall fun op => op.fresh = ∅ :=
  ⟨rfl, rfl, rfl, rfl, rfl, rfl, rfl, rfl, rfl, rfl, rfl, rfl, rfl⟩

/-- After the round the outgoing centroids are one step of the incoming ones. -/
theorem round3_step (V : Valuation τ sig (Elt F)) :
    after round3b (after round3a V) (Proc.devRef .tc main_v104)
      = RSteps.step (V (Proc.devRef .tc main_arg0)) (V (Proc.devRef .tc main_v8)) (V (Proc.devRef .tc main_v72)) := by
  delta round3a round3b
  after_results_simp
  rfl

/-- The round does not write the points. -/
theorem round3_arg0 (V : Valuation τ sig (Elt F)) :
    after round3b (after round3a V) (Proc.devRef .tc main_arg0) = V (Proc.devRef .tc main_arg0) := by
  delta round3a round3b
  after_results_simp

/-- The round does not write the squared norms. -/
theorem round3_sqNorms (V : Valuation τ sig (Elt F)) :
    after round3b (after round3a V) (Proc.devRef .tc main_v8) = V (Proc.devRef .tc main_v8) := by
  delta round3a round3b
  after_results_simp

end Cert.ReferenceIdeal.RefRun

end
-- ==== Proof.RefRound4.lean ====
/-
  The fourth round of the reference's straight line: forty operations that read the points, their squared norms and
  the round's incoming centroids, and write, through intermediate buffers of their own, the distances of every point
  to both centroids, the two weights of every point (the softmax over the classes of minus ten times the distances)
  and the weighted means as the outgoing centroids. For any contents of the buffers before the round: the outgoing
  centroid buffer holds one whole-array step of the incoming one, and the points and the norms are not written.
-/
import proofs.«122523_j36721970381457_2_alg».proof.Proof.RSteps
import proofs.«122523_j36721970381457_2_alg».proof.Proof.RefCongr
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]
/-- The forty operations of round 4. -/
def round4 : List (HloOp τ sig (Elt F)) :=
  [ StableHlo.binary main_v104 main_v104 main_v105 (mulf : (⟨S2048x2x512, .f32⟩ : BufTy).Contents (Elt F) → (⟨S2048x2x512, .f32⟩ : BufTy).Contents (Elt F) → (⟨S2048x2x512, .f32⟩ : BufTy).Contents (Elt F)),
    StableHlo.nullary main_cst_26 (constant S_ .f32 0x00000000#32),
    StableHlo.binary main_v105 main_cst_26 main_v106 ((fun x v => Host.reduceAdd x v reducesTo_S2048x2x512_S2048x2_d2 h_S_) : (⟨S2048x2x512, .f32⟩ : BufTy).Contents (Elt F) → (⟨S_, .f32⟩ : BufTy).Contents (Elt F) → (⟨S2048x2, .f32⟩ : BufTy).Contents (Elt F)),
    StableHlo.unary main_v106 main_v107 (broadcastInDim S2048x2x1 ![0, 1] bcast_S2048x2_S2048x2x1_0_1 : (⟨S2048x2, .f32⟩ : BufTy).Contents (Elt F) → (⟨S2048x2x1, .f32⟩ : BufTy).Contents (Elt F)),
    StableHlo.binary main_v104 main_arg0 main_v108 ((fun l r => Host.dotGeneral dot_S2048x2x512_S2048x196x512_S2048x2x196_2_2_1_1_0_0 none l r) : (⟨S2048x2x512, .f32⟩ : BufTy).Contents (Elt F) → (⟨S2048x196x512, .f32⟩ : BufTy).Contents (Elt F) → (⟨S2048x2x196, .f32⟩ : BufTy).Contents (Elt F)),
    StableHlo.nullary main_cst_27 (constant S_ .f32 0x40000000#32),
    StableHlo.unary main_cst_27 main_v109 (broadcastInDim S2048x2x196 ![] bcast_S_S2048x2x196 : (⟨S_, .f32⟩ : BufTy).Contents (Elt F) → (⟨S2048x2x196, .f32⟩ : BufTy).Contents (Elt F)),
    StableHlo.binary main_v109 main_v108 main_v110 (mulf : (⟨S2048x2x196, .f32⟩ : BufTy).Contents (Elt F) → (⟨S2048x2x196, .f32⟩ : BufTy).Contents (Elt F) → (⟨S2048x2x196, .f32⟩ : BufTy).Contents (Elt F)),
    StableHlo.unary main_v107 main_v111 (broadcastInDim S2048x2x196 ![0, 1, 2] bcast_S2048x2x1_S2048x2x196_0_1_2 : (⟨S2048x2x1, .f32⟩ : BufTy).Contents (Elt F) → (⟨S2048x2x196, .f32⟩ : BufTy).Contents (Elt F)),
    StableHlo.binary main_v111 main_v110 main_v112 (subf : (⟨S2048x2x196, .f32⟩ : BufTy).Contents (Elt F) → (⟨S2048x2x196, .f32⟩ : BufTy).Contents (Elt F) → (⟨S2048x2x196, .f32⟩ : BufTy).Contents (Elt F)),
    StableHlo.unary main_v8 main_v113 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v113 main_v114 (broadcastInDim S2048x2x196 ![0, 1, 2] bcast_S2048x1x196_S2048x2x196_0_1_2 : (⟨S2048x1x196, .f32⟩ : BufTy).Contents (Elt F) → (⟨S2048x2x196, .f32⟩ : BufTy).Contents (Elt F)),
    StableHlo.binary main_v112 main_v114 main_v115 (addf : (⟨S2048x2x196, .f32⟩ : BufTy).Contents (Elt F) → (⟨S2048x2x196, .f32⟩ : BufTy).Contents (Elt F) → (⟨S2048x2x196, .f32⟩ : BufTy).Contents (Elt F)),
    StableHlo.nullary main_cst_28 (constant S_ .f32 0x2EDBE6FF#32),
    StableHlo.unary main_cst_28 main_v116 (broadcastInDim S2048x2x196 ![] bcast_S_S2048x2x196 : (⟨S_, .f32⟩ : BufTy).Contents (Elt F) → (⟨S2048x2x196, .f32⟩ : BufTy).Contents (Elt F)),
    StableHlo.binary main_v115 main_v116 main_v117 (maximumf : (⟨S2048x2x196, .f32⟩ : BufTy).Contents (Elt F) → (⟨S2048x2x196, .f32⟩ : BufTy).Contents (Elt F) → (⟨S2048x2x196, .f32⟩ : BufTy).Contents (Elt F)),
    StableHlo.unary main_v117 main_v118 (Host.sqrt : (⟨S2048x2x196, .f32⟩ : BufTy).Contents (Elt F) → (⟨S2048x2x196, .f32⟩ : BufTy).Contents (Elt F)),
    StableHlo.nullary main_cst_29 (constant S_ .f32 0xC1200000#32),
    StableHlo.unary main_cst_29 main_v119 (broadcastInDim S2048x2x196 ![] bcast_S_S2048x2x196 : (⟨S_, .f32⟩ : BufTy).Contents (Elt F) → (⟨S2048x2x196, .f32⟩ : BufTy).Contents (Elt F)),
    StableHlo.binary main_v119 main_v118 main_v120 (mulf : (⟨S2048x2x196, .f32⟩ : BufTy).Contents (Elt F) → (⟨S2048x2x196, .f32⟩ : BufTy).Contents (Elt F) → (⟨S2048x2x196, .f32⟩ : BufTy).Contents (Elt F)),
    StableHlo.nullary main_cst_30 (constant S_ .f32 0xFF800000#32),
    StableHlo.binary main_v120 main_cst_30 main_v121 ((fun x v => Host.reduce FloatOps.maximumf x v reducesTo_S2048x2x196_S2048x196_d1 h_S_) : (⟨S2048x2x196, .f32⟩ : BufTy).Contents (Elt F) → (⟨S_, .f32⟩ : BufTy).Contents (Elt F) → (⟨S2048x196, .f32⟩ : BufTy).Contents (Elt F)),
    StableHlo.nullary main_cst_31 (constant S_ .f32 0xFF800000#32),
    StableHlo.unary main_cst_31 main_v122 (broadcastInDim S2048x196 ![] bcast_S_S2048x196 : (⟨S_, .f32⟩ : BufTy).Contents (Elt F) → (⟨S2048x196, .f32⟩ : BufTy).Contents (Elt F)),
    StableHlo.binary main_v122 main_v121 main_v123 (maximumf : (⟨S2048x196, .f32⟩ : BufTy).Contents (Elt F) → (⟨S2048x196, .f32⟩ : BufTy).Contents (Elt F) → (⟨S2048x196, .f32⟩ : BufTy).Contents (Elt F)),
    StableHlo.unary main_v123 main_v124 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v124 main_v125 (broadcastInDim S2048x2x196 ![0, 1, 2] bcast_S2048x1x196_S2048x2x196_0_1_2 : (⟨S2048x1x196, .f32⟩ : BufTy).Contents (Elt F) → (⟨S2048x2x196, .f32⟩ : BufTy).Contents (Elt F)),
    StableHlo.binary main_v120 main_v125 main_v126 (subf : (⟨S2048x2x196, .f32⟩ : BufTy).Contents (Elt F) → (⟨S2048x2x196, .f32⟩ : BufTy).Contents (Elt F) → (⟨S2048x2x196, .f32⟩ : BufTy).Contents (Elt F)),
    StableHlo.unary main_v126 main_v127 (Host.exp : (⟨S2048x2x196, .f32⟩ : BufTy).Contents (Elt F) → (⟨S2048x2x196, .f32⟩ : BufTy).Contents (Elt F)),
    StableHlo.nullary main_cst_32 (constant S_ .f32 0x00000000#32),
    StableHlo.binary main_v127 main_cst_32 main_v128 ((fun x v => Host.reduceAdd x v reducesTo_S2048x2x196_S2048x196_d1 h_S_) : (⟨S2048x2x196, .f32⟩ : BufTy).Contents (Elt F) → (⟨S_, .f32⟩ : BufTy).Contents (Elt F) → (⟨S2048x196, .f32⟩ : BufTy).Contents (Elt F)),
    StableHlo.unary main_v128 main_v129 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v129 main_v130 (broadcastInDim S2048x2x196 ![0, 1, 2] bcast_S2048x1x196_S2048x2x196_0_1_2 : (⟨S2048x1x196, .f32⟩ : BufTy).Contents (Elt F) → (⟨S2048x2x196, .f32⟩ : BufTy).Contents (Elt F)),
    StableHlo.binary main_v127 main_v130 main_v131 (Host.divf : (⟨S2048x2x196, .f32⟩ : BufTy).Contents (Elt F) → (⟨S2048x2x196, .f32⟩ : BufTy).Contents (Elt F) → (⟨S2048x2x196, .f32⟩ : BufTy).Contents (Elt F)),
    StableHlo.binary main_v131 main_arg0 main_v132 ((fun l r => Host.dotGeneral dot_S2048x2x196_S2048x196x512_S2048x2x512_2_1_1_2_0_0 none l r) : (⟨S2048x2x196, .f32⟩ : BufTy).Contents (Elt F) → (⟨S2048x196x512, .f32⟩ : BufTy).Contents (Elt F) → (⟨S2048x2x512, .f32⟩ : BufTy).Contents (Elt F)),
    StableHlo.nullary main_cst_33 (constant S_ .f32 0x00000000#32),
    StableHlo.binary main_v131 main_cst_33 main_v133 ((fun x v => Host.reduceAdd x v reducesTo_S2048x2x196_S2048x2_d2 h_S_) : (⟨S2048x2x196, .f32⟩ : BufTy).Contents (Elt F) → (⟨S_, .f32⟩ : BufTy).Contents (Elt F) → (⟨S2048x2, .f32⟩ : BufTy).Contents (Elt F)),
    StableHlo.unary main_v133 main_v134 (broadcastInDim S2048x2x1 ![0, 1] bcast_S2048x2_S2048x2x1_0_1 : (⟨S2048x2, .f32⟩ : BufTy).Contents (Elt F) → (⟨S2048x2x1, .f32⟩ : BufTy).Contents (Elt F)),
    StableHlo.unary main_v134 main_v135 (broadcastInDim S2048x2x512 ![0, 1, 2] bcast_S2048x2x1_S2048x2x512_0_1_2 : (⟨S2048x2x1, .f32⟩ : BufTy).Contents (Elt F) → (⟨S2048x2x512, .f32⟩ : BufTy).Contents (Elt F)),
    StableHlo.binary main_v132 main_v135 main_v136 (Host.divf : (⟨S2048x2x512, .f32⟩ : BufTy).Contents (Elt F) → (⟨S2048x2x512, .f32⟩ : BufTy).Contents (Elt F) → (⟨S2048x2x512, .f32⟩ : BufTy).Contents (Elt F)) ]

/-- Every operation of the stretch touches buffers of the device's own core only. -/
theorem round4_sub : (round4 (F := F)).Forall fun op => op.bufs ⊆ tcRefs τ sig :=
  ⟨binary_bufs_sub .., nullary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., binary_bufs_sub .., unary_bufs_sub .., unary_bufs_sub .., binary_bufs_sub ..⟩

/-- Every operation of the stretch determines all that it writes. -/
theorem round4_fresh : (round4 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- After the round the outgoing centroids are one step of the incoming ones. -/
theorem round4_step (V : Valuation τ sig (Elt F)) :
    after round4 V (Proc.devRef .tc main_v136)
      = RSteps.step (V (Proc.devRef .tc main_arg0)) (V (Proc.devRef .tc main_v8)) (V (Proc.devRef .tc main_v104)) := by
  delta round4
  after_results_simp
  rfl

/-- The round does not write the points. -/
theorem round4_arg0 (V : Valuation τ sig (Elt F)) :
    after round4 V (Proc.devRef .tc main_arg0) = V (Proc.devRef .tc main_arg0) := by
  delta round4
  after_results_simp

/-- The round does not write the squared norms. -/
theorem round4_sqNorms (V : Valuation τ sig (Elt F)) :
    after round4 V (Proc.devRef .tc main_v8) = V (Proc.devRef .tc main_v8) := by
  delta round4
  after_results_simp

end Cert.ReferenceIdeal.RefRun

end
-- ==== Proof.RefRound5.lean ====
/-
  The fifth round of the reference's straight line: forty operations that read the points, their squared norms and
  the round's incoming centroids, and write, through intermediate buffers of their own, the distances of every point
  to both centroids, the two weights of every point (the softmax over the classes of minus ten times the distances)
  and the weighted means as the outgoing centroids. For any contents of the buffers before the round: the outgoing
  centroid buffer holds one whole-array step of the incoming one, and the points and the norms are not written.
  The forty operations are listed in two consecutive stretches; the contents after both are the second's fold over the first's.
-/
import proofs.«122523_j36721970381457_2_alg».proof.Proof.RSteps
import proofs.«122523_j36721970381457_2_alg».proof.Proof.RefCongr
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]
/-- Operations 1 to 7 of round 5's forty. -/
def round5a : List (HloOp τ sig (Elt F)) :=
  [ StableHlo.binary main_v136 main_v136 main_v137 (mulf : (⟨S2048x2x512, .f32⟩ : BufTy).Contents (Elt F) → (⟨S2048x2x512, .f32⟩ : BufTy).Contents (Elt F) → (⟨S2048x2x512, .f32⟩ : BufTy).Contents (Elt F)),
    StableHlo.nullary main_cst_34 (constant S_ .f32 0x00000000#32),
    StableHlo.binary main_v137 main_cst_34 main_v138 ((fun x v => Host.reduceAdd x v reducesTo_S2048x2x512_S2048x2_d2 h_S_) : (⟨S2048x2x512, .f32⟩ : BufTy).Contents (Elt F) → (⟨S_, .f32⟩ : BufTy).Contents (Elt F) → (⟨S2048x2, .f32⟩ : BufTy).Contents (Elt F)),
    StableHlo.unary main_v138 main_v139 (broadcastInDim S2048x2x1 ![0, 1] bcast_S2048x2_S2048x2x1_0_1 : (⟨S2048x2, .f32⟩ : BufTy).Contents (Elt F) → (⟨S2048x2x1, .f32⟩ : BufTy).Contents (Elt F)),
    StableHlo.binary main_v136 main_arg0 main_v140 ((fun l r => Host.dotGeneral dot_S2048x2x512_S2048x196x512_S2048x2x196_2_2_1_1_0_0 none l r) : (⟨S2048x2x512, .f32⟩ : BufTy).Contents (Elt F) → (⟨S2048x196x512, .f32⟩ : BufTy).Contents (Elt F) → (⟨S2048x2x196, .f32⟩ : BufTy).Contents (Elt F)),
    StableHlo.nullary main_cst_35 (constant S_ .f32 0x40000000#32),
    StableHlo.unary main_cst_35 main_v141 (broadcastInDim S2048x2x196 ![] bcast_S_S2048x2x196 : (⟨S_, .f32⟩ : BufTy).Contents (Elt F) → (⟨S2048x2x196, .f32⟩ : BufTy).Contents (Elt F)) ]

/-- Every operation of the stretch touches buffers of the device's own core only. -/
theorem round5a_sub : (round5a (F := F)).Forall fun op => op.bufs ⊆ tcRefs τ sig :=
  ⟨binary_bufs_sub .., nullary_bufs_sub .., binary_bufs_sub .., unary_bufs_sub .., binary_bufs_sub .., nullary_bufs_sub .., unary_bufs_sub ..⟩

/-- Every operation of the stretch determines all that it writes. -/
theorem round5a_fresh : (round5a (F := F)).Forall fun op => op.fresh = ∅ :=
  ⟨rfl, rfl, rfl, rfl, rfl, rfl, rfl⟩

/-- Operations 8 to 40 of round 5's forty. -/
def round5b : List (HloOp τ sig (Elt F)) :=
  [ StableHlo.binary main_v141 main_v140 main_v142 (mulf : (⟨S2048x2x196, .f32⟩ : BufTy).Contents (Elt F) → (⟨S2048x2x196, .f32⟩ : BufTy).Contents (Elt F) → (⟨S2048x2x196, .f32⟩ : BufTy).Contents (Elt F)),
    StableHlo.unary main_v139 main_v143 (broadcastInDim S2048x2x196 ![0, 1, 2] bcast_S2048x2x1_S2048x2x196_0_1_2 : (⟨S2048x2x1, .f32⟩ : BufTy).Contents (Elt F) → (⟨S2048x2x196, .f32⟩ : BufTy).Contents (Elt F)),
    StableHlo.binary main_v143 main_v142 main_v144 (subf : (⟨S2048x2x196, .f32⟩ : BufTy).Contents (Elt F) → (⟨S2048x2x196, .f32⟩ : BufTy).Contents (Elt F) → (⟨S2048x2x196, .f32⟩ : BufTy).Contents (Elt F)),
    StableHlo.unary main_v8 main_v145 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v145 main_v146 (broadcastInDim S2048x2x196 ![0, 1, 2] bcast_S2048x1x196_S2048x2x196_0_1_2 : (⟨S2048x1x196, .f32⟩ : BufTy).Contents (Elt F) → (⟨S2048x2x196, .f32⟩ : BufTy).Contents (Elt F)),
    StableHlo.binary main_v144 main_v146 main_v147 (addf : (⟨S2048x2x196, .f32⟩ : BufTy).Contents (Elt F) → (⟨S2048x2x196, .f32⟩ : BufTy).Contents (Elt F) → (⟨S2048x2x196, .f32⟩ : BufTy).Contents (Elt F)),
    StableHlo.nullary main_cst_36 (constant S_ .f32 0x2EDBE6FF#32),
    StableHlo.unary main_cst_36 main_v148 (broadcastInDim S2048x2x196 ![] bcast_S_S2048x2x196 : (⟨S_, .f32⟩ : BufTy).Contents (Elt F) → (⟨S2048x2x196, .f32⟩ : BufTy).Contents (Elt F)),
    StableHlo.binary main_v147 main_v148 main_v149 (maximumf : (⟨S2048x2x196, .f32⟩ : BufTy).Contents (Elt F) → (⟨S2048x2x196, .f32⟩ : BufTy).Contents (Elt F) → (⟨S2048x2x196, .f32⟩ : BufTy).Contents (Elt F)),
    StableHlo.unary main_v149 main_v150 (Host.sqrt : (⟨S2048x2x196, .f32⟩ : BufTy).Contents (Elt F) → (⟨S2048x2x196, .f32⟩ : BufTy).Contents (Elt F)),
    StableHlo.nullary main_cst_37 (constant S_ .f32 0xC1200000#32),
    StableHlo.unary main_cst_37 main_v151 (broadcastInDim S2048x2x196 ![] bcast_S_S2048x2x196 : (⟨S_, .f32⟩ : BufTy).Contents (Elt F) → (⟨S2048x2x196, .f32⟩ : BufTy).Contents (Elt F)),
    StableHlo.binary main_v151 main_v150 main_v152 (mulf : (⟨S2048x2x196, .f32⟩ : BufTy).Contents (Elt F) → (⟨S2048x2x196, .f32⟩ : BufTy).Contents (Elt F) → (⟨S2048x2x196, .f32⟩ : BufTy).Contents (Elt F)),
    StableHlo.nullary main_cst_38 (constant S_ .f32 0xFF800000#32),
    StableHlo.binary main_v152 main_cst_38 main_v153 ((fun x v => Host.reduce FloatOps.maximumf x v reducesTo_S2048x2x196_S2048x196_d1 h_S_) : (⟨S2048x2x196, .f32⟩ : BufTy).Contents (Elt F) → (⟨S_, .f32⟩ : BufTy).Contents (Elt F) → (⟨S2048x196, .f32⟩ : BufTy).Contents (Elt F)),
    StableHlo.nullary main_cst_39 (constant S_ .f32 0xFF800000#32),
    StableHlo.unary main_cst_39 main_v154 (broadcastInDim S2048x196 ![] bcast_S_S2048x196 : (⟨S_, .f32⟩ : BufTy).Contents (Elt F) → (⟨S2048x196, .f32⟩ : BufTy).Contents (Elt F)),
    StableHlo.binary main_v154 main_v153 main_v155 (maximumf : (⟨S2048x196, .f32⟩ : BufTy).Contents (Elt F) → (⟨S2048x196, .f32⟩ : BufTy).Contents (Elt F) → (⟨S2048x196, .f32⟩ : BufTy).Contents (Elt F)),
    StableHlo.unary main_v155 main_v156 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v156 main_v157 (broadcastInDim S2048x2x196 ![0, 1, 2] bcast_S2048x1x196_S2048x2x196_0_1_2 : (⟨S2048x1x196, .f32⟩ : BufTy).Contents (Elt F) → (⟨S2048x2x196, .f32⟩ : BufTy).Contents (Elt F)),
    StableHlo.binary main_v152 main_v157 main_v158 (subf : (⟨S2048x2x196, .f32⟩ : BufTy).Contents (Elt F) → (⟨S2048x2x196, .f32⟩ : BufTy).Contents (Elt F) → (⟨S2048x2x196, .f32⟩ : BufTy).Contents (Elt F)),
    StableHlo.unary main_v158 main_v159 (Host.exp : (⟨S2048x2x196, .f32⟩ : BufTy).Contents (Elt F) → (⟨S2048x2x196, .f32⟩ : BufTy).Contents (Elt F)),
    StableHlo.nullary main_cst_40 (constant S_ .f32 0x00000000#32),
    StableHlo.binary main_v159 main_cst_40 main_v160 ((fun x v => Host.reduceAdd x v reducesTo_S2048x2x196_S2048x196_d1 h_S_) : (⟨S2048x2x196, .f32⟩ : BufTy).Contents (Elt F) → (⟨S_, .f32⟩ : BufTy).Contents (Elt F) → (⟨S2048x196, .f32⟩ : BufTy).Contents (Elt F)),
    StableHlo.unary main_v160 main_v161 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v161 main_v162 (broadcastInDim S2048x2x196 ![0, 1, 2] bcast_S2048x1x196_S2048x2x196_0_1_2 : (⟨S2048x1x196, .f32⟩ : BufTy).Contents (Elt F) → (⟨S2048x2x196, .f32⟩ : BufTy).Contents (Elt F)),
    StableHlo.binary main_v159 main_v162 main_v163 (Host.divf : (⟨S2048x2x196, .f32⟩ : BufTy).Contents (Elt F) → (⟨S2048x2x196, .f32⟩ : BufTy).Contents (Elt F) → (⟨S2048x2x196, .f32⟩ : BufTy).Contents (Elt F)),
    StableHlo.binary main_v163 main_arg0 main_v164 ((fun l r => Host.dotGeneral dot_S2048x2x196_S2048x196x512_S2048x2x512_2_1_1_2_0_0 none l r) : (⟨S2048x2x196, .f32⟩ : BufTy).Contents (Elt F) → (⟨S2048x196x512, .f32⟩ : BufTy).Contents (Elt F) → (⟨S2048x2x512, .f32⟩ : BufTy).Contents (Elt F)),
    StableHlo.nullary main_cst_41 (constant S_ .f32 0x00000000#32),
    StableHlo.binary main_v163 main_cst_41 main_v165 ((fun x v => Host.reduceAdd x v reducesTo_S2048x2x196_S2048x2_d2 h_S_) : (⟨S2048x2x196, .f32⟩ : BufTy).Contents (Elt F) → (⟨S_, .f32⟩ : BufTy).Contents (Elt F) → (⟨S2048x2, .f32⟩ : BufTy).Contents (Elt F)),
    StableHlo.unary main_v165 main_v166 (broadcastInDim S2048x2x1 ![0, 1] bcast_S2048x2_S2048x2x1_0_1 : (⟨S2048x2, .f32⟩ : BufTy).Contents (Elt F) → (⟨S2048x2x1, .f32⟩ : BufTy).Contents (Elt F)),
    StableHlo.unary main_v166 main_v167 (broadcastInDim S2048x2x512 ![0, 1, 2] bcast_S2048x2x1_S2048x2x512_0_1_2 : (⟨S2048x2x1, .f32⟩ : BufTy).Contents (Elt F) → (⟨S2048x2x512, .f32⟩ : BufTy).Contents (Elt F)),
    StableHlo.binary main_v164 main_v167 main_v168 (Host.divf : (⟨S2048x2x512, .f32⟩ : BufTy).Contents (Elt F) → (⟨S2048x2x512, .f32⟩ : BufTy).Contents (Elt F) → (⟨S2048x2x512, .f32⟩ : BufTy).Contents (Elt F)) ]

/-- Every operation of the stretch touches buffers of the device's own core only. -/
theorem round5b_sub : (round5b (F := F)).Forall fun op => op.bufs ⊆ tcRefs τ sig :=
  ⟨binary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., binary_bufs_sub .., unary_bufs_sub .., unary_bufs_sub .., binary_bufs_sub ..⟩

/-- Every operation of the stretch determines all that it writes. -/
theorem round5b_fresh : (round5b (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- After the round the outgoing centroids are one step of the incoming ones. -/
theorem round5_step (V : Valuation τ sig (Elt F)) :
    after round5b (after round5a V) (Proc.devRef .tc main_v168)
      = RSteps.step (V (Proc.devRef .tc main_arg0)) (V (Proc.devRef .tc main_v8)) (V (Proc.devRef .tc main_v136)) := by
  delta round5a round5b
  after_results_simp
  rfl

/-- The round does not write the points. -/
theorem round5_arg0 (V : Valuation τ sig (Elt F)) :
    after round5b (after round5a V) (Proc.devRef .tc main_arg0) = V (Proc.devRef .tc main_arg0) := by
  delta round5a round5b
  after_results_simp

/-- The round does not write the squared norms. -/
theorem round5_sqNorms (V : Valuation τ sig (Elt F)) :
    after round5b (after round5a V) (Proc.devRef .tc main_v8) = V (Proc.devRef .tc main_v8) := by
  delta round5a round5b
  after_results_simp

end Cert.ReferenceIdeal.RefRun

end
-- ==== Proof.RefRound6.lean ====
/-
  The sixth round of the reference's straight line: forty operations that read the points, their squared norms and
  the round's incoming centroids, and write, through intermediate buffers of their own, the distances of every point
  to both centroids, the two weights of every point (the softmax over the classes of minus ten times the distances)
  and the weighted means as the outgoing centroids. For any contents of the buffers before the round: the outgoing
  centroid buffer holds one whole-array step of the incoming one, and the points and the norms are not written.
  The forty operations are listed in two consecutive stretches; the contents after both are the second's fold over the first's.
-/
import proofs.«122523_j36721970381457_2_alg».proof.Proof.RSteps
import proofs.«122523_j36721970381457_2_alg».proof.Proof.RefCongr
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]
/-- Operations 1 to 27 of round 6's forty. -/
def round6a : List (HloOp τ sig (Elt F)) :=
  [ StableHlo.binary main_v168 main_v168 main_v169 (mulf : (⟨S2048x2x512, .f32⟩ : BufTy).Contents (Elt F) → (⟨S2048x2x512, .f32⟩ : BufTy).Contents (Elt F) → (⟨S2048x2x512, .f32⟩ : BufTy).Contents (Elt F)),
    StableHlo.nullary main_cst_42 (constant S_ .f32 0x00000000#32),
    StableHlo.binary main_v169 main_cst_42 main_v170 ((fun x v => Host.reduceAdd x v reducesTo_S2048x2x512_S2048x2_d2 h_S_) : (⟨S2048x2x512, .f32⟩ : BufTy).Contents (Elt F) → (⟨S_, .f32⟩ : BufTy).Contents (Elt F) → (⟨S2048x2, .f32⟩ : BufTy).Contents (Elt F)),
    StableHlo.unary main_v170 main_v171 (broadcastInDim S2048x2x1 ![0, 1] bcast_S2048x2_S2048x2x1_0_1 : (⟨S2048x2, .f32⟩ : BufTy).Contents (Elt F) → (⟨S2048x2x1, .f32⟩ : BufTy).Contents (Elt F)),
    StableHlo.binary main_v168 main_arg0 main_v172 ((fun l r => Host.dotGeneral dot_S2048x2x512_S2048x196x512_S2048x2x196_2_2_1_1_0_0 none l r) : (⟨S2048x2x512, .f32⟩ : BufTy).Contents (Elt F) → (⟨S2048x196x512, .f32⟩ : BufTy).Contents (Elt F) → (⟨S2048x2x196, .f32⟩ : BufTy).Contents (Elt F)),
    StableHlo.nullary main_cst_43 (constant S_ .f32 0x40000000#32),
    StableHlo.unary main_cst_43 main_v173 (broadcastInDim S2048x2x196 ![] bcast_S_S2048x2x196 : (⟨S_, .f32⟩ : BufTy).Contents (Elt F) → (⟨S2048x2x196, .f32⟩ : BufTy).Contents (Elt F)),
    StableHlo.binary main_v173 main_v172 main_v174 (mulf : (⟨S2048x2x196, .f32⟩ : BufTy).Contents (Elt F) → (⟨S2048x2x196, .f32⟩ : BufTy).Contents (Elt F) → (⟨S2048x2x196, .f32⟩ : BufTy).Contents (Elt F)),
    StableHlo.unary main_v171 main_v175 (broadcastInDim S2048x2x196 ![0, 1, 2] bcast_S2048x2x1_S2048x2x196_0_1_2 : (⟨S2048x2x1, .f32⟩ : BufTy).Contents (Elt F) → (⟨S2048x2x196, .f32⟩ : BufTy).Contents (Elt F)),
    StableHlo.binary main_v175 main_v174 main_v176 (subf : (⟨S2048x2x196, .f32⟩ : BufTy).Contents (Elt F) → (⟨S2048x2x196, .f32⟩ : BufTy).Contents (Elt F) → (⟨S2048x2x196, .f32⟩ : BufTy).Contents (Elt F)),
    StableHlo.unary main_v8 main_v177 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v177 main_v178 (broadcastInDim S2048x2x196 ![0, 1, 2] bcast_S2048x1x196_S2048x2x196_0_1_2 : (⟨S2048x1x196, .f32⟩ : BufTy).Contents (Elt F) → (⟨S2048x2x196, .f32⟩ : BufTy).Contents (Elt F)),
    StableHlo.binary main_v176 main_v178 main_v179 (addf : (⟨S2048x2x196, .f32⟩ : BufTy).Contents (Elt F) → (⟨S2048x2x196, .f32⟩ : BufTy).Contents (Elt F) → (⟨S2048x2x196, .f32⟩ : BufTy).Contents (Elt F)),
    StableHlo.nullary main_cst_44 (constant S_ .f32 0x2EDBE6FF#32),
    StableHlo.unary main_cst_44 main_v180 (broadcastInDim S2048x2x196 ![] bcast_S_S2048x2x196 : (⟨S_, .f32⟩ : BufTy).Contents (Elt F) → (⟨S2048x2x196, .f32⟩ : BufTy).Contents (Elt F)),
    StableHlo.binary main_v179 main_v180 main_v181 (maximumf : (⟨S2048x2x196, .f32⟩ : BufTy).Contents (Elt F) → (⟨S2048x2x196, .f32⟩ : BufTy).Contents (Elt F) → (⟨S2048x2x196, .f32⟩ : BufTy).Contents (Elt F)),
    StableHlo.unary main_v181 main_v182 (Host.sqrt : (⟨S2048x2x196, .f32⟩ : BufTy).Contents (Elt F) → (⟨S2048x2x196, .f32⟩ : BufTy).Contents (Elt F)),
    StableHlo.nullary main_cst_45 (constant S_ .f32 0xC1200000#32),
    StableHlo.unary main_cst_45 main_v183 (broadcastInDim S2048x2x196 ![] bcast_S_S2048x2x196 : (⟨S_, .f32⟩ : BufTy).Contents (Elt F) → (⟨S2048x2x196, .f32⟩ : BufTy).Contents (Elt F)),
    StableHlo.binary main_v183 main_v182 main_v184 (mulf : (⟨S2048x2x196, .f32⟩ : BufTy).Contents (Elt F) → (⟨S2048x2x196, .f32⟩ : BufTy).Contents (Elt F) → (⟨S2048x2x196, .f32⟩ : BufTy).Contents (Elt F)),
    StableHlo.nullary main_cst_46 (constant S_ .f32 0xFF800000#32),
    StableHlo.binary main_v184 main_cst_46 main_v185 ((fun x v => Host.reduce FloatOps.maximumf x v reducesTo_S2048x2x196_S2048x196_d1 h_S_) : (⟨S2048x2x196, .f32⟩ : BufTy).Contents (Elt F) → (⟨S_, .f32⟩ : BufTy).Contents (Elt F) → (⟨S2048x196, .f32⟩ : BufTy).Contents (Elt F)),
    StableHlo.nullary main_cst_47 (constant S_ .f32 0xFF800000#32),
    StableHlo.unary main_cst_47 main_v186 (broadcastInDim S2048x196 ![] bcast_S_S2048x196 : (⟨S_, .f32⟩ : BufTy).Contents (Elt F) → (⟨S2048x196, .f32⟩ : BufTy).Contents (Elt F)),
    StableHlo.binary main_v186 main_v185 main_v187 (maximumf : (⟨S2048x196, .f32⟩ : BufTy).Contents (Elt F) → (⟨S2048x196, .f32⟩ : BufTy).Contents (Elt F) → (⟨S2048x196, .f32⟩ : BufTy).Contents (Elt F)),
    StableHlo.unary main_v187 main_v188 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v188 main_v189 (broadcastInDim S2048x2x196 ![0, 1, 2] bcast_S2048x1x196_S2048x2x196_0_1_2 : (⟨S2048x1x196, .f32⟩ : BufTy).Contents (Elt F) → (⟨S2048x2x196, .f32⟩ : BufTy).Contents (Elt F)) ]

/-- Every operation of the stretch touches buffers of the device's own core only. -/
theorem round6a_sub : (round6a (F := F)).Forall fun op => op.bufs ⊆ tcRefs τ sig :=
  ⟨binary_bufs_sub .., nullary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., binary_bufs_sub .., nullary_bufs_sub .., unary_bufs_sub .., binary_bufs_sub .., unary_bufs_sub .., unary_bufs_sub ..⟩

/-- Every operation of the stretch determines all that it writes. -/
theorem round6a_fresh : (round6a (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

/-- Operations 28 to 40 of round 6's forty. -/
def round6b : List (HloOp τ sig (Elt F)) :=
  [ StableHlo.binary main_v184 main_v189 main_v190 (subf : (⟨S2048x2x196, .f32⟩ : BufTy).Contents (Elt F) → (⟨S2048x2x196, .f32⟩ : BufTy).Contents (Elt F) → (⟨S2048x2x196, .f32⟩ : BufTy).Contents (Elt F)),
    StableHlo.unary main_v190 main_v191 (Host.exp : (⟨S2048x2x196, .f32⟩ : BufTy).Contents (Elt F) → (⟨S2048x2x196, .f32⟩ : BufTy).Contents (Elt F)),
    StableHlo.nullary main_cst_48 (constant S_ .f32 0x00000000#32),
    StableHlo.binary main_v191 main_cst_48 main_v192 ((fun x v => Host.reduceAdd x v reducesTo_S2048x2x196_S2048x196_d1 h_S_) : (⟨S2048x2x196, .f32⟩ : BufTy).Contents (Elt F) → (⟨S_, .f32⟩ : BufTy).Contents (Elt F) → (⟨S2048x196, .f32⟩ : BufTy).Contents (Elt F)),
    StableHlo.unary main_v192 main_v193 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v193 main_v194 (broadcastInDim S2048x2x196 ![0, 1, 2] bcast_S2048x1x196_S2048x2x196_0_1_2 : (⟨S2048x1x196, .f32⟩ : BufTy).Contents (Elt F) → (⟨S2048x2x196, .f32⟩ : BufTy).Contents (Elt F)),
    StableHlo.binary main_v191 main_v194 main_v195 (Host.divf : (⟨S2048x2x196, .f32⟩ : BufTy).Contents (Elt F) → (⟨S2048x2x196, .f32⟩ : BufTy).Contents (Elt F) → (⟨S2048x2x196, .f32⟩ : BufTy).Contents (Elt F)),
    StableHlo.binary main_v195 main_arg0 main_v196 ((fun l r => Host.dotGeneral dot_S2048x2x196_S2048x196x512_S2048x2x512_2_1_1_2_0_0 none l r) : (⟨S2048x2x196, .f32⟩ : BufTy).Contents (Elt F) → (⟨S2048x196x512, .f32⟩ : BufTy).Contents (Elt F) → (⟨S2048x2x512, .f32⟩ : BufTy).Contents (Elt F)),
    StableHlo.nullary main_cst_49 (constant S_ .f32 0x00000000#32),
    StableHlo.binary main_v195 main_cst_49 main_v197 ((fun x v => Host.reduceAdd x v reducesTo_S2048x2x196_S2048x2_d2 h_S_) : (⟨S2048x2x196, .f32⟩ : BufTy).Contents (Elt F) → (⟨S_, .f32⟩ : BufTy).Contents (Elt F) → (⟨S2048x2, .f32⟩ : BufTy).Contents (Elt F)),
    StableHlo.unary main_v197 main_v198 (broadcastInDim S2048x2x1 ![0, 1] bcast_S2048x2_S2048x2x1_0_1 : (⟨S2048x2, .f32⟩ : BufTy).Contents (Elt F) → (⟨S2048x2x1, .f32⟩ : BufTy).Contents (Elt F)),
    StableHlo.unary main_v198 main_v199 (broadcastInDim S2048x2x512 ![0, 1, 2] bcast_S2048x2x1_S2048x2x512_0_1_2 : (⟨S2048x2x1, .f32⟩ : BufTy).Contents (Elt F) → (⟨S2048x2x512, .f32⟩ : BufTy).Contents (Elt F)),
    StableHlo.binary main_v196 main_v199 main_v200 (Host.divf : (⟨S2048x2x512, .f32⟩ : BufTy).Contents (Elt F) → (⟨S2048x2x512, .f32⟩ : BufTy).Contents (Elt F) → (⟨S2048x2x512, .f32⟩ : BufTy).Contents (Elt F)) ]

/-- Every operation of the stretch touches buffers of the device's own core only. -/
theorem round6b_sub : (round6b (F := F)).Forall fun op => op.bufs ⊆ tcRefs τ sig :=
  ⟨binary_bufs_sub .., unary_bufs_sub .., nullary_bufs_sub .., binary_bufs_sub .., unary_bufs_sub .., unary_bufs_sub .., binary_bufs_sub .., binary_bufs_sub .., nullary_bufs_sub .., binary_bufs_sub .., unary_bufs_sub .., unary_bufs_sub .., binary_bufs_sub ..⟩

/-- Every operation of the stretch determines all that it writes. -/
theorem round6b_fresh : (round6b (F := F)).Forall fun op => op.fresh = ∅ :=
  ⟨rfl, rfl, rfl, rfl, rfl, rfl, rfl, rfl, rfl, rfl, rfl, rfl, rfl⟩

/-- After the round the outgoing centroids are one step of the incoming ones. -/
theorem round6_step (V : Valuation τ sig (Elt F)) :
    after round6b (after round6a V) (Proc.devRef .tc main_v200)
      = RSteps.step (V (Proc.devRef .tc main_arg0)) (V (Proc.devRef .tc main_v8)) (V (Proc.devRef .tc main_v168)) := by
  delta round6a round6b
  after_results_simp
  rfl

/-- The round does not write the points. -/
theorem round6_arg0 (V : Valuation τ sig (Elt F)) :
    after round6b (after round6a V) (Proc.devRef .tc main_arg0) = V (Proc.devRef .tc main_arg0) := by
  delta round6a round6b
  after_results_simp

/-- The round does not write the squared norms. -/
theorem round6_sqNorms (V : Valuation τ sig (Elt F)) :
    after round6b (after round6a V) (Proc.devRef .tc main_v8) = V (Proc.devRef .tc main_v8) := by
  delta round6a round6b
  after_results_simp

end Cert.ReferenceIdeal.RefRun

end
-- ==== Proof.RefRound7.lean ====
/-
  The seventh round of the reference's straight line: forty operations that read the points, their squared norms and
  the round's incoming centroids, and write, through intermediate buffers of their own, the distances of every point
  to both centroids, the two weights of every point (the softmax over the classes of minus ten times the distances)
  and the weighted means as the outgoing centroids. For any contents of the buffers before the round: the outgoing
  centroid buffer holds one whole-array step of the incoming one, and the points and the norms are not written.
-/
import proofs.«122523_j36721970381457_2_alg».proof.Proof.RSteps
import proofs.«122523_j36721970381457_2_alg».proof.Proof.RefCongr
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]
/-- The forty operations of round 7. -/
def round7 : List (HloOp τ sig (Elt F)) :=
  [ StableHlo.binary main_v200 main_v200 main_v201 (mulf : (⟨S2048x2x512, .f32⟩ : BufTy).Contents (Elt F) → (⟨S2048x2x512, .f32⟩ : BufTy).Contents (Elt F) → (⟨S2048x2x512, .f32⟩ : BufTy).Contents (Elt F)),
    StableHlo.nullary main_cst_50 (constant S_ .f32 0x00000000#32),
    StableHlo.binary main_v201 main_cst_50 main_v202 ((fun x v => Host.reduceAdd x v reducesTo_S2048x2x512_S2048x2_d2 h_S_) : (⟨S2048x2x512, .f32⟩ : BufTy).Contents (Elt F) → (⟨S_, .f32⟩ : BufTy).Contents (Elt F) → (⟨S2048x2, .f32⟩ : BufTy).Contents (Elt F)),
    StableHlo.unary main_v202 main_v203 (broadcastInDim S2048x2x1 ![0, 1] bcast_S2048x2_S2048x2x1_0_1 : (⟨S2048x2, .f32⟩ : BufTy).Contents (Elt F) → (⟨S2048x2x1, .f32⟩ : BufTy).Contents (Elt F)),
    StableHlo.binary main_v200 main_arg0 main_v204 ((fun l r => Host.dotGeneral dot_S2048x2x512_S2048x196x512_S2048x2x196_2_2_1_1_0_0 none l r) : (⟨S2048x2x512, .f32⟩ : BufTy).Contents (Elt F) → (⟨S2048x196x512, .f32⟩ : BufTy).Contents (Elt F) → (⟨S2048x2x196, .f32⟩ : BufTy).Contents (Elt F)),
    StableHlo.nullary main_cst_51 (constant S_ .f32 0x40000000#32),
    StableHlo.unary main_cst_51 main_v205 (broadcastInDim S2048x2x196 ![] bcast_S_S2048x2x196 : (⟨S_, .f32⟩ : BufTy).Contents (Elt F) → (⟨S2048x2x196, .f32⟩ : BufTy).Contents (Elt F)),
    StableHlo.binary main_v205 main_v204 main_v206 (mulf : (⟨S2048x2x196, .f32⟩ : BufTy).Contents (Elt F) → (⟨S2048x2x196, .f32⟩ : BufTy).Contents (Elt F) → (⟨S2048x2x196, .f32⟩ : BufTy).Contents (Elt F)),
    StableHlo.unary main_v203 main_v207 (broadcastInDim S2048x2x196 ![0, 1, 2] bcast_S2048x2x1_S2048x2x196_0_1_2 : (⟨S2048x2x1, .f32⟩ : BufTy).Contents (Elt F) → (⟨S2048x2x196, .f32⟩ : BufTy).Contents (Elt F)),
    StableHlo.binary main_v207 main_v206 main_v208 (subf : (⟨S2048x2x196, .f32⟩ : BufTy).Contents (Elt F) → (⟨S2048x2x196, .f32⟩ : BufTy).Contents (Elt F) → (⟨S2048x2x196, .f32⟩ : BufTy).Contents (Elt F)),
    StableHlo.unary main_v8 main_v209 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v209 main_v210 (broadcastInDim S2048x2x196 ![0, 1, 2] bcast_S2048x1x196_S2048x2x196_0_1_2 : (⟨S2048x1x196, .f32⟩ : BufTy).Contents (Elt F) → (⟨S2048x2x196, .f32⟩ : BufTy).Contents (Elt F)),
    StableHlo.binary main_v208 main_v210 main_v211 (addf : (⟨S2048x2x196, .f32⟩ : BufTy).Contents (Elt F) → (⟨S2048x2x196, .f32⟩ : BufTy).Contents (Elt F) → (⟨S2048x2x196, .f32⟩ : BufTy).Contents (Elt F)),
    StableHlo.nullary main_cst_52 (constant S_ .f32 0x2EDBE6FF#32),
    StableHlo.unary main_cst_52 main_v212 (broadcastInDim S2048x2x196 ![] bcast_S_S2048x2x196 : (⟨S_, .f32⟩ : BufTy).Contents (Elt F) → (⟨S2048x2x196, .f32⟩ : BufTy).Contents (Elt F)),
    StableHlo.binary main_v211 main_v212 main_v213 (maximumf : (⟨S2048x2x196, .f32⟩ : BufTy).Contents (Elt F) → (⟨S2048x2x196, .f32⟩ : BufTy).Contents (Elt F) → (⟨S2048x2x196, .f32⟩ : BufTy).Contents (Elt F)),
    StableHlo.unary main_v213 main_v214 (Host.sqrt : (⟨S2048x2x196, .f32⟩ : BufTy).Contents (Elt F) → (⟨S2048x2x196, .f32⟩ : BufTy).Contents (Elt F)),
    StableHlo.nullary main_cst_53 (constant S_ .f32 0xC1200000#32),
    StableHlo.unary main_cst_53 main_v215 (broadcastInDim S2048x2x196 ![] bcast_S_S2048x2x196 : (⟨S_, .f32⟩ : BufTy).Contents (Elt F) → (⟨S2048x2x196, .f32⟩ : BufTy).Contents (Elt F)),
    StableHlo.binary main_v215 main_v214 main_v216 (mulf : (⟨S2048x2x196, .f32⟩ : BufTy).Contents (Elt F) → (⟨S2048x2x196, .f32⟩ : BufTy).Contents (Elt F) → (⟨S2048x2x196, .f32⟩ : BufTy).Contents (Elt F)),
    StableHlo.nullary main_cst_54 (constant S_ .f32 0xFF800000#32),
    StableHlo.binary main_v216 main_cst_54 main_v217 ((fun x v => Host.reduce FloatOps.maximumf x v reducesTo_S2048x2x196_S2048x196_d1 h_S_) : (⟨S2048x2x196, .f32⟩ : BufTy).Contents (Elt F) → (⟨S_, .f32⟩ : BufTy).Contents (Elt F) → (⟨S2048x196, .f32⟩ : BufTy).Contents (Elt F)),
    StableHlo.nullary main_cst_55 (constant S_ .f32 0xFF800000#32),
    StableHlo.unary main_cst_55 main_v218 (broadcastInDim S2048x196 ![] bcast_S_S2048x196 : (⟨S_, .f32⟩ : BufTy).Contents (Elt F) → (⟨S2048x196, .f32⟩ : BufTy).Contents (Elt F)),
    StableHlo.binary main_v218 main_v217 main_v219 (maximumf : (⟨S2048x196, .f32⟩ : BufTy).Contents (Elt F) → (⟨S2048x196, .f32⟩ : BufTy).Contents (Elt F) → (⟨S2048x196, .f32⟩ : BufTy).Contents (Elt F)),
    StableHlo.unary main_v219 main_v220 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v220 main_v221 (broadcastInDim S2048x2x196 ![0, 1, 2] bcast_S2048x1x196_S2048x2x196_0_1_2 : (⟨S2048x1x196, .f32⟩ : BufTy).Contents (Elt F) → (⟨S2048x2x196, .f32⟩ : BufTy).Contents (Elt F)),
    StableHlo.binary main_v216 main_v221 main_v222 (subf : (⟨S2048x2x196, .f32⟩ : BufTy).Contents (Elt F) → (⟨S2048x2x196, .f32⟩ : BufTy).Contents (Elt F) → (⟨S2048x2x196, .f32⟩ : BufTy).Contents (Elt F)),
    StableHlo.unary main_v222 main_v223 (Host.exp : (⟨S2048x2x196, .f32⟩ : BufTy).Contents (Elt F) → (⟨S2048x2x196, .f32⟩ : BufTy).Contents (Elt F)),
    StableHlo.nullary main_cst_56 (constant S_ .f32 0x00000000#32),
    StableHlo.binary main_v223 main_cst_56 main_v224 ((fun x v => Host.reduceAdd x v reducesTo_S2048x2x196_S2048x196_d1 h_S_) : (⟨S2048x2x196, .f32⟩ : BufTy).Contents (Elt F) → (⟨S_, .f32⟩ : BufTy).Contents (Elt F) → (⟨S2048x196, .f32⟩ : BufTy).Contents (Elt F)),
    StableHlo.unary main_v224 main_v225 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v225 main_v226 (broadcastInDim S2048x2x196 ![0, 1, 2] bcast_S2048x1x196_S2048x2x196_0_1_2 : (⟨S2048x1x196, .f32⟩ : BufTy).Contents (Elt F) → (⟨S2048x2x196, .f32⟩ : BufTy).Contents (Elt F)),
    StableHlo.binary main_v223 main_v226 main_v227 (Host.divf : (⟨S2048x2x196, .f32⟩ : BufTy).Contents (Elt F) → (⟨S2048x2x196, .f32⟩ : BufTy).Contents (Elt F) → (⟨S2048x2x196, .f32⟩ : BufTy).Contents (Elt F)),
    StableHlo.binary main_v227 main_arg0 main_v228 ((fun l r => Host.dotGeneral dot_S2048x2x196_S2048x196x512_S2048x2x512_2_1_1_2_0_0 none l r) : (⟨S2048x2x196, .f32⟩ : BufTy).Contents (Elt F) → (⟨S2048x196x512, .f32⟩ : BufTy).Contents (Elt F) → (⟨S2048x2x512, .f32⟩ : BufTy).Contents (Elt F)),
    StableHlo.nullary main_cst_57 (constant S_ .f32 0x00000000#32),
    StableHlo.binary main_v227 main_cst_57 main_v229 ((fun x v => Host.reduceAdd x v reducesTo_S2048x2x196_S2048x2_d2 h_S_) : (⟨S2048x2x196, .f32⟩ : BufTy).Contents (Elt F) → (⟨S_, .f32⟩ : BufTy).Contents (Elt F) → (⟨S2048x2, .f32⟩ : BufTy).Contents (Elt F)),
    StableHlo.unary main_v229 main_v230 (broadcastInDim S2048x2x1 ![0, 1] bcast_S2048x2_S2048x2x1_0_1 : (⟨S2048x2, .f32⟩ : BufTy).Contents (Elt F) → (⟨S2048x2x1, .f32⟩ : BufTy).Contents (Elt F)),
    StableHlo.unary main_v230 main_v231 (broadcastInDim S2048x2x512 ![0, 1, 2] bcast_S2048x2x1_S2048x2x512_0_1_2 : (⟨S2048x2x1, .f32⟩ : BufTy).Contents (Elt F) → (⟨S2048x2x512, .f32⟩ : BufTy).Contents (Elt F)),
    StableHlo.binary main_v228 main_v231 main_v232 (Host.divf : (⟨S2048x2x512, .f32⟩ : BufTy).Contents (Elt F) → (⟨S2048x2x512, .f32⟩ : BufTy).Contents (Elt F) → (⟨S2048x2x512, .f32⟩ : BufTy).Contents (Elt F)) ]

/-- Every operation of the stretch touches buffers of the device's own core only. -/
theorem round7_sub : (round7 (F := F)).Forall fun op => op.bufs ⊆ tcRefs τ sig :=
  ⟨binary_bufs_sub .., nullary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., binary_bufs_sub .., unary_bufs_sub .., unary_bufs_sub .., binary_bufs_sub ..⟩

/-- Every operation of the stretch determines all that it writes. -/
theorem round7_fresh : (round7 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- After the round the outgoing centroids are one step of the incoming ones. -/
theorem round7_step (V : Valuation τ sig (Elt F)) :
    after round7 V (Proc.devRef .tc main_v232)
      = RSteps.step (V (Proc.devRef .tc main_arg0)) (V (Proc.devRef .tc main_v8)) (V (Proc.devRef .tc main_v200)) := by
  delta round7
  after_results_simp
  rfl

/-- The round does not write the points. -/
theorem round7_arg0 (V : Valuation τ sig (Elt F)) :
    after round7 V (Proc.devRef .tc main_arg0) = V (Proc.devRef .tc main_arg0) := by
  delta round7
  after_results_simp

/-- The round does not write the squared norms. -/
theorem round7_sqNorms (V : Valuation τ sig (Elt F)) :
    after round7 V (Proc.devRef .tc main_v8) = V (Proc.devRef .tc main_v8) := by
  delta round7
  after_results_simp

end Cert.ReferenceIdeal.RefRun

end
-- ==== Proof.RefRound8.lean ====
/-
  The eighth round of the reference's straight line: forty operations that read the points, their squared norms and
  the round's incoming centroids, and write, through intermediate buffers of their own, the distances of every point
  to both centroids, the two weights of every point (the softmax over the classes of minus ten times the distances)
  and the weighted means as the outgoing centroids. For any contents of the buffers before the round: the outgoing
  centroid buffer holds one whole-array step of the incoming one, and the points and the norms are not written.
  The forty operations are listed in two consecutive stretches; the contents after both are the second's fold over the first's.
-/
import proofs.«122523_j36721970381457_2_alg».proof.Proof.RSteps
import proofs.«122523_j36721970381457_2_alg».proof.Proof.RefCongr
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]
/-- Operations 1 to 7 of round 8's forty. -/
def round8a : List (HloOp τ sig (Elt F)) :=
  [ StableHlo.binary main_v232 main_v232 main_v233 (mulf : (⟨S2048x2x512, .f32⟩ : BufTy).Contents (Elt F) → (⟨S2048x2x512, .f32⟩ : BufTy).Contents (Elt F) → (⟨S2048x2x512, .f32⟩ : BufTy).Contents (Elt F)),
    StableHlo.nullary main_cst_58 (constant S_ .f32 0x00000000#32),
    StableHlo.binary main_v233 main_cst_58 main_v234 ((fun x v => Host.reduceAdd x v reducesTo_S2048x2x512_S2048x2_d2 h_S_) : (⟨S2048x2x512, .f32⟩ : BufTy).Contents (Elt F) → (⟨S_, .f32⟩ : BufTy).Contents (Elt F) → (⟨S2048x2, .f32⟩ : BufTy).Contents (Elt F)),
    StableHlo.unary main_v234 main_v235 (broadcastInDim S2048x2x1 ![0, 1] bcast_S2048x2_S2048x2x1_0_1 : (⟨S2048x2, .f32⟩ : BufTy).Contents (Elt F) → (⟨S2048x2x1, .f32⟩ : BufTy).Contents (Elt F)),
    StableHlo.binary main_v232 main_arg0 main_v236 ((fun l r => Host.dotGeneral dot_S2048x2x512_S2048x196x512_S2048x2x196_2_2_1_1_0_0 none l r) : (⟨S2048x2x512, .f32⟩ : BufTy).Contents (Elt F) → (⟨S2048x196x512, .f32⟩ : BufTy).Contents (Elt F) → (⟨S2048x2x196, .f32⟩ : BufTy).Contents (Elt F)),
    StableHlo.nullary main_cst_59 (constant S_ .f32 0x40000000#32),
    StableHlo.unary main_cst_59 main_v237 (broadcastInDim S2048x2x196 ![] bcast_S_S2048x2x196 : (⟨S_, .f32⟩ : BufTy).Contents (Elt F) → (⟨S2048x2x196, .f32⟩ : BufTy).Contents (Elt F)) ]

/-- Every operation of the stretch touches buffers of the device's own core only. -/
theorem round8a_sub : (round8a (F := F)).Forall fun op => op.bufs ⊆ tcRefs τ sig :=
  ⟨binary_bufs_sub .., nullary_bufs_sub .., binary_bufs_sub .., unary_bufs_sub .., binary_bufs_sub .., nullary_bufs_sub .., unary_bufs_sub ..⟩

/-- Every operation of the stretch determines all that it writes. -/
theorem round8a_fresh : (round8a (F := F)).Forall fun op => op.fresh = ∅ :=
  ⟨rfl, rfl, rfl, rfl, rfl, rfl, rfl⟩

/-- Operations 8 to 40 of round 8's forty. -/
def round8b : List (HloOp τ sig (Elt F)) :=
  [ StableHlo.binary main_v237 main_v236 main_v238 (mulf : (⟨S2048x2x196, .f32⟩ : BufTy).Contents (Elt F) → (⟨S2048x2x196, .f32⟩ : BufTy).Contents (Elt F) → (⟨S2048x2x196, .f32⟩ : BufTy).Contents (Elt F)),
    StableHlo.unary main_v235 main_v239 (broadcastInDim S2048x2x196 ![0, 1, 2] bcast_S2048x2x1_S2048x2x196_0_1_2 : (⟨S2048x2x1, .f32⟩ : BufTy).Contents (Elt F) → (⟨S2048x2x196, .f32⟩ : BufTy).Contents (Elt F)),
    StableHlo.binary main_v239 main_v238 main_v240 (subf : (⟨S2048x2x196, .f32⟩ : BufTy).Contents (Elt F) → (⟨S2048x2x196, .f32⟩ : BufTy).Contents (Elt F) → (⟨S2048x2x196, .f32⟩ : BufTy).Contents (Elt F)),
    StableHlo.unary main_v8 main_v241 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v241 main_v242 (broadcastInDim S2048x2x196 ![0, 1, 2] bcast_S2048x1x196_S2048x2x196_0_1_2 : (⟨S2048x1x196, .f32⟩ : BufTy).Contents (Elt F) → (⟨S2048x2x196, .f32⟩ : BufTy).Contents (Elt F)),
    StableHlo.binary main_v240 main_v242 main_v243 (addf : (⟨S2048x2x196, .f32⟩ : BufTy).Contents (Elt F) → (⟨S2048x2x196, .f32⟩ : BufTy).Contents (Elt F) → (⟨S2048x2x196, .f32⟩ : BufTy).Contents (Elt F)),
    StableHlo.nullary main_cst_60 (constant S_ .f32 0x2EDBE6FF#32),
    StableHlo.unary main_cst_60 main_v244 (broadcastInDim S2048x2x196 ![] bcast_S_S2048x2x196 : (⟨S_, .f32⟩ : BufTy).Contents (Elt F) → (⟨S2048x2x196, .f32⟩ : BufTy).Contents (Elt F)),
    StableHlo.binary main_v243 main_v244 main_v245 (maximumf : (⟨S2048x2x196, .f32⟩ : BufTy).Contents (Elt F) → (⟨S2048x2x196, .f32⟩ : BufTy).Contents (Elt F) → (⟨S2048x2x196, .f32⟩ : BufTy).Contents (Elt F)),
    StableHlo.unary main_v245 main_v246 (Host.sqrt : (⟨S2048x2x196, .f32⟩ : BufTy).Contents (Elt F) → (⟨S2048x2x196, .f32⟩ : BufTy).Contents (Elt F)),
    StableHlo.nullary main_cst_61 (constant S_ .f32 0xC1200000#32),
    StableHlo.unary main_cst_61 main_v247 (broadcastInDim S2048x2x196 ![] bcast_S_S2048x2x196 : (⟨S_, .f32⟩ : BufTy).Contents (Elt F) → (⟨S2048x2x196, .f32⟩ : BufTy).Contents (Elt F)),
    StableHlo.binary main_v247 main_v246 main_v248 (mulf : (⟨S2048x2x196, .f32⟩ : BufTy).Contents (Elt F) → (⟨S2048x2x196, .f32⟩ : BufTy).Contents (Elt F) → (⟨S2048x2x196, .f32⟩ : BufTy).Contents (Elt F)),
    StableHlo.nullary main_cst_62 (constant S_ .f32 0xFF800000#32),
    StableHlo.binary main_v248 main_cst_62 main_v249 ((fun x v => Host.reduce FloatOps.maximumf x v reducesTo_S2048x2x196_S2048x196_d1 h_S_) : (⟨S2048x2x196, .f32⟩ : BufTy).Contents (Elt F) → (⟨S_, .f32⟩ : BufTy).Contents (Elt F) → (⟨S2048x196, .f32⟩ : BufTy).Contents (Elt F)),
    StableHlo.nullary main_cst_63 (constant S_ .f32 0xFF800000#32),
    StableHlo.unary main_cst_63 main_v250 (broadcastInDim S2048x196 ![] bcast_S_S2048x196 : (⟨S_, .f32⟩ : BufTy).Contents (Elt F) → (⟨S2048x196, .f32⟩ : BufTy).Contents (Elt F)),
    StableHlo.binary main_v250 main_v249 main_v251 (maximumf : (⟨S2048x196, .f32⟩ : BufTy).Contents (Elt F) → (⟨S2048x196, .f32⟩ : BufTy).Contents (Elt F) → (⟨S2048x196, .f32⟩ : BufTy).Contents (Elt F)),
    StableHlo.unary main_v251 main_v252 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v252 main_v253 (broadcastInDim S2048x2x196 ![0, 1, 2] bcast_S2048x1x196_S2048x2x196_0_1_2 : (⟨S2048x1x196, .f32⟩ : BufTy).Contents (Elt F) → (⟨S2048x2x196, .f32⟩ : BufTy).Contents (Elt F)),
    StableHlo.binary main_v248 main_v253 main_v254 (subf : (⟨S2048x2x196, .f32⟩ : BufTy).Contents (Elt F) → (⟨S2048x2x196, .f32⟩ : BufTy).Contents (Elt F) → (⟨S2048x2x196, .f32⟩ : BufTy).Contents (Elt F)),
    StableHlo.unary main_v254 main_v255 (Host.exp : (⟨S2048x2x196, .f32⟩ : BufTy).Contents (Elt F) → (⟨S2048x2x196, .f32⟩ : BufTy).Contents (Elt F)),
    StableHlo.nullary main_cst_64 (constant S_ .f32 0x00000000#32),
    StableHlo.binary main_v255 main_cst_64 main_v256 ((fun x v => Host.reduceAdd x v reducesTo_S2048x2x196_S2048x196_d1 h_S_) : (⟨S2048x2x196, .f32⟩ : BufTy).Contents (Elt F) → (⟨S_, .f32⟩ : BufTy).Contents (Elt F) → (⟨S2048x196, .f32⟩ : BufTy).Contents (Elt F)),
    StableHlo.unary main_v256 main_v257 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v257 main_v258 (broadcastInDim S2048x2x196 ![0, 1, 2] bcast_S2048x1x196_S2048x2x196_0_1_2 : (⟨S2048x1x196, .f32⟩ : BufTy).Contents (Elt F) → (⟨S2048x2x196, .f32⟩ : BufTy).Contents (Elt F)),
    StableHlo.binary main_v255 main_v258 main_v259 (Host.divf : (⟨S2048x2x196, .f32⟩ : BufTy).Contents (Elt F) → (⟨S2048x2x196, .f32⟩ : BufTy).Contents (Elt F) → (⟨S2048x2x196, .f32⟩ : BufTy).Contents (Elt F)),
    StableHlo.binary main_v259 main_arg0 main_v260 ((fun l r => Host.dotGeneral dot_S2048x2x196_S2048x196x512_S2048x2x512_2_1_1_2_0_0 none l r) : (⟨S2048x2x196, .f32⟩ : BufTy).Contents (Elt F) → (⟨S2048x196x512, .f32⟩ : BufTy).Contents (Elt F) → (⟨S2048x2x512, .f32⟩ : BufTy).Contents (Elt F)),
    StableHlo.nullary main_cst_65 (constant S_ .f32 0x00000000#32),
    StableHlo.binary main_v259 main_cst_65 main_v261 ((fun x v => Host.reduceAdd x v reducesTo_S2048x2x196_S2048x2_d2 h_S_) : (⟨S2048x2x196, .f32⟩ : BufTy).Contents (Elt F) → (⟨S_, .f32⟩ : BufTy).Contents (Elt F) → (⟨S2048x2, .f32⟩ : BufTy).Contents (Elt F)),
    StableHlo.unary main_v261 main_v262 (broadcastInDim S2048x2x1 ![0, 1] bcast_S2048x2_S2048x2x1_0_1 : (⟨S2048x2, .f32⟩ : BufTy).Contents (Elt F) → (⟨S2048x2x1, .f32⟩ : BufTy).Contents (Elt F)),
    StableHlo.unary main_v262 main_v263 (broadcastInDim S2048x2x512 ![0, 1, 2] bcast_S2048x2x1_S2048x2x512_0_1_2 : (⟨S2048x2x1, .f32⟩ : BufTy).Contents (Elt F) → (⟨S2048x2x512, .f32⟩ : BufTy).Contents (Elt F)),
    StableHlo.binary main_v260 main_v263 main_v264 (Host.divf : (⟨S2048x2x512, .f32⟩ : BufTy).Contents (Elt F) → (⟨S2048x2x512, .f32⟩ : BufTy).Contents (Elt F) → (⟨S2048x2x512, .f32⟩ : BufTy).Contents (Elt F)) ]

/-- Every operation of the stretch touches buffers of the device's own core only. -/
theorem round8b_sub : (round8b (F := F)).Forall fun op => op.bufs ⊆ tcRefs τ sig :=
  ⟨binary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., binary_bufs_sub .., unary_bufs_sub .., unary_bufs_sub .., binary_bufs_sub ..⟩

/-- Every operation of the stretch determines all that it writes. -/
theorem round8b_fresh : (round8b (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- After the round the outgoing centroids are one step of the incoming ones. -/
theorem round8_step (V : Valuation τ sig (Elt F)) :
    after round8b (after round8a V) (Proc.devRef .tc main_v264)
      = RSteps.step (V (Proc.devRef .tc main_arg0)) (V (Proc.devRef .tc main_v8)) (V (Proc.devRef .tc main_v232)) := by
  delta round8a round8b
  after_results_simp
  rfl

/-- The round does not write the points. -/
theorem round8_arg0 (V : Valuation τ sig (Elt F)) :
    after round8b (after round8a V) (Proc.devRef .tc main_arg0) = V (Proc.devRef .tc main_arg0) := by
  delta round8a round8b
  after_results_simp

/-- The round does not write the squared norms. -/
theorem round8_sqNorms (V : Valuation τ sig (Elt F)) :
    after round8b (after round8a V) (Proc.devRef .tc main_v8) = V (Proc.devRef .tc main_v8) := by
  delta round8a round8b
  after_results_simp

end Cert.ReferenceIdeal.RefRun

end
-- ==== Proof.RefRound9.lean ====
/-
  The ninth round of the reference's straight line: forty operations that read the points, their squared norms and
  the round's incoming centroids, and write, through intermediate buffers of their own, the distances of every point
  to both centroids, the two weights of every point (the softmax over the classes of minus ten times the distances)
  and the weighted means as the outgoing centroids. For any contents of the buffers before the round: the outgoing
  centroid buffer holds one whole-array step of the incoming one, and the points and the norms are not written.
  The forty operations are listed in two consecutive stretches; the contents after both are the second's fold over the first's.
-/
import proofs.«122523_j36721970381457_2_alg».proof.Proof.RSteps
import proofs.«122523_j36721970381457_2_alg».proof.Proof.RefCongr
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]
/-- Operations 1 to 27 of round 9's forty. -/
def round9a : List (HloOp τ sig (Elt F)) :=
  [ StableHlo.binary main_v264 main_v264 main_v265 (mulf : (⟨S2048x2x512, .f32⟩ : BufTy).Contents (Elt F) → (⟨S2048x2x512, .f32⟩ : BufTy).Contents (Elt F) → (⟨S2048x2x512, .f32⟩ : BufTy).Contents (Elt F)),
    StableHlo.nullary main_cst_66 (constant S_ .f32 0x00000000#32),
    StableHlo.binary main_v265 main_cst_66 main_v266 ((fun x v => Host.reduceAdd x v reducesTo_S2048x2x512_S2048x2_d2 h_S_) : (⟨S2048x2x512, .f32⟩ : BufTy).Contents (Elt F) → (⟨S_, .f32⟩ : BufTy).Contents (Elt F) → (⟨S2048x2, .f32⟩ : BufTy).Contents (Elt F)),
    StableHlo.unary main_v266 main_v267 (broadcastInDim S2048x2x1 ![0, 1] bcast_S2048x2_S2048x2x1_0_1 : (⟨S2048x2, .f32⟩ : BufTy).Contents (Elt F) → (⟨S2048x2x1, .f32⟩ : BufTy).Contents (Elt F)),
    StableHlo.binary main_v264 main_arg0 main_v268 ((fun l r => Host.dotGeneral dot_S2048x2x512_S2048x196x512_S2048x2x196_2_2_1_1_0_0 none l r) : (⟨S2048x2x512, .f32⟩ : BufTy).Contents (Elt F) → (⟨S2048x196x512, .f32⟩ : BufTy).Contents (Elt F) → (⟨S2048x2x196, .f32⟩ : BufTy).Contents (Elt F)),
    StableHlo.nullary main_cst_67 (constant S_ .f32 0x40000000#32),
    StableHlo.unary main_cst_67 main_v269 (broadcastInDim S2048x2x196 ![] bcast_S_S2048x2x196 : (⟨S_, .f32⟩ : BufTy).Contents (Elt F) → (⟨S2048x2x196, .f32⟩ : BufTy).Contents (Elt F)),
    StableHlo.binary main_v269 main_v268 main_v270 (mulf : (⟨S2048x2x196, .f32⟩ : BufTy).Contents (Elt F) → (⟨S2048x2x196, .f32⟩ : BufTy).Contents (Elt F) → (⟨S2048x2x196, .f32⟩ : BufTy).Contents (Elt F)),
    StableHlo.unary main_v267 main_v271 (broadcastInDim S2048x2x196 ![0, 1, 2] bcast_S2048x2x1_S2048x2x196_0_1_2 : (⟨S2048x2x1, .f32⟩ : BufTy).Contents (Elt F) → (⟨S2048x2x196, .f32⟩ : BufTy).Contents (Elt F)),
    StableHlo.binary main_v271 main_v270 main_v272 (subf : (⟨S2048x2x196, .f32⟩ : BufTy).Contents (Elt F) → (⟨S2048x2x196, .f32⟩ : BufTy).Contents (Elt F) → (⟨S2048x2x196, .f32⟩ : BufTy).Contents (Elt F)),
    StableHlo.unary main_v8 main_v273 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v273 main_v274 (broadcastInDim S2048x2x196 ![0, 1, 2] bcast_S2048x1x196_S2048x2x196_0_1_2 : (⟨S2048x1x196, .f32⟩ : BufTy).Contents (Elt F) → (⟨S2048x2x196, .f32⟩ : BufTy).Contents (Elt F)),
    StableHlo.binary main_v272 main_v274 main_v275 (addf : (⟨S2048x2x196, .f32⟩ : BufTy).Contents (Elt F) → (⟨S2048x2x196, .f32⟩ : BufTy).Contents (Elt F) → (⟨S2048x2x196, .f32⟩ : BufTy).Contents (Elt F)),
    StableHlo.nullary main_cst_68 (constant S_ .f32 0x2EDBE6FF#32),
    StableHlo.unary main_cst_68 main_v276 (broadcastInDim S2048x2x196 ![] bcast_S_S2048x2x196 : (⟨S_, .f32⟩ : BufTy).Contents (Elt F) → (⟨S2048x2x196, .f32⟩ : BufTy).Contents (Elt F)),
    StableHlo.binary main_v275 main_v276 main_v277 (maximumf : (⟨S2048x2x196, .f32⟩ : BufTy).Contents (Elt F) → (⟨S2048x2x196, .f32⟩ : BufTy).Contents (Elt F) → (⟨S2048x2x196, .f32⟩ : BufTy).Contents (Elt F)),
    StableHlo.unary main_v277 main_v278 (Host.sqrt : (⟨S2048x2x196, .f32⟩ : BufTy).Contents (Elt F) → (⟨S2048x2x196, .f32⟩ : BufTy).Contents (Elt F)),
    StableHlo.nullary main_cst_69 (constant S_ .f32 0xC1200000#32),
    StableHlo.unary main_cst_69 main_v279 (broadcastInDim S2048x2x196 ![] bcast_S_S2048x2x196 : (⟨S_, .f32⟩ : BufTy).Contents (Elt F) → (⟨S2048x2x196, .f32⟩ : BufTy).Contents (Elt F)),
    StableHlo.binary main_v279 main_v278 main_v280 (mulf : (⟨S2048x2x196, .f32⟩ : BufTy).Contents (Elt F) → (⟨S2048x2x196, .f32⟩ : BufTy).Contents (Elt F) → (⟨S2048x2x196, .f32⟩ : BufTy).Contents (Elt F)),
    StableHlo.nullary main_cst_70 (constant S_ .f32 0xFF800000#32),
    StableHlo.binary main_v280 main_cst_70 main_v281 ((fun x v => Host.reduce FloatOps.maximumf x v reducesTo_S2048x2x196_S2048x196_d1 h_S_) : (⟨S2048x2x196, .f32⟩ : BufTy).Contents (Elt F) → (⟨S_, .f32⟩ : BufTy).Contents (Elt F) → (⟨S2048x196, .f32⟩ : BufTy).Contents (Elt F)),
    StableHlo.nullary main_cst_71 (constant S_ .f32 0xFF800000#32),
    StableHlo.unary main_cst_71 main_v282 (broadcastInDim S2048x196 ![] bcast_S_S2048x196 : (⟨S_, .f32⟩ : BufTy).Contents (Elt F) → (⟨S2048x196, .f32⟩ : BufTy).Contents (Elt F)),
    StableHlo.binary main_v282 main_v281 main_v283 (maximumf : (⟨S2048x196, .f32⟩ : BufTy).Contents (Elt F) → (⟨S2048x196, .f32⟩ : BufTy).Contents (Elt F) → (⟨S2048x196, .f32⟩ : BufTy).Contents (Elt F)),
    StableHlo.unary main_v283 main_v284 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v284 main_v285 (broadcastInDim S2048x2x196 ![0, 1, 2] bcast_S2048x1x196_S2048x2x196_0_1_2 : (⟨S2048x1x196, .f32⟩ : BufTy).Contents (Elt F) → (⟨S2048x2x196, .f32⟩ : BufTy).Contents (Elt F)) ]

/-- Every operation of the stretch touches buffers of the device's own core only. -/
theorem round9a_sub : (round9a (F := F)).Forall fun op => op.bufs ⊆ tcRefs τ sig :=
  ⟨binary_bufs_sub .., nullary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., binary_bufs_sub .., nullary_bufs_sub .., unary_bufs_sub .., binary_bufs_sub .., unary_bufs_sub .., unary_bufs_sub ..⟩

/-- Every operation of the stretch determines all that it writes. -/
theorem round9a_fresh : (round9a (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

/-- Operations 28 to 40 of round 9's forty. -/
def round9b : List (HloOp τ sig (Elt F)) :=
  [ StableHlo.binary main_v280 main_v285 main_v286 (subf : (⟨S2048x2x196, .f32⟩ : BufTy).Contents (Elt F) → (⟨S2048x2x196, .f32⟩ : BufTy).Contents (Elt F) → (⟨S2048x2x196, .f32⟩ : BufTy).Contents (Elt F)),
    StableHlo.unary main_v286 main_v287 (Host.exp : (⟨S2048x2x196, .f32⟩ : BufTy).Contents (Elt F) → (⟨S2048x2x196, .f32⟩ : BufTy).Contents (Elt F)),
    StableHlo.nullary main_cst_72 (constant S_ .f32 0x00000000#32),
    StableHlo.binary main_v287 main_cst_72 main_v288 ((fun x v => Host.reduceAdd x v reducesTo_S2048x2x196_S2048x196_d1 h_S_) : (⟨S2048x2x196, .f32⟩ : BufTy).Contents (Elt F) → (⟨S_, .f32⟩ : BufTy).Contents (Elt F) → (⟨S2048x196, .f32⟩ : BufTy).Contents (Elt F)),
    StableHlo.unary main_v288 main_v289 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v289 main_v290 (broadcastInDim S2048x2x196 ![0, 1, 2] bcast_S2048x1x196_S2048x2x196_0_1_2 : (⟨S2048x1x196, .f32⟩ : BufTy).Contents (Elt F) → (⟨S2048x2x196, .f32⟩ : BufTy).Contents (Elt F)),
    StableHlo.binary main_v287 main_v290 main_v291 (Host.divf : (⟨S2048x2x196, .f32⟩ : BufTy).Contents (Elt F) → (⟨S2048x2x196, .f32⟩ : BufTy).Contents (Elt F) → (⟨S2048x2x196, .f32⟩ : BufTy).Contents (Elt F)),
    StableHlo.binary main_v291 main_arg0 main_v292 ((fun l r => Host.dotGeneral dot_S2048x2x196_S2048x196x512_S2048x2x512_2_1_1_2_0_0 none l r) : (⟨S2048x2x196, .f32⟩ : BufTy).Contents (Elt F) → (⟨S2048x196x512, .f32⟩ : BufTy).Contents (Elt F) → (⟨S2048x2x512, .f32⟩ : BufTy).Contents (Elt F)),
    StableHlo.nullary main_cst_73 (constant S_ .f32 0x00000000#32),
    StableHlo.binary main_v291 main_cst_73 main_v293 ((fun x v => Host.reduceAdd x v reducesTo_S2048x2x196_S2048x2_d2 h_S_) : (⟨S2048x2x196, .f32⟩ : BufTy).Contents (Elt F) → (⟨S_, .f32⟩ : BufTy).Contents (Elt F) → (⟨S2048x2, .f32⟩ : BufTy).Contents (Elt F)),
    StableHlo.unary main_v293 main_v294 (broadcastInDim S2048x2x1 ![0, 1] bcast_S2048x2_S2048x2x1_0_1 : (⟨S2048x2, .f32⟩ : BufTy).Contents (Elt F) → (⟨S2048x2x1, .f32⟩ : BufTy).Contents (Elt F)),
    StableHlo.unary main_v294 main_v295 (broadcastInDim S2048x2x512 ![0, 1, 2] bcast_S2048x2x1_S2048x2x512_0_1_2 : (⟨S2048x2x1, .f32⟩ : BufTy).Contents (Elt F) → (⟨S2048x2x512, .f32⟩ : BufTy).Contents (Elt F)),
    StableHlo.binary main_v292 main_v295 main_v296 (Host.divf : (⟨S2048x2x512, .f32⟩ : BufTy).Contents (Elt F) → (⟨S2048x2x512, .f32⟩ : BufTy).Contents (Elt F) → (⟨S2048x2x512, .f32⟩ : BufTy).Contents (Elt F)) ]

/-- Every operation of the stretch touches buffers of the device's own core only. -/
theorem round9b_sub : (round9b (F := F)).Forall fun op => op.bufs ⊆ tcRefs τ sig :=
  ⟨binary_bufs_sub .., unary_bufs_sub .., nullary_bufs_sub .., binary_bufs_sub .., unary_bufs_sub .., unary_bufs_sub .., binary_bufs_sub .., binary_bufs_sub .., nullary_bufs_sub .., binary_bufs_sub .., unary_bufs_sub .., unary_bufs_sub .., binary_bufs_sub ..⟩

/-- Every operation of the stretch determines all that it writes. -/
theorem round9b_fresh : (round9b (F := F)).Forall fun op => op.fresh = ∅ :=
  ⟨rfl, rfl, rfl, rfl, rfl, rfl, rfl, rfl, rfl, rfl, rfl, rfl, rfl⟩

/-- After the round the outgoing centroids are one step of the incoming ones. -/
theorem round9_step (V : Valuation τ sig (Elt F)) :
    after round9b (after round9a V) (Proc.devRef .tc main_v296)
      = RSteps.step (V (Proc.devRef .tc main_arg0)) (V (Proc.devRef .tc main_v8)) (V (Proc.devRef .tc main_v264)) := by
  delta round9a round9b
  after_results_simp
  rfl

/-- The round does not write the points. -/
theorem round9_arg0 (V : Valuation τ sig (Elt F)) :
    after round9b (after round9a V) (Proc.devRef .tc main_arg0) = V (Proc.devRef .tc main_arg0) := by
  delta round9a round9b
  after_results_simp

/-- The round does not write the squared norms. -/
theorem round9_sqNorms (V : Valuation τ sig (Elt F)) :
    after round9b (after round9a V) (Proc.devRef .tc main_v8) = V (Proc.devRef .tc main_v8) := by
  delta round9a round9b
  after_results_simp

end Cert.ReferenceIdeal.RefRun

end
-- ==== Proof.RefRound10.lean ====
/-
  The tenth round of the reference's straight line: forty operations that read the points, their squared norms and
  the round's incoming centroids, and write, through intermediate buffers of their own, the distances of every point
  to both centroids, the two weights of every point (the softmax over the classes of minus ten times the distances)
  and the weighted means as the outgoing centroids. For any contents of the buffers before the round: the outgoing
  centroid buffer holds one whole-array step of the incoming one, and the points and the norms are not written.
-/
import proofs.«122523_j36721970381457_2_alg».proof.Proof.RSteps
import proofs.«122523_j36721970381457_2_alg».proof.Proof.RefCongr
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]
/-- The forty operations of round 10. -/
def round10 : List (HloOp τ sig (Elt F)) :=
  [ StableHlo.binary main_v296 main_v296 main_v297 (mulf : (⟨S2048x2x512, .f32⟩ : BufTy).Contents (Elt F) → (⟨S2048x2x512, .f32⟩ : BufTy).Contents (Elt F) → (⟨S2048x2x512, .f32⟩ : BufTy).Contents (Elt F)),
    StableHlo.nullary main_cst_74 (constant S_ .f32 0x00000000#32),
    StableHlo.binary main_v297 main_cst_74 main_v298 ((fun x v => Host.reduceAdd x v reducesTo_S2048x2x512_S2048x2_d2 h_S_) : (⟨S2048x2x512, .f32⟩ : BufTy).Contents (Elt F) → (⟨S_, .f32⟩ : BufTy).Contents (Elt F) → (⟨S2048x2, .f32⟩ : BufTy).Contents (Elt F)),
    StableHlo.unary main_v298 main_v299 (broadcastInDim S2048x2x1 ![0, 1] bcast_S2048x2_S2048x2x1_0_1 : (⟨S2048x2, .f32⟩ : BufTy).Contents (Elt F) → (⟨S2048x2x1, .f32⟩ : BufTy).Contents (Elt F)),
    StableHlo.binary main_v296 main_arg0 main_v300 ((fun l r => Host.dotGeneral dot_S2048x2x512_S2048x196x512_S2048x2x196_2_2_1_1_0_0 none l r) : (⟨S2048x2x512, .f32⟩ : BufTy).Contents (Elt F) → (⟨S2048x196x512, .f32⟩ : BufTy).Contents (Elt F) → (⟨S2048x2x196, .f32⟩ : BufTy).Contents (Elt F)),
    StableHlo.nullary main_cst_75 (constant S_ .f32 0x40000000#32),
    StableHlo.unary main_cst_75 main_v301 (broadcastInDim S2048x2x196 ![] bcast_S_S2048x2x196 : (⟨S_, .f32⟩ : BufTy).Contents (Elt F) → (⟨S2048x2x196, .f32⟩ : BufTy).Contents (Elt F)),
    StableHlo.binary main_v301 main_v300 main_v302 (mulf : (⟨S2048x2x196, .f32⟩ : BufTy).Contents (Elt F) → (⟨S2048x2x196, .f32⟩ : BufTy).Contents (Elt F) → (⟨S2048x2x196, .f32⟩ : BufTy).Contents (Elt F)),
    StableHlo.unary main_v299 main_v303 (broadcastInDim S2048x2x196 ![0, 1, 2] bcast_S2048x2x1_S2048x2x196_0_1_2 : (⟨S2048x2x1, .f32⟩ : BufTy).Contents (Elt F) → (⟨S2048x2x196, .f32⟩ : BufTy).Contents (Elt F)),
    StableHlo.binary main_v303 main_v302 main_v304 (subf : (⟨S2048x2x196, .f32⟩ : BufTy).Contents (Elt F) → (⟨S2048x2x196, .f32⟩ : BufTy).Contents (Elt F) → (⟨S2048x2x196, .f32⟩ : BufTy).Contents (Elt F)),
    StableHlo.unary main_v8 main_v305 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v305 main_v306 (broadcastInDim S2048x2x196 ![0, 1, 2] bcast_S2048x1x196_S2048x2x196_0_1_2 : (⟨S2048x1x196, .f32⟩ : BufTy).Contents (Elt F) → (⟨S2048x2x196, .f32⟩ : BufTy).Contents (Elt F)),
    StableHlo.binary main_v304 main_v306 main_v307 (addf : (⟨S2048x2x196, .f32⟩ : BufTy).Contents (Elt F) → (⟨S2048x2x196, .f32⟩ : BufTy).Contents (Elt F) → (⟨S2048x2x196, .f32⟩ : BufTy).Contents (Elt F)),
    StableHlo.nullary main_cst_76 (constant S_ .f32 0x2EDBE6FF#32),
    StableHlo.unary main_cst_76 main_v308 (broadcastInDim S2048x2x196 ![] bcast_S_S2048x2x196 : (⟨S_, .f32⟩ : BufTy).Contents (Elt F) → (⟨S2048x2x196, .f32⟩ : BufTy).Contents (Elt F)),
    StableHlo.binary main_v307 main_v308 main_v309 (maximumf : (⟨S2048x2x196, .f32⟩ : BufTy).Contents (Elt F) → (⟨S2048x2x196, .f32⟩ : BufTy).Contents (Elt F) → (⟨S2048x2x196, .f32⟩ : BufTy).Contents (Elt F)),
    StableHlo.unary main_v309 main_v310 (Host.sqrt : (⟨S2048x2x196, .f32⟩ : BufTy).Contents (Elt F) → (⟨S2048x2x196, .f32⟩ : BufTy).Contents (Elt F)),
    StableHlo.nullary main_cst_77 (constant S_ .f32 0xC1200000#32),
    StableHlo.unary main_cst_77 main_v311 (broadcastInDim S2048x2x196 ![] bcast_S_S2048x2x196 : (⟨S_, .f32⟩ : BufTy).Contents (Elt F) → (⟨S2048x2x196, .f32⟩ : BufTy).Contents (Elt F)),
    StableHlo.binary main_v311 main_v310 main_v312 (mulf : (⟨S2048x2x196, .f32⟩ : BufTy).Contents (Elt F) → (⟨S2048x2x196, .f32⟩ : BufTy).Contents (Elt F) → (⟨S2048x2x196, .f32⟩ : BufTy).Contents (Elt F)),
    StableHlo.nullary main_cst_78 (constant S_ .f32 0xFF800000#32),
    StableHlo.binary main_v312 main_cst_78 main_v313 ((fun x v => Host.reduce FloatOps.maximumf x v reducesTo_S2048x2x196_S2048x196_d1 h_S_) : (⟨S2048x2x196, .f32⟩ : BufTy).Contents (Elt F) → (⟨S_, .f32⟩ : BufTy).Contents (Elt F) → (⟨S2048x196, .f32⟩ : BufTy).Contents (Elt F)),
    StableHlo.nullary main_cst_79 (constant S_ .f32 0xFF800000#32),
    StableHlo.unary main_cst_79 main_v314 (broadcastInDim S2048x196 ![] bcast_S_S2048x196 : (⟨S_, .f32⟩ : BufTy).Contents (Elt F) → (⟨S2048x196, .f32⟩ : BufTy).Contents (Elt F)),
    StableHlo.binary main_v314 main_v313 main_v315 (maximumf : (⟨S2048x196, .f32⟩ : BufTy).Contents (Elt F) → (⟨S2048x196, .f32⟩ : BufTy).Contents (Elt F) → (⟨S2048x196, .f32⟩ : BufTy).Contents (Elt F)),
    StableHlo.unary main_v315 main_v316 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v316 main_v317 (broadcastInDim S2048x2x196 ![0, 1, 2] bcast_S2048x1x196_S2048x2x196_0_1_2 : (⟨S2048x1x196, .f32⟩ : BufTy).Contents (Elt F) → (⟨S2048x2x196, .f32⟩ : BufTy).Contents (Elt F)),
    StableHlo.binary main_v312 main_v317 main_v318 (subf : (⟨S2048x2x196, .f32⟩ : BufTy).Contents (Elt F) → (⟨S2048x2x196, .f32⟩ : BufTy).Contents (Elt F) → (⟨S2048x2x196, .f32⟩ : BufTy).Contents (Elt F)),
    StableHlo.unary main_v318 main_v319 (Host.exp : (⟨S2048x2x196, .f32⟩ : BufTy).Contents (Elt F) → (⟨S2048x2x196, .f32⟩ : BufTy).Contents (Elt F)),
    StableHlo.nullary main_cst_80 (constant S_ .f32 0x00000000#32),
    StableHlo.binary main_v319 main_cst_80 main_v320 ((fun x v => Host.reduceAdd x v reducesTo_S2048x2x196_S2048x196_d1 h_S_) : (⟨S2048x2x196, .f32⟩ : BufTy).Contents (Elt F) → (⟨S_, .f32⟩ : BufTy).Contents (Elt F) → (⟨S2048x196, .f32⟩ : BufTy).Contents (Elt F)),
    StableHlo.unary main_v320 main_v321 (broadcastInDim S2048x1x196 ![0, 2] bcast_S2048x196_S2048x1x196_0_2 : (⟨S2048x196, .f32⟩ : BufTy).Contents (Elt F) → (⟨S2048x1x196, .f32⟩ : BufTy).Contents (Elt F)),
    StableHlo.unary main_v321 main_v322 (broadcastInDim S2048x2x196 ![0, 1, 2] bcast_S2048x1x196_S2048x2x196_0_1_2 : (⟨S2048x1x196, .f32⟩ : BufTy).Contents (Elt F) → (⟨S2048x2x196, .f32⟩ : BufTy).Contents (Elt F)),
    StableHlo.binary main_v319 main_v322 main_v323 (Host.divf : (⟨S2048x2x196, .f32⟩ : BufTy).Contents (Elt F) → (⟨S2048x2x196, .f32⟩ : BufTy).Contents (Elt F) → (⟨S2048x2x196, .f32⟩ : BufTy).Contents (Elt F)),
    StableHlo.binary main_v323 main_arg0 main_v324 ((fun l r => Host.dotGeneral dot_S2048x2x196_S2048x196x512_S2048x2x512_2_1_1_2_0_0 none l r) : (⟨S2048x2x196, .f32⟩ : BufTy).Contents (Elt F) → (⟨S2048x196x512, .f32⟩ : BufTy).Contents (Elt F) → (⟨S2048x2x512, .f32⟩ : BufTy).Contents (Elt F)),
    StableHlo.nullary main_cst_81 (constant S_ .f32 0x00000000#32),
    StableHlo.binary main_v323 main_cst_81 main_v325 ((fun x v => Host.reduceAdd x v reducesTo_S2048x2x196_S2048x2_d2 h_S_) : (⟨S2048x2x196, .f32⟩ : BufTy).Contents (Elt F) → (⟨S_, .f32⟩ : BufTy).Contents (Elt F) → (⟨S2048x2, .f32⟩ : BufTy).Contents (Elt F)),
    StableHlo.unary main_v325 main_v326 (broadcastInDim S2048x2x1 ![0, 1] bcast_S2048x2_S2048x2x1_0_1 : (⟨S2048x2, .f32⟩ : BufTy).Contents (Elt F) → (⟨S2048x2x1, .f32⟩ : BufTy).Contents (Elt F)),
    StableHlo.unary main_v326 main_v327 (broadcastInDim S2048x2x512 ![0, 1, 2] bcast_S2048x2x1_S2048x2x512_0_1_2 : (⟨S2048x2x1, .f32⟩ : BufTy).Contents (Elt F) → (⟨S2048x2x512, .f32⟩ : BufTy).Contents (Elt F)),
    StableHlo.binary main_v324 main_v327 main_v328 (Host.divf : (⟨S2048x2x512, .f32⟩ : BufTy).Contents (Elt F) → (⟨S2048x2x512, .f32⟩ : BufTy).Contents (Elt F) → (⟨S2048x2x512, .f32⟩ : BufTy).Contents (Elt F)) ]

/-- Every operation of the stretch touches buffers of the device's own core only. -/
theorem round10_sub : (round10 (F := F)).Forall fun op => op.bufs ⊆ tcRefs τ sig :=
  ⟨binary_bufs_sub .., nullary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., binary_bufs_sub .., unary_bufs_sub .., unary_bufs_sub .., binary_bufs_sub ..⟩

/-- Every operation of the stretch determines all that it writes. -/
theorem round10_fresh : (round10 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- After the round the outgoing centroids are one step of the incoming ones. -/
theorem round10_step (V : Valuation τ sig (Elt F)) :
    after round10 V (Proc.devRef .tc main_v328)
      = RSteps.step (V (Proc.devRef .tc main_arg0)) (V (Proc.devRef .tc main_v8)) (V (Proc.devRef .tc main_v296)) := by
  delta round10
  after_results_simp
  rfl

/-- After the last round the weight buffer holds the weights formed from the incoming centroids. -/
theorem round10_assign (V : Valuation τ sig (Elt F)) :
    after round10 V (Proc.devRef .tc main_v323)
      = RSteps.assign (RSteps.dist (V (Proc.devRef .tc main_arg0)) (V (Proc.devRef .tc main_v8)) (V (Proc.devRef .tc main_v296))) := by
  delta round10
  after_results_simp
  rfl

/-- The round does not write the points. -/
theorem round10_arg0 (V : Valuation τ sig (Elt F)) :
    after round10 V (Proc.devRef .tc main_arg0) = V (Proc.devRef .tc main_arg0) := by
  delta round10
  after_results_simp

/-- The round does not write the squared norms. -/
theorem round10_sqNorms (V : Valuation τ sig (Elt F)) :
    after round10 V (Proc.devRef .tc main_v8) = V (Proc.devRef .tc main_v8) := by
  delta round10
  after_results_simp

end Cert.ReferenceIdeal.RefRun

end
-- ==== Proof.RefMain.lean ====
/-
  The reference's whole straight line as one list of operations: the start, then the ten rounds, cut where the
  program is cut into its seven windows. Each window is the line of its own stretches, by unfolding; a line
  followed by a line is the line of the concatenation; so the whole program is the line of the whole list. Every
  operation of the list touches only buffers of the device's own core and determines all that it writes (both hold
  stretch by stretch, and pass to concatenations), and the program's signature scopes no buffer and no semaphore:
  what the run theorem for straight lines asks.
-/
import proofs.«122523_j36721970381457_2_alg».proof.Proof.RefPrologue
import proofs.«122523_j36721970381457_2_alg».proof.Proof.RefRound1
import proofs.«122523_j36721970381457_2_alg».proof.Proof.RefRound2
import proofs.«122523_j36721970381457_2_alg».proof.Proof.RefRound3
import proofs.«122523_j36721970381457_2_alg».proof.Proof.RefRound4
import proofs.«122523_j36721970381457_2_alg».proof.Proof.RefRound5
import proofs.«122523_j36721970381457_2_alg».proof.Proof.RefRound6
import proofs.«122523_j36721970381457_2_alg».proof.Proof.RefRound7
import proofs.«122523_j36721970381457_2_alg».proof.Proof.RefRound8
import proofs.«122523_j36721970381457_2_alg».proof.Proof.RefRound9
import proofs.«122523_j36721970381457_2_alg».proof.Proof.RefRound10
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]
/-- A property of every element of two lists holds of every element of their concatenation. -/
theorem forall_app {α : Type} {p : α → Prop} {l₁ l₂ : List α} (h₁ : l₁.Forall p) (h₂ : l₂.Forall p) :
    (l₁ ++ l₂).Forall p := List.forall_append.2 ⟨h₁, h₂⟩

/-- The operations of the program's window 0, as its stretches in order. -/
abbrev part0 : List (HloOp τ sig (Elt F)) := prologue ++ (round1 ++ (round2a))

/-- The operations of the program's window 1, as its stretches in order. -/
abbrev part1 : List (HloOp τ sig (Elt F)) := round2b ++ (round3a)

/-- The operations of the program's window 2, as its stretches in order. -/
abbrev part2 : List (HloOp τ sig (Elt F)) := round3b ++ (round4 ++ (round5a))

/-- The operations of the program's window 3, as its stretches in order. -/
abbrev part3 : List (HloOp τ sig (Elt F)) := round5b ++ (round6a)

/-- The operations of the program's window 4, as its stretches in order. -/
abbrev part4 : List (HloOp τ sig (Elt F)) := round6b ++ (round7 ++ (round8a))

/-- The operations of the program's window 5, as its stretches in order. -/
abbrev part5 : List (HloOp τ sig (Elt F)) := round8b ++ (round9a)

/-- The operations of the program's window 6, as its stretches in order. -/
abbrev part6 : List (HloOp τ sig (Elt F)) := round9b ++ (round10)

theorem part0_eq (c : Dev nD) : main_part0 (F := F) c = seq part0 := rfl
theorem part1_eq (c : Dev nD) : main_part1 (F := F) c = seq part1 := rfl
theorem part2_eq (c : Dev nD) : main_part2 (F := F) c = seq part2 := rfl
theorem part3_eq (c : Dev nD) : main_part3 (F := F) c = seq part3 := rfl
theorem part4_eq (c : Dev nD) : main_part4 (F := F) c = seq part4 := rfl
theorem part5_eq (c : Dev nD) : main_part5 (F := F) c = seq part5 := rfl
theorem part6_eq (c : Dev nD) : main_part6 (F := F) c = seq part6 := rfl

/-- @main's 413 operations, in order. -/
abbrev ops : List (HloOp τ sig (Elt F)) := part0 ++ (part1 ++ (part2 ++ (part3 ++ (part4 ++ (part5 ++ (part6))))))

/-- The program is the line of its operations: window by window, then by concatenation. -/
theorem main_eq (c : Dev nD) : main (F := F) c = seq ops := by
  rw [show main (F := F) c = (main_part0 c >>= fun _ => main_part1 c >>= fun _ => main_part2 c >>= fun _ =>
        main_part3 c >>= fun _ => main_part4 c >>= fun _ => main_part5 c >>= fun _ => main_part6 c) from rfl,
    part0_eq, part1_eq, part2_eq, part3_eq, part4_eq, part5_eq, part6_eq,
    ← seq_append, ← seq_append, ← seq_append, ← seq_append, ← seq_append, ← seq_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_app (forall_app prologue_sub (forall_app round1_sub (round2a_sub))) (forall_app (forall_app round2b_sub (round3a_sub)) (forall_app (forall_app round3b_sub (forall_app round4_sub (round5a_sub))) (forall_app (forall_app round5b_sub (round6a_sub)) (forall_app (forall_app round6b_sub (forall_app round7_sub (round8a_sub))) (forall_app (forall_app round8b_sub (round9a_sub)) ((forall_app round9b_sub (round10_sub))))))))

theorem ops_fresh : ∀ op ∈ (ops : List (HloOp τ sig (Elt F))), op.fresh = ∅ :=
  List.forall_iff_forall_mem.1
    (forall_app (forall_app prologue_fresh (forall_app round1_fresh (round2a_fresh))) (forall_app (forall_app round2b_fresh (round3a_fresh)) (forall_app (forall_app round3b_fresh (forall_app round4_fresh (round5a_fresh))) (forall_app (forall_app round5b_fresh (round6a_fresh)) (forall_app (forall_app round6b_fresh (forall_app round7_fresh (round8a_fresh))) (forall_app (forall_app round8b_fresh (round9a_fresh)) (forall_app round9b_fresh (round10_fresh))))))))

end Cert.ReferenceIdeal.RefRun

end
-- ==== Proof.LibHostFold.lean ====
/-
  Folding a straight line of host operations in two parts, and the transports its inlined calls carry.

  The buffers' contents after a list of host operations is a left fold of the operations' results over the contents at
  the start; so the fold of a concatenation is the fold of its second part over the fold of its first (after_append), and
  a long program can be read in stretches with the contents in between kept as one term.

  The operations of a function inlined at its call site carry each operand through a transport along the equation
  between its buffer's declared type and the value's type: to the buffer's type when written, back when read. A value
  carried there and back is the value (ofBuf_toBuf); and, the two types being one, a single transport of a value is that
  value, stated through heterogeneous equality so that the equation is found by the types' computation at the use site
  (ofBuf_eq, toBuf_eq: give `HEq.rfl`, or `heq_of_eq` of an equation between the two sides read at one type). Removing
  the transports by these lemmas, syntactically, before two composed terms are compared keeps the comparison from
  computing through the transports.
-/
import Idealize.ShloMosaic.Lib.StableHlo.Run

namespace Cert.HostFold

open Idealize.ShloMosaic Idealize.ShloMosaic.StableHlo

variable {τ : Topo} {sig : RefSig} {Val : EltTy → Type}

/-- Folding a concatenation is folding its second part over the fold of its first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A value carried to its buffer's type and back is the value. -/
theorem ofBuf_toBuf {T : BufTy} (x : TRef sig T) (v : T.Contents Val) : x.ofBuf (x.toBuf v) = v := by
  obtain ⟨r, hty, h2, h3⟩ := x
  subst hty
  rfl

/-- Contents read at the value's type are the contents, when the two are one term up to the types' equation. -/
theorem ofBuf_eq {T : BufTy} (x : TRef sig T) (v : x.ref.ty.Contents Val) (w : T.Contents Val) (h : HEq v w) :
    x.ofBuf v = w := by
  obtain ⟨r, hty, h2, h3⟩ := x
  subst hty
  exact eq_of_heq h

/-- A value carried to its buffer's type is the value, likewise. -/
theorem toBuf_eq {T : BufTy} (x : TRef sig T) (v : T.Contents Val) (w : x.ref.ty.Contents Val) (h : HEq v w) :
    x.toBuf v = w := by
  obtain ⟨r, hty, h2, h3⟩ := x
  subst hty
  exact eq_of_heq h

end Cert.HostFold
-- ==== Proof.RefRun.lean ====
/-
  The reference's run. The contents of the buffers after the whole list of operations are read one stretch at a time:
  the fold over a concatenation is the fold of the second part over the fold of the first, so after the start the
  centroid buffer holds the initial centroids and the norm buffer the squared norms, and after each round the next
  centroid buffer holds one more whole-array step, the points and the norms never written. Ten steps fold into the
  tenfold iterate, which is the centroid result; the weights of the tenth round, formed from the ninefold iterate,
  are the weight result. The run theorem for straight lines then gives: every weakly fair execution of the program
  from zero counters terminates with the two result buffers at these values of the launch contents of the points,
  and the points unchanged.
-/
import proofs.«122523_j36721970381457_2_alg».proof.Proof.RefMain
import proofs.«122523_j36721970381457_2_alg».proof.Proof.LibHostFold
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts Cert.HostFold

variable {F : FTy → Type} [FloatOps F]
/-- One more step outside an iterate is the next iterate. -/
theorem iter_succ {α : Type} (f : α → α) (n : ℕ) (x : α) : f (f^[n] x) = f^[n + 1] x :=
  (Function.iterate_succ_apply' f n x).symm

/-- The contents after the whole list, stretch by stretch. -/
theorem after_ops (V : Valuation τ sig (Elt F)) :
    after ops V = after round10 (after round9b (after round9a (after round8b (after round8a (after round7 (after round6b (after round6a (after round5b (after round5a (after round4 (after round3b (after round3a (after round2b (after round2a (after round1 (after prologue V)))))))))))))))) := by
  simp only [after_append]

/-- For any contents at the start: after the whole list the last centroid buffer holds ten steps from the initial
    centroids, the last weight buffer the weights formed from nine steps, and the points are as they were. -/
theorem after_all (V : Valuation τ sig (Elt F)) :
    after ops V (Proc.devRef .tc main_v328) = RSteps.resultO (V (Proc.devRef .tc main_arg0))
    ∧ after ops V (Proc.devRef .tc main_v323) = RSteps.resultC (V (Proc.devRef .tc main_arg0))
    ∧ after ops V (Proc.devRef .tc main_arg0) = V (Proc.devRef .tc main_arg0) := by
  rw [after_ops]
  generalize hV1 : after prologue V = V1
  have a1 : V1 (Proc.devRef .tc main_arg0) = V (Proc.devRef .tc main_arg0) := by rw [← hV1]; exact prologue_arg0 V
  have n1 : V1 (Proc.devRef .tc main_v8) = RSteps.sqNorms (V (Proc.devRef .tc main_arg0)) := by rw [← hV1]; exact prologue_sqNorms V
  have o1 : V1 (Proc.devRef .tc main_v6)
      = (RSteps.step (V (Proc.devRef .tc main_arg0)) (RSteps.sqNorms (V (Proc.devRef .tc main_arg0))))^[0] (RSteps.init (V (Proc.devRef .tc main_arg0))) := by
    rw [← hV1]; exact prologue_init V
  clear hV1
  generalize hV2 : after round1 V1 = V2
  have a2 : V2 (Proc.devRef .tc main_arg0) = V (Proc.devRef .tc main_arg0) := by rw [← hV2, round1_arg0, a1]
  have n2 : V2 (Proc.devRef .tc main_v8) = RSteps.sqNorms (V (Proc.devRef .tc main_arg0)) := by rw [← hV2, round1_sqNorms, n1]
  have o2 : V2 (Proc.devRef .tc main_v40)
      = (RSteps.step (V (Proc.devRef .tc main_arg0)) (RSteps.sqNorms (V (Proc.devRef .tc main_arg0))))^[1] (RSteps.init (V (Proc.devRef .tc main_arg0))) := by
    rw [← hV2, round1_step, a1, n1, o1]
    exact iter_succ (RSteps.step (V (Proc.devRef .tc main_arg0)) (RSteps.sqNorms (V (Proc.devRef .tc main_arg0)))) 0 _
  clear hV2 a1 n1 o1
  generalize hV3 : after round2b (after round2a V2) = V3
  have a3 : V3 (Proc.devRef .tc main_arg0) = V (Proc.devRef .tc main_arg0) := by rw [← hV3, round2_arg0, a2]
  have n3 : V3 (Proc.devRef .tc main_v8) = RSteps.sqNorms (V (Proc.devRef .tc main_arg0)) := by rw [← hV3, round2_sqNorms, n2]
  have o3 : V3 (Proc.devRef .tc main_v72)
      = (RSteps.step (V (Proc.devRef .tc main_arg0)) (RSteps.sqNorms (V (Proc.devRef .tc main_arg0))))^[2] (RSteps.init (V (Proc.devRef .tc main_arg0))) := by
    rw [← hV3, round2_step, a2, n2, o2]
    exact iter_succ (RSteps.step (V (Proc.devRef .tc main_arg0)) (RSteps.sqNorms (V (Proc.devRef .tc main_arg0)))) 1 _
  clear hV3 a2 n2 o2
  generalize hV4 : after round3b (after round3a V3) = V4
  have a4 : V4 (Proc.devRef .tc main_arg0) = V (Proc.devRef .tc main_arg0) := by rw [← hV4, round3_arg0, a3]
  have n4 : V4 (Proc.devRef .tc main_v8) = RSteps.sqNorms (V (Proc.devRef .tc main_arg0)) := by rw [← hV4, round3_sqNorms, n3]
  have o4 : V4 (Proc.devRef .tc main_v104)
      = (RSteps.step (V (Proc.devRef .tc main_arg0)) (RSteps.sqNorms (V (Proc.devRef .tc main_arg0))))^[3] (RSteps.init (V (Proc.devRef .tc main_arg0))) := by
    rw [← hV4, round3_step, a3, n3, o3]
    exact iter_succ (RSteps.step (V (Proc.devRef .tc main_arg0)) (RSteps.sqNorms (V (Proc.devRef .tc main_arg0)))) 2 _
  clear hV4 a3 n3 o3
  generalize hV5 : after round4 V4 = V5
  have a5 : V5 (Proc.devRef .tc main_arg0) = V (Proc.devRef .tc main_arg0) := by rw [← hV5, round4_arg0, a4]
  have n5 : V5 (Proc.devRef .tc main_v8) = RSteps.sqNorms (V (Proc.devRef .tc main_arg0)) := by rw [← hV5, round4_sqNorms, n4]
  have o5 : V5 (Proc.devRef .tc main_v136)
      = (RSteps.step (V (Proc.devRef .tc main_arg0)) (RSteps.sqNorms (V (Proc.devRef .tc main_arg0))))^[4] (RSteps.init (V (Proc.devRef .tc main_arg0))) := by
    rw [← hV5, round4_step, a4, n4, o4]
    exact iter_succ (RSteps.step (V (Proc.devRef .tc main_arg0)) (RSteps.sqNorms (V (Proc.devRef .tc main_arg0)))) 3 _
  clear hV5 a4 n4 o4
  generalize hV6 : after round5b (after round5a V5) = V6
  have a6 : V6 (Proc.devRef .tc main_arg0) = V (Proc.devRef .tc main_arg0) := by rw [← hV6, round5_arg0, a5]
  have n6 : V6 (Proc.devRef .tc main_v8) = RSteps.sqNorms (V (Proc.devRef .tc main_arg0)) := by rw [← hV6, round5_sqNorms, n5]
  have o6 : V6 (Proc.devRef .tc main_v168)
      = (RSteps.step (V (Proc.devRef .tc main_arg0)) (RSteps.sqNorms (V (Proc.devRef .tc main_arg0))))^[5] (RSteps.init (V (Proc.devRef .tc main_arg0))) := by
    rw [← hV6, round5_step, a5, n5, o5]
    exact iter_succ (RSteps.step (V (Proc.devRef .tc main_arg0)) (RSteps.sqNorms (V (Proc.devRef .tc main_arg0)))) 4 _
  clear hV6 a5 n5 o5
  generalize hV7 : after round6b (after round6a V6) = V7
  have a7 : V7 (Proc.devRef .tc main_arg0) = V (Proc.devRef .tc main_arg0) := by rw [← hV7, round6_arg0, a6]
  have n7 : V7 (Proc.devRef .tc main_v8) = RSteps.sqNorms (V (Proc.devRef .tc main_arg0)) := by rw [← hV7, round6_sqNorms, n6]
  have o7 : V7 (Proc.devRef .tc main_v200)
      = (RSteps.step (V (Proc.devRef .tc main_arg0)) (RSteps.sqNorms (V (Proc.devRef .tc main_arg0))))^[6] (RSteps.init (V (Proc.devRef .tc main_arg0))) := by
    rw [← hV7, round6_step, a6, n6, o6]
    exact iter_succ (RSteps.step (V (Proc.devRef .tc main_arg0)) (RSteps.sqNorms (V (Proc.devRef .tc main_arg0)))) 5 _
  clear hV7 a6 n6 o6
  generalize hV8 : after round7 V7 = V8
  have a8 : V8 (Proc.devRef .tc main_arg0) = V (Proc.devRef .tc main_arg0) := by rw [← hV8, round7_arg0, a7]
  have n8 : V8 (Proc.devRef .tc main_v8) = RSteps.sqNorms (V (Proc.devRef .tc main_arg0)) := by rw [← hV8, round7_sqNorms, n7]
  have o8 : V8 (Proc.devRef .tc main_v232)
      = (RSteps.step (V (Proc.devRef .tc main_arg0)) (RSteps.sqNorms (V (Proc.devRef .tc main_arg0))))^[7] (RSteps.init (V (Proc.devRef .tc main_arg0))) := by
    rw [← hV8, round7_step, a7, n7, o7]
    exact iter_succ (RSteps.step (V (Proc.devRef .tc main_arg0)) (RSteps.sqNorms (V (Proc.devRef .tc main_arg0)))) 6 _
  clear hV8 a7 n7 o7
  generalize hV9 : after round8b (after round8a V8) = V9
  have a9 : V9 (Proc.devRef .tc main_arg0) = V (Proc.devRef .tc main_arg0) := by rw [← hV9, round8_arg0, a8]
  have n9 : V9 (Proc.devRef .tc main_v8) = RSteps.sqNorms (V (Proc.devRef .tc main_arg0)) := by rw [← hV9, round8_sqNorms, n8]
  have o9 : V9 (Proc.devRef .tc main_v264)
      = (RSteps.step (V (Proc.devRef .tc main_arg0)) (RSteps.sqNorms (V (Proc.devRef .tc main_arg0))))^[8] (RSteps.init (V (Proc.devRef .tc main_arg0))) := by
    rw [← hV9, round8_step, a8, n8, o8]
    exact iter_succ (RSteps.step (V (Proc.devRef .tc main_arg0)) (RSteps.sqNorms (V (Proc.devRef .tc main_arg0)))) 7 _
  clear hV9 a8 n8 o8
  generalize hV10 : after round9b (after round9a V9) = V10
  have a10 : V10 (Proc.devRef .tc main_arg0) = V (Proc.devRef .tc main_arg0) := by rw [← hV10, round9_arg0, a9]
  have n10 : V10 (Proc.devRef .tc main_v8) = RSteps.sqNorms (V (Proc.devRef .tc main_arg0)) := by rw [← hV10, round9_sqNorms, n9]
  have o10 : V10 (Proc.devRef .tc main_v296)
      = (RSteps.step (V (Proc.devRef .tc main_arg0)) (RSteps.sqNorms (V (Proc.devRef .tc main_arg0))))^[9] (RSteps.init (V (Proc.devRef .tc main_arg0))) := by
    rw [← hV10, round9_step, a9, n9, o9]
    exact iter_succ (RSteps.step (V (Proc.devRef .tc main_arg0)) (RSteps.sqNorms (V (Proc.devRef .tc main_arg0)))) 8 _
  clear hV10 a9 n9 o9
  refine ⟨?_, ?_, ?_⟩
  · rw [round10_step, a10, n10, o10]
    exact iter_succ (RSteps.step (V (Proc.devRef .tc main_arg0)) (RSteps.sqNorms (V (Proc.devRef .tc main_arg0)))) 9 _
  · rw [round10_assign, a10, n10, o10]; rfl
  · rw [round10_arg0, a10]

/-- On the one device, for any float values, from any memory with zero counters: every weakly fair execution of the
    reference terminates with the centroid result at ten whole-array steps from rows 50 and 98 of the points, the
    weight result at the weights of the tenth round, and the points unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v328) = RSteps.resultO (m ((c.tc : Thread nD τ).loc main_arg0))
      ∧ r.2.mem ((c.tc : Thread nD τ).loc main_v323) = RSteps.resultC (m ((c.tc : Thread nD τ).loc main_arg0))
      ∧ r.2.mem ((c.tc : Thread nD τ).loc main_arg0) = m ((c.tc : Thread nD τ).loc main_arg0) :=
  (θ_run defs _ _).mono (fun _ h c => ⟨(h c main_v328).trans (after_all _).1,
      (h c main_v323).trans (after_all _).2.1,
      (h c main_arg0).trans (after_all _).2.2⟩)
    (run_seq scopedRefs_eq scopedSems_eq defs main (fun _ => ops) main_eq (fun _ => ops_sub) m ρ (fun _ => ops_fresh))

end Cert.ReferenceIdeal.RefRun

end
-- ==== Proof.RReadDefs.lean ====
/-
  One batch element of each whole-batch array of the reference, as functions of coordinates: the points, the two
  centroids, the two rows of weights (or distances) and the squared norms of batch element `B`; and the three float
  constants of a round as extended reals.
-/
import proofs.«122523_j36721970381457_2_alg».proof.Proof.RSteps
import proofs.«122523_j36721970381457_2_alg».proof.Proof.Spec
import Idealize.ShloMosaic.Lib.ValueIdx

noncomputable section

namespace Cert.ReferenceIdeal.RRead

open Idealize.ShloMosaic ValueIdx Cert.ReferenceIdeal

/-- The points of batch element `B`: point `n`, feature `d`. -/
def pts (x : RSteps.Arr Ideal S2048x196x512) (B : Fin 2048) : Fin 196 → Fin 512 → EReal := fun n d => x (ix3 B n d)

/-- The two centroids of batch element `B`: centroid `k`, feature `d`. -/
def cen (o : RSteps.Arr Ideal S2048x2x512) (B : Fin 2048) : Fin 2 → Fin 512 → EReal := fun k d => o (ix3 B k d)

/-- The per-class, per-point values (distances, logits or weights) of batch element `B`: class `k`, point `n`. -/
def wts (c : RSteps.Arr Ideal S2048x2x196) (B : Fin 2048) : Fin 2 → Fin 196 → EReal := fun k n => c (ix3 B k n)

/-- The per-point values (squared norms) of batch element `B`. -/
def nrm (ny : RSteps.Arr Ideal S2048x196) (B : Fin 2048) : Fin 196 → EReal := fun n => ny (ix2 B n)

/-- The factor of the inner product in the squared distance, `2`. -/
abbrev TWO : EReal := Ideal.ofBits .f32 0x40000000#32
/-- The floor under the squared distance before the square root. -/
abbrev EPS : EReal := Ideal.ofBits .f32 0x2EDBE6FF#32
/-- The factor of the distances in the logits, `−10`. -/
abbrev BETA : EReal := Ideal.ofBits .f32 0xC1200000#32

end Cert.ReferenceIdeal.RRead

end
-- ==== Proof.RReadInit.lean ====
/-
  The reference's initial centroids read at an index. They are gathered from the points: a gather of whole rows along
  the MIDDLE axis of a [G, N, C] array at a column of row numbers reads, at `(g, e, c)`, the operand at
  `(g, r, c)` with `r` the `e`-th row number, read as a signed integer and clamped into `[0, N − 1]`. Here the row
  numbers are the literals 50 and 98 (neither negative, so the wrap of negative numbers leaves them), both inside
  `[0, 195]`: centroid `k` of batch element `B` starts as point 50 (`k = 0`) or point 98 (`k = 1`) of `B`.
-/
import proofs.«122523_j36721970381457_2_alg».proof.Proof.RReadDefs
import Idealize.ShloMosaic.Lib.Pipeline.Value

noncomputable section

namespace Cert.ReferenceIdeal.RRead

open Idealize.ShloMosaic ValueIdx Cert.ReferenceIdeal

section MidRows
variable {α : Type} {G N E C w : Nat}

/-- The dimension numbers of a gather of whole rows along the MIDDLE axis: operand [G, N, C], start indices [E, 1],
    result [G, E, C]; the first and last axes are taken whole, the middle one is the gathered row. -/
abbrev midRowDims (G N E C : Nat)
    (wf : GatherDims.WF ⟨3, ![G, N, C]⟩ ⟨2, ![E, 1]⟩ ⟨3, ![G, E, C]⟩ [0, 2] [1] [] [1] [] 1 ![G, 1, C]) :
    GatherDims ⟨3, ![G, N, C]⟩ ⟨2, ![E, 1]⟩ ⟨3, ![G, E, C]⟩ where
  offsetDims := [0, 2]
  collapsedSliceDims := [1]
  operandBatchingDims := []
  startIndicesBatchingDims := []
  startIndexMap := [1]
  indexVectorDim := 1
  sliceSizes := ![G, 1, C]
  wf := wf

variable (wf : GatherDims.WF ⟨3, ![G, N, C]⟩ ⟨2, ![E, 1]⟩ ⟨3, ![G, E, C]⟩ [0, 2] [1] [] [1] [] 1 ![G, 1, C])

/-- The operand index of result `(g, e, c)`: `g`, the row number `idx[e, 0]` read signed and clamped into
    `[0, N − 1]`, and `c`. -/
theorem midRow_operandIdx (hN : 0 < N) (idx : IVec ⟨2, ![E, 1]⟩ w) (g : Fin G) (e : Fin E) (c : Fin C) :
    (midRowDims G N E C wf).operandIdx (ix3 g e c) idx
      = ix3 g (⟨min (idx (ix2 e (0 : Fin 1))).toInt.toNat (N - 1), by omega⟩ : Fin N) c := by
  funext a
  refine Fin.ext ?_
  match a with
  | ⟨0, _⟩ =>
    show (midRowDims G N E C wf).start (ix3 g e c) idx 0 + (midRowDims G N E C wf).batchCoord (ix3 g e c) 0
      + (midRowDims G N E C wf).offCoord (ix3 g e c) 0 = g.val
    rw [GatherDims.batchCoord_eq_zero _ _ _ List.not_mem_nil]
    unfold GatherDims.start
    rw [dif_neg (show ¬ (0 : Fin 3) ∈ (midRowDims G N E C wf).startIndexMap from
      (show ¬ (0 : Fin 3) ∈ ([1] : List (Fin 3)) by decide))]
    unfold GatherDims.offCoord
    rw [dif_pos (show (0 : Fin 3) ∈ (midRowDims G N E C wf).sKept from
      (GatherDims.mem_sKept _ _).mpr ⟨(show ¬ (0 : Fin 3) ∈ ([1] : List (Fin 3)) by decide), List.not_mem_nil⟩)]
    simp only [Nat.zero_add]
    rfl
  | ⟨1, _⟩ =>
    show (midRowDims G N E C wf).start (ix3 g e c) idx 1 + (midRowDims G N E C wf).batchCoord (ix3 g e c) 1
      + (midRowDims G N E C wf).offCoord (ix3 g e c) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midRowDims G N E C wf).startIndexMap from List.mem_singleton.mpr rfl)]
    have hsi : (midRowDims G N E C wf).siIdx (ix3 g e c) ⟨List.idxOf (1 : Fin 3) (midRowDims G N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨2, _⟩ =>
    show (midRowDims G N E C wf).start (ix3 g e c) idx 2 + (midRowDims G N E C wf).batchCoord (ix3 g e c) 2
      + (midRowDims G N E C wf).offCoord (ix3 g e c) 2 = c.val
    rw [GatherDims.batchCoord_eq_zero _ _ _ List.not_mem_nil]
    unfold GatherDims.start
    rw [dif_neg (show ¬ (2 : Fin 3) ∈ (midRowDims G N E C wf).startIndexMap from
      (show ¬ (2 : Fin 3) ∈ ([1] : List (Fin 3)) by decide))]
    unfold GatherDims.offCoord
    rw [dif_pos (show (2 : Fin 3) ∈ (midRowDims G N E C wf).sKept from
      (GatherDims.mem_sKept _ _).mpr ⟨(show ¬ (2 : Fin 3) ∈ ([1] : List (Fin 3)) by decide), List.not_mem_nil⟩)]
    simp only [Nat.zero_add]
    rfl

/-- The gather read at `(g, e, c)`: the operand at `(g, clamped idx[e, 0], c)`. -/
theorem gather_midRows_apply (hN : 0 < N) (x : (⟨3, ![G, N, C]⟩ : Shape).Idx → α) (idx : IVec ⟨2, ![E, 1]⟩ w)
    (g : Fin G) (e : Fin E) (c : Fin C) :
    Host.gather (midRowDims G N E C wf) x idx (ix3 g e c)
      = x (ix3 g (⟨min (idx (ix2 e (0 : Fin 1))).toInt.toNat (N - 1), by omega⟩ : Fin N) c) := by
  unfold Host.gather
  exact congrArg x (midRow_operandIdx wf hN idx g e c)

end MidRows

/-- The column of row numbers holds 50 and 98. -/
theorem rows_apply (k : Fin 2) :
    RSteps.rows (F := Ideal) (ix2 k (0 : Fin 1)) = if k = 0 then 50#32 else 98#32 := by
  match k with
  | ⟨0, _⟩ => rfl
  | ⟨1, _⟩ => rfl

/-- The initial centroids of batch element `B`: its points 50 and 98. -/
theorem init_apply (x : RSteps.Arr Ideal S2048x196x512) (B : Fin 2048) :
    cen (RSteps.init (F := Ideal) x) B = fun k d => x (ix3 B (if k = 0 then (50 : Fin 196) else 98) d) := by
  funext k d
  show Host.gather gather_S2048x196x512_S2x1_S2048x2x512_02_1_n_n_1_1_20481512 x (RSteps.rows (F := Ideal)) (ix3 B k d) = _
  refine (gather_midRows_apply (G := 2048) (N := 196) (E := 2) (C := 512) _ (by decide) x (RSteps.rows (F := Ideal)) B k d).trans ?_
  refine congrArg (fun r : Fin 196 => x (ix3 B r d)) (Fin.ext ?_)
  show min (RSteps.rows (F := Ideal) (ix2 k (0 : Fin 1))).toInt.toNat (196 - 1) = _
  rw [rows_apply]
  match k with
  | ⟨0, _⟩ => rfl
  | ⟨1, _⟩ => rfl

end Cert.ReferenceIdeal.RRead

end
-- ==== Proof.RReadSum.lean ====
/-
  The reference's reductions read at an index. A sum over one axis of a rank-3 array is, at each pair of kept
  coordinates, the zero it starts from plus the sum over the dropped coordinate.
-/
import proofs.«122523_j36721970381457_2_alg».proof.Proof.RReadDefs
import Idealize.ShloMosaic.Lib.IdealHost

noncomputable section

open scoped BigOperators

namespace Cert.ReferenceIdeal.RRead

open Idealize.ShloMosaic ValueIdx Cert.ReferenceIdeal

/-- The scalar zero literal a sum starts from is the extended real `0`. -/
theorem zero_first (hu : 0 < S_.numel) :
    (constant (F := Ideal) S_ .f32 0x00000000#32) (Shape.Idx.first hu) = 0 := Ideal.ofBits_zero_f32

/-- A sum over the last axis of a [2048, 196, 512] array, at `(B, n)`: the sum over the feature coordinate. -/
theorem sum_d2_pts (v : RSteps.Arr Ideal S2048x196x512) (h' : S2048x196x512.ReducesTo [2] S2048x196)
    (hu : 0 < S_.numel) (B : Fin 2048) (n : Fin 196) :
    Host.reduceAdd v (constant (F := Ideal) S_ .f32 0x00000000#32) h' hu (ix2 B n) = ∑ d : Fin 512, v (ix3 B n d) := by
  have h : S2048x196x512.Reduces [2] S2048x196 := by decide
  rw [hostReduceAdd_apply, Ideal.hostReduceAdd_single h' h, zero_first, zero_add]
  refine Finset.sum_congr rfl fun d _ => congrArg v ?_
  funext a
  match a with
  | ⟨0, _⟩ => rfl
  | ⟨1, _⟩ => rfl
  | ⟨2, _⟩ => rfl

/-- A sum over the last axis of a [2048, 2, 512] array, at `(B, k)`: the sum over the feature coordinate. -/
theorem sum_d2_cen (v : RSteps.Arr Ideal S2048x2x512) (h' : S2048x2x512.ReducesTo [2] S2048x2)
    (hu : 0 < S_.numel) (B : Fin 2048) (k : Fin 2) :
    Host.reduceAdd v (constant (F := Ideal) S_ .f32 0x00000000#32) h' hu (ix2 B k) = ∑ d : Fin 512, v (ix3 B k d) := by
  have h : S2048x2x512.Reduces [2] S2048x2 := by decide
  rw [hostReduceAdd_apply, Ideal.hostReduceAdd_single h' h, zero_first, zero_add]
  refine Finset.sum_congr rfl fun d _ => congrArg v ?_
  funext a
  match a with
  | ⟨0, _⟩ => rfl
  | ⟨1, _⟩ => rfl
  | ⟨2, _⟩ => rfl

/-- A sum over the last axis of a [2048, 2, 196] array, at `(B, k)`: the sum over the points. -/
theorem sum_d2_wts (v : RSteps.Arr Ideal S2048x2x196) (h' : S2048x2x196.ReducesTo [2] S2048x2)
    (hu : 0 < S_.numel) (B : Fin 2048) (k : Fin 2) :
    Host.reduceAdd v (constant (F := Ideal) S_ .f32 0x00000000#32) h' hu (ix2 B k) = ∑ n : Fin 196, v (ix3 B k n) := by
  have h : S2048x2x196.Reduces [2] S2048x2 := by decide
  rw [hostReduceAdd_apply, Ideal.hostReduceAdd_single h' h, zero_first, zero_add]
  refine Finset.sum_congr rfl fun n _ => congrArg v ?_
  funext a
  match a with
  | ⟨0, _⟩ => rfl
  | ⟨1, _⟩ => rfl
  | ⟨2, _⟩ => rfl

/-- A sum over the class axis of a [2048, 2, 196] array, at `(B, n)`: the two classes' entries added. -/
theorem sum_d1_wts (v : RSteps.Arr Ideal S2048x2x196) (h' : S2048x2x196.ReducesTo [1] S2048x196)
    (hu : 0 < S_.numel) (B : Fin 2048) (n : Fin 196) :
    Host.reduceAdd v (constant (F := Ideal) S_ .f32 0x00000000#32) h' hu (ix2 B n)
      = v (ix3 B (0 : Fin 2) n) + v (ix3 B (1 : Fin 2) n) := by
  have h : S2048x2x196.Reduces [1] S2048x196 := by decide
  rw [hostReduceAdd_apply, Ideal.hostReduceAdd_single h' h, zero_first, zero_add]
  have e : ∀ k : Fin 2, h.lift (ix2 B n) k = ix3 B k n := fun k => by
    funext a
    match a with
    | ⟨0, _⟩ => rfl
    | ⟨1, _⟩ => rfl
    | ⟨2, _⟩ => rfl
  show ∑ k : Fin 2, v (h.lift (ix2 B n) k) = _
  rw [Fin.sum_univ_two, e, e]

/-- The squared norms of batch element `B`: for each point the sum over the features of the squares. -/
theorem sqNorms_apply (x : RSteps.Arr Ideal S2048x196x512) (B : Fin 2048) :
    nrm (RSteps.sqNorms (F := Ideal) x) B = fun n => ∑ d : Fin 512, x (ix3 B n d) * x (ix3 B n d) := by
  funext n
  show Host.reduceAdd (mulf x x) (constant (F := Ideal) S_ .f32 0x00000000#32) _ _ (ix2 B n) = _
  rw [sum_d2_pts]
  rfl

end Cert.ReferenceIdeal.RRead

end
-- ==== Proof.RReadBcast.lean ====
/-
  The reference's broadcasts read at an index. A scalar broadcast to an array reads the scalar everywhere. A per-class
  value of shape [2048, 2], given a unit last axis and then broadcast along the points (or along the features), reads
  at `(B, k, ·)` its value at `(B, k)`; a per-point value of shape [2048, 196], given a unit class axis and then
  broadcast along the classes, reads at `(B, ·, n)` its value at `(B, n)`.
-/
import proofs.«122523_j36721970381457_2_alg».proof.Proof.RReadDefs
import Idealize.ShloMosaic.Lib.Pipeline.Value
import Idealize.ShloMosaic.Lib.IdealHost

noncomputable section

namespace Cert.ReferenceIdeal.RRead

open Idealize.ShloMosaic ValueIdx Cert.ReferenceIdeal

variable {α : Type}

/-- A float scalar constant broadcast to any shape reads, everywhere, the extended real its word encodes. -/
theorem splat_apply {T : Shape} (w : BitVec 32) (h : S_.BroadcastsInDim T ![]) (j : T.Idx) :
    broadcastInDim T ![] h (constant (F := Ideal) S_ .f32 w) j = Ideal.ofBits .f32 w :=
  broadcastInDim_scalar_apply h _ j

/-- [2048, 2] to [2048, 2, 1]: the value at `(B, k)`, whatever the unit coordinate. -/
theorem unit_last_apply (y : S2048x2.Idx → α) (h : S2048x2.BroadcastsInDim S2048x2x1 ![0, 1])
    (B : Fin 2048) (k : Fin 2) (u : Fin 1) :
    broadcastInDim S2048x2x1 ![0, 1] h y (ix3 B k u) = y (ix2 B k) :=
  broadcastInDim_apply ![0, 1] h y (ix3 B k u) (ix2 B k) fun a => by
    match a with
    | ⟨0, _⟩ => rfl
    | ⟨1, _⟩ => rfl

/-- [2048, 2, 1] to [2048, 2, 196]: the value at `(B, k, 0)`. -/
theorem along_pts_apply (y : S2048x2x1.Idx → α) (h : S2048x2x1.BroadcastsInDim S2048x2x196 ![0, 1, 2])
    (B : Fin 2048) (k : Fin 2) (n : Fin 196) :
    broadcastInDim S2048x2x196 ![0, 1, 2] h y (ix3 B k n) = y (ix3 B k (0 : Fin 1)) :=
  broadcastInDim_apply ![0, 1, 2] h y (ix3 B k n) (ix3 B k (0 : Fin 1)) fun a => by
    match a with
    | ⟨0, _⟩ => rfl
    | ⟨1, _⟩ => rfl
    | ⟨2, _⟩ => rfl

/-- [2048, 2, 1] to [2048, 2, 512]: the value at `(B, k, 0)`. -/
theorem along_feat_apply (y : S2048x2x1.Idx → α) (h : S2048x2x1.BroadcastsInDim S2048x2x512 ![0, 1, 2])
    (B : Fin 2048) (k : Fin 2) (d : Fin 512) :
    broadcastInDim S2048x2x512 ![0, 1, 2] h y (ix3 B k d) = y (ix3 B k (0 : Fin 1)) :=
  broadcastInDim_apply ![0, 1, 2] h y (ix3 B k d) (ix3 B k (0 : Fin 1)) fun a => by
    match a with
    | ⟨0, _⟩ => rfl
    | ⟨1, _⟩ => rfl
    | ⟨2, _⟩ => rfl

/-- [2048, 196] to [2048, 1, 196]: the value at `(B, n)`, whatever the unit coordinate. -/
theorem unit_mid_apply (y : S2048x196.Idx → α) (h : S2048x196.BroadcastsInDim S2048x1x196 ![0, 2])
    (B : Fin 2048) (u : Fin 1) (n : Fin 196) :
    broadcastInDim S2048x1x196 ![0, 2] h y (ix3 B u n) = y (ix2 B n) :=
  broadcastInDim_apply ![0, 2] h y (ix3 B u n) (ix2 B n) fun a => by
    match a with
    | ⟨0, _⟩ => rfl
    | ⟨1, _⟩ => rfl

/-- [2048, 1, 196] to [2048, 2, 196]: the value at `(B, 0, n)`. -/
theorem along_cls_apply (y : S2048x1x196.Idx → α) (h : S2048x1x196.BroadcastsInDim S2048x2x196 ![0, 1, 2])
    (B : Fin 2048) (k : Fin 2) (n : Fin 196) :
    broadcastInDim S2048x2x196 ![0, 1, 2] h y (ix3 B k n) = y (ix3 B (0 : Fin 1) n) :=
  broadcastInDim_apply ![0, 1, 2] h y (ix3 B k n) (ix3 B (0 : Fin 1) n) fun a => by
    match a with
    | ⟨0, _⟩ => rfl
    | ⟨1, _⟩ => rfl
    | ⟨2, _⟩ => rfl

/-- A per-class value kept along the points: at `(B, k, n)` its value at `(B, k)`. -/
theorem perClass_pts_apply (y : S2048x2.Idx → α) (h1 : S2048x2.BroadcastsInDim S2048x2x1 ![0, 1])
    (h2 : S2048x2x1.BroadcastsInDim S2048x2x196 ![0, 1, 2]) (B : Fin 2048) (k : Fin 2) (n : Fin 196) :
    broadcastInDim S2048x2x196 ![0, 1, 2] h2 (broadcastInDim S2048x2x1 ![0, 1] h1 y) (ix3 B k n) = y (ix2 B k) := by
  rw [along_pts_apply, unit_last_apply]

/-- A per-class value kept along the features: at `(B, k, d)` its value at `(B, k)`. -/
theorem perClass_feat_apply (y : S2048x2.Idx → α) (h1 : S2048x2.BroadcastsInDim S2048x2x1 ![0, 1])
    (h2 : S2048x2x1.BroadcastsInDim S2048x2x512 ![0, 1, 2]) (B : Fin 2048) (k : Fin 2) (d : Fin 512) :
    broadcastInDim S2048x2x512 ![0, 1, 2] h2 (broadcastInDim S2048x2x1 ![0, 1] h1 y) (ix3 B k d) = y (ix2 B k) := by
  rw [along_feat_apply, unit_last_apply]

/-- A per-point value kept along the classes: at `(B, k, n)` its value at `(B, n)`. -/
theorem perPoint_cls_apply (y : S2048x196.Idx → α) (h1 : S2048x196.BroadcastsInDim S2048x1x196 ![0, 2])
    (h2 : S2048x1x196.BroadcastsInDim S2048x2x196 ![0, 1, 2]) (B : Fin 2048) (k : Fin 2) (n : Fin 196) :
    broadcastInDim S2048x2x196 ![0, 1, 2] h2 (broadcastInDim S2048x1x196 ![0, 2] h1 y) (ix3 B k n) = y (ix2 B n) := by
  rw [along_cls_apply, unit_mid_apply]

end Cert.ReferenceIdeal.RRead

end
-- ==== Proof.RReadDot.lean ====
/-
  The reference's two batched products read at an index, at the ideal values. The inner products of the centroids with
  the points contract the feature axis of both operands: at `(B, k, n)` the sum over the features of centroid `k`'s
  entry times point `n`'s. The weighted sums of the points contract the point axis: at `(B, k, d)` the sum over the
  points of the weight of point `n` in class `k` times feature `d` of the point.
-/
import proofs.«122523_j36721970381457_2_alg».proof.Proof.RReadDefs
import Idealize.ShloMosaic.PureOps.Ideal.Laws
import Idealize.ShloMosaic.Lib.StackMember

noncomputable section

open scoped BigOperators

namespace Cert.ReferenceIdeal.RRead

open Idealize.ShloMosaic ValueIdx Cert.ReferenceIdeal

/-- The product of a stack of matrices with the transposes of another stack's — `dot_general` over [G, m, k] and
    [G, n, k] with batch axes 0 and 0 and contracting axes 2 and 2 — read at `(g, a, b)`: the sum over the contracted
    coordinate of row `a` of the first times row `b` of the second. -/
theorem dotGeneral_rows_apply {G m n k : Nat} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (X : FVec Ideal ⟨3, ![G, n, k]⟩ φ₂)
    (g : Fin G) (a : Fin m) (b : Fin n) :
    Host.dotGeneral (⟨[2], [2], [1], [1], [0], [0], w⟩ : DotDims _ _ _) prec A X (ix3 g a b)
      = ∑ c : Fin k, A (ix3 g a c) * X (ix3 g b c) := by
  show FloatOps.dotGeneral _ prec _ A X (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-- The inner products of the centroids with the points, at `(B, k, n)`. -/
theorem dot_cen_pts_apply (o : RSteps.Arr Ideal S2048x2x512) (x : RSteps.Arr Ideal S2048x196x512)
    (B : Fin 2048) (k : Fin 2) (n : Fin 196) :
    Host.dotGeneral (F := Ideal) (φ₁ := .f32) (φ₂ := .f32) dot_S2048x2x512_S2048x196x512_S2048x2x196_2_2_1_1_0_0 none o x (ix3 B k n)
      = ∑ d : Fin 512, o (ix3 B k d) * x (ix3 B n d) :=
  dotGeneral_rows_apply _ none o x B k n

/-- The weighted sums of the points, at `(B, k, d)`. -/
theorem dot_wts_pts_apply (c : RSteps.Arr Ideal S2048x2x196) (x : RSteps.Arr Ideal S2048x196x512)
    (B : Fin 2048) (k : Fin 2) (d : Fin 512) :
    Host.dotGeneral (F := Ideal) (φ₁ := .f32) (φ₂ := .f32) dot_S2048x2x196_S2048x196x512_S2048x2x512_2_1_1_2_0_0 none c x (ix3 B k d)
      = ∑ n : Fin 196, c (ix3 B k n) * x (ix3 B n d) :=
  StackMember.dotGeneral_stack_apply _ none c x B k d

end Cert.ReferenceIdeal.RRead

end
-- ==== Proof.RReadDist.lean ====
/-
  The reference's distances read at an index: for batch element `B`, class `k` and point `n` the whole-array
  expression is `√ max (‖o_k‖² − 2·⟨o_k, u_n⟩ + ny_n) ε` of that batch element's centroids, points and squared norms.
-/
import proofs.«122523_j36721970381457_2_alg».proof.Proof.RReadSum
import proofs.«122523_j36721970381457_2_alg».proof.Proof.RReadBcast
import proofs.«122523_j36721970381457_2_alg».proof.Proof.RReadDot

noncomputable section

open scoped BigOperators

namespace Cert.ReferenceIdeal.RRead

open Idealize.ShloMosaic ValueIdx Cert.ReferenceIdeal

/-- The host's square root at an index is the square root of the element. -/
theorem hostSqrt_apply {s : Shape} {φ : FTy} (a : FVec Ideal s φ) (i : s.Idx) : Host.sqrt a i = Ideal.sqrt (a i) := rfl

/-- The distances of batch element `B`. -/
theorem dist_apply (x : RSteps.Arr Ideal S2048x196x512) (ny : RSteps.Arr Ideal S2048x196)
    (o : RSteps.Arr Ideal S2048x2x512) (B : Fin 2048) :
    wts (RSteps.dist (F := Ideal) x ny o) B = Cert.SoftKMeans.dist TWO EPS (pts x B) (nrm ny B) (cen o B) := by
  funext k n
  show RSteps.dist (F := Ideal) x ny o (ix3 B k n) = _
  unfold RSteps.dist
  rw [hostSqrt_apply, maximumf_apply, addf_apply, subf_apply, mulf_apply, perClass_pts_apply, sum_d2_cen, splat_apply,
    dot_cen_pts_apply, perPoint_cls_apply, splat_apply]
  rfl

end Cert.ReferenceIdeal.RRead

end
-- ==== Proof.RReadMax.lean ====
/-
  The reference's maximum over the two classes read at an index: a reduction with the maximum as its body over the
  class axis (extent 2) of a [2048, 2, 196] array, started from `−∞`, is at `(B, n)` the larger of the two classes'
  entries.
-/
import proofs.«122523_j36721970381457_2_alg».proof.Proof.RReadDefs
import Idealize.ShloMosaic.Lib.IdealHost

noncomputable section

open scoped BigOperators

namespace Cert.ReferenceIdeal.RRead

open Idealize.ShloMosaic ValueIdx Cert.ReferenceIdeal

/-- The float pattern `0xFF800000` is `−∞`. -/
theorem ofBits_neg_inf_f32 : Ideal.ofBits .f32 0xFF800000#32 = ⊥ := by
  simp [Ideal.ofBits, Ideal.ieee]

/-- A fold over two values of a commutative, associative operation: the two values joined, then the initial one. -/
theorem fold_univ_fin2 {β : Type} (f : β → β → β) [Std.Commutative f] [Std.Associative f] (b : β) (g : Fin 2 → β) :
    (Finset.univ : Finset (Fin 2)).fold f b g = f (g 0) (f (g 1) b) := by
  simp only [Fin.univ_succ, Finset.fold_cons, Finset.fold_map, Finset.univ_unique, Finset.fold_singleton]
  rfl

/-- The maximum over the class axis of a [2048, 2, 196] array, started from `−∞`, at `(B, n)`: the larger of the
    two classes' entries. -/
theorem max_d1_wts (v : RSteps.Arr Ideal S2048x2x196) (h' : S2048x2x196.ReducesTo [1] S2048x196)
    (hu : 0 < S_.numel) (B : Fin 2048) (n : Fin 196) :
    Host.reduce FloatOps.maximumf v (constant (F := Ideal) S_ .f32 0xFF800000#32) h' hu (ix2 B n)
      = max (v (ix3 B (0 : Fin 2) n)) (v (ix3 B (1 : Fin 2) n)) := by
  have h : S2048x2x196.Reduces [1] S2048x196 := by decide
  have e0 := Host.reduce_eq_fold_single (α := EReal) (FloatOps.maximumf (F := Ideal) (φ := .f32)) v
    (constant (F := Ideal) S_ .f32 0xFF800000#32) h' h hu (ix2 B n)
  refine e0.trans ?_
  have e : ∀ k : Fin 2, h.lift (ix2 B n) k = ix3 B k n := fun k => by
    funext a
    match a with
    | ⟨0, _⟩ => rfl
    | ⟨1, _⟩ => rfl
    | ⟨2, _⟩ => rfl
  have hf : (v ∘ h.lift (ix2 B n)) = fun k : Fin 2 => v (ix3 B k n) := funext fun k => congrArg v (e k)
  have e2 := fold_univ_fin2 (max : EReal → EReal → EReal) (Ideal.ofBits .f32 0xFF800000#32) (fun k : Fin 2 => v (ix3 B k n))
  refine Eq.trans (congrArg (fun f => Finset.fold (max : EReal → EReal → EReal) (Ideal.ofBits .f32 0xFF800000#32) f
    (Finset.univ : Finset (Fin 2))) hf) ?_
  rw [e2, ofBits_neg_inf_f32, max_bot_right]

end Cert.ReferenceIdeal.RRead

end
-- ==== Proof.RReadAssign.lean ====
/-
  The reference's weights read at an index. The logits are `β·b`; each is lowered by the larger of its point's two
  logits (the maximum over the classes, which starts from `−∞` and is once more joined with `−∞`: neither changes it)
  and exponentiated; each exponential is divided by the sum of its point's two. That is the two-class softmax of the
  logits of one batch element.
-/
import proofs.«122523_j36721970381457_2_alg».proof.Proof.RReadSum
import proofs.«122523_j36721970381457_2_alg».proof.Proof.RReadMax
import proofs.«122523_j36721970381457_2_alg».proof.Proof.RReadBcast

noncomputable section

open scoped BigOperators

namespace Cert.ReferenceIdeal.RRead

open Idealize.ShloMosaic ValueIdx Cert.ReferenceIdeal

/-- The host's exponential at an index is the exponential of the element. -/
theorem hostExp_apply {s : Shape} {φ : FTy} (a : FVec Ideal s φ) (i : s.Idx) : Host.exp a i = Ideal.exp (a i) := rfl

/-- The logits at `(B, k, n)`: `β` times the distance. -/
theorem logits_apply (b : RSteps.Arr Ideal S2048x2x196) (B : Fin 2048) (k : Fin 2) (n : Fin 196) :
    RSteps.logits (F := Ideal) b (ix3 B k n) = BETA * b (ix3 B k n) := by
  unfold RSteps.logits
  rw [mulf_apply, splat_apply]

/-- The shifted exponentials at `(B, k, n)`: the exponential of the entry less the larger of the point's two. -/
theorem expShift_apply (l : RSteps.Arr Ideal S2048x2x196) (B : Fin 2048) (k : Fin 2) (n : Fin 196) :
    RSteps.expShift (F := Ideal) l (ix3 B k n)
      = Ideal.exp (l (ix3 B k n) - max (l (ix3 B (0 : Fin 2) n)) (l (ix3 B (1 : Fin 2) n))) := by
  unfold RSteps.expShift
  rw [hostExp_apply, subf_apply, perPoint_cls_apply, maximumf_apply, splat_apply, max_d1_wts, ofBits_neg_inf_f32,
    max_bot_left]

/-- The normalized entries at `(B, k, n)`: the entry divided by the sum of the point's two. -/
theorem normalize_apply (e : RSteps.Arr Ideal S2048x2x196) (B : Fin 2048) (k : Fin 2) (n : Fin 196) :
    RSteps.normalize (F := Ideal) e (ix3 B k n)
      = Ideal.div (e (ix3 B k n)) (e (ix3 B (0 : Fin 2) n) + e (ix3 B (1 : Fin 2) n)) := by
  unfold RSteps.normalize
  rw [hostDivf_apply, perPoint_cls_apply, sum_d1_wts]

/-- The weights of batch element `B`: the two-class softmax of its logits. -/
theorem assign_apply (b : RSteps.Arr Ideal S2048x2x196) (B : Fin 2048) :
    wts (RSteps.assign (F := Ideal) b) B = Cert.SoftKMeans.softmax2 BETA (wts b B) := by
  funext k n
  show RSteps.assign (F := Ideal) b (ix3 B k n) = _
  unfold RSteps.assign
  simp only [normalize_apply, expShift_apply, logits_apply]
  rfl

end Cert.ReferenceIdeal.RRead

end
-- ==== Proof.RReadUpdate.lean ====
/-
  The reference's new centroids read at an index: for batch element `B`, class `k` and feature `d` the weighted sum
  over the points of that feature, divided by the sum of the class's weights: the weighted mean of the points.
-/
import proofs.«122523_j36721970381457_2_alg».proof.Proof.RReadSum
import proofs.«122523_j36721970381457_2_alg».proof.Proof.RReadBcast
import proofs.«122523_j36721970381457_2_alg».proof.Proof.RReadDot

noncomputable section

open scoped BigOperators

namespace Cert.ReferenceIdeal.RRead

open Idealize.ShloMosaic ValueIdx Cert.ReferenceIdeal

/-- The new centroids of batch element `B`. -/
theorem update_apply (x : RSteps.Arr Ideal S2048x196x512) (c : RSteps.Arr Ideal S2048x2x196) (B : Fin 2048) :
    cen (RSteps.update (F := Ideal) x c) B = Cert.SoftKMeans.update (pts x B) (wts c B) := by
  funext k d
  show RSteps.update (F := Ideal) x c (ix3 B k d) = _
  unfold RSteps.update
  rw [hostDivf_apply, dot_wts_pts_apply, perClass_feat_apply, sum_d2_wts]
  rfl

end Cert.ReferenceIdeal.RRead

end
-- ==== Proof.RRead.lean ====
/-
  The reference's whole-batch functions read at one batch element: the initial centroids, the squared norms, the
  distances, the weights and the new centroids of batch element `B` are the one-batch-element functions of soft
  two-means applied to that element's points, centroids, weights and norms.
-/
import proofs.«122523_j36721970381457_2_alg».proof.Proof.RReadInit
import proofs.«122523_j36721970381457_2_alg».proof.Proof.RReadDist
import proofs.«122523_j36721970381457_2_alg».proof.Proof.RReadAssign
import proofs.«122523_j36721970381457_2_alg».proof.Proof.RReadUpdate
-- ==== Proof.RBridge.lean ====
/-
  The reference's two results read entry by entry: batch element `B` of the whole arrays runs the per-element
  rounds of the specification on its own points, squared norms and starting rows, because every whole-array
  operation of the reference acts on each batch element separately.
-/
import proofs.«122523_j36721970381457_2_alg».proof.Proof.RRead
import proofs.«122523_j36721970381457_2_alg».proof.Proof.ArrSpec

noncomputable section

namespace Cert.ReferenceIdeal.RBridge

open Idealize.ShloMosaic Idealize.SL.Sem Cert.ReferenceIdeal ValueIdx Cert.SoftKMeans

theorem nrm_eq (x : RSteps.Arr Ideal S2048x196x512) (B : Fin 2048) :
    RRead.nrm (RSteps.sqNorms (F := Ideal) x) B = Cert.ArrSpec.nrm x B := by
  rw [RRead.sqNorms_apply]; rfl

theorem start_eq (x : RSteps.Arr Ideal S2048x196x512) (B : Fin 2048) :
    RRead.cen (RSteps.init (F := Ideal) x) B = Cert.ArrSpec.start x B := by
  rw [RRead.init_apply]; rfl

/-- One round of the whole batch is, on batch element `B`, one round of the specification. -/
theorem step_cen (x : RSteps.Arr Ideal S2048x196x512) (o : RSteps.Arr Ideal S2048x2x512) (B : Fin 2048) :
    RRead.cen (RSteps.step (F := Ideal) x (RSteps.sqNorms x) o) B
      = stepR RRead.TWO RRead.EPS RRead.BETA (Cert.ArrSpec.pts x B) (Cert.ArrSpec.nrm x B) (RRead.cen o B) := by
  unfold RSteps.step stepR
  rw [RRead.update_apply, RRead.assign_apply, RRead.dist_apply, nrm_eq]
  rfl

theorem iterate_cen (x : RSteps.Arr Ideal S2048x196x512) (B : Fin 2048) (n : ℕ) (o : RSteps.Arr Ideal S2048x2x512) :
    RRead.cen ((RSteps.step (F := Ideal) x (RSteps.sqNorms x))^[n] o) B
      = (stepR RRead.TWO RRead.EPS RRead.BETA (Cert.ArrSpec.pts x B) (Cert.ArrSpec.nrm x B))^[n] (RRead.cen o B) := by
  induction n generalizing o with
  | zero => rfl
  | succ n ih => rw [Function.iterate_succ_apply, Function.iterate_succ_apply, ih, step_cen]

/-- The centroid result is the per-element ten rounds. -/
theorem resultO_eq (x : RSteps.Arr Ideal S2048x196x512) :
    RSteps.resultO (F := Ideal) x = Cert.ArrSpec.arrO (Cert.ArrSpec.cenR x) := by
  funext j
  obtain ⟨B, k, d, rfl⟩ : ∃ (B : Fin 2048) (k : Fin 2) (d : Fin 512), j = ix3 B k d := ⟨j 0, j 1, j 2, eq_ix3 j⟩
  rw [Cert.ArrSpec.arrO_ix3]
  have h := iterate_cen x B 10 (RSteps.init (F := Ideal) x)
  rw [start_eq] at h
  exact congrFun (congrFun h k) d

/-- The weight result is the per-element tenth round's weights. -/
theorem resultC_eq (x : RSteps.Arr Ideal S2048x196x512) :
    RSteps.resultC (F := Ideal) x = Cert.ArrSpec.arrC (Cert.ArrSpec.wtsR x) := by
  funext j
  obtain ⟨B, k, n, rfl⟩ : ∃ (B : Fin 2048) (k : Fin 2) (n : Fin 196), j = ix3 B k n := ⟨j 0, j 1, j 2, eq_ix3 j⟩
  rw [Cert.ArrSpec.arrC_ix3]
  have h9 := iterate_cen x B 9 (RSteps.init (F := Ideal) x)
  rw [start_eq] at h9
  have hw : RRead.wts (RSteps.resultC (F := Ideal) x) B = Cert.ArrSpec.wtsR x B := by
    unfold RSteps.resultC Cert.ArrSpec.wtsR
    rw [RRead.assign_apply, RRead.dist_apply, nrm_eq, h9]
    rfl
  exact congrFun (congrFun hw k) n

end Cert.ReferenceIdeal.RBridge

end
-- ==== Proof.SpecLaws.lean ====
/-
  Laws of the soft two-means round over the extended reals.

  For real inputs every quantity of a round is a real number: the distances are square roots of numbers that are at
  least eps > 0, both kinds of weights lie strictly between 0 and 1, and a centroid is a quotient by a positive sum.
  So a round on real data is the image of a round computed in ℝ. In ℝ the kernel's weights are the reference's
  weights with the two classes exchanged (logistic (β(b₀ − b₁)) is the softmax weight of class 0), and every other
  part of a round commutes with the exchange. Hence the kernel's round is the reference's round followed by the
  exchange, the reference's round commutes with the exchange, and n rounds differ by n exchanges: none for n even.
-/
import proofs.«122523_j36721970381457_2_alg».proof.Proof.Spec

noncomputable section

namespace Cert.SoftKMeans

open Idealize.ShloMosaic

variable {N D : ℕ}

/-! ### Reals inside the extended reals -/

/-- The inclusion of ℝ in EReal commutes with finite sums. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The inclusion of ℝ in EReal commutes with the maximum of two numbers. -/
theorem coe_max (x y : ℝ) : ((max x y : ℝ) : EReal) = max (x : EReal) (y : EReal) :=
  (EReal.coe_strictMono.monotone).map_max

/-- A family of reals seen as a family of extended reals. -/
def lift1 {α : Type*} (f : α → ℝ) : α → EReal := fun a => (f a : EReal)

/-- A doubly indexed family of reals seen as a family of extended reals. -/
def lift2 {α β : Type*} (f : α → β → ℝ) : α → β → EReal := fun a b => (f a b : EReal)

theorem exists_lift1 {α : Type*} (f : α → EReal) (h : ∀ a, ∃ r : ℝ, f a = (r : EReal)) :
    ∃ g : α → ℝ, f = lift1 g := by
  choose g hg using h
  exact ⟨g, funext hg⟩

theorem exists_lift2 {α β : Type*} (f : α → β → EReal) (h : ∀ a b, ∃ r : ℝ, f a b = (r : EReal)) :
    ∃ g : α → β → ℝ, f = lift2 g := by
  choose g hg using h
  exact ⟨g, funext fun a => funext fun b => hg a b⟩

/-! ### The round computed in ℝ -/

/-- The distances, in ℝ. -/
def distR (two eps : ℝ) (u : Fin N → Fin D → ℝ) (ny : Fin N → ℝ) (o : Fin 2 → Fin D → ℝ)
    (k : Fin 2) (n : Fin N) : ℝ :=
  Real.sqrt (max (((∑ d, o k d * o k d) - two * ∑ d, o k d * u n d) + ny n) eps)

/-- The two-class softmax of the logits beta·b, in ℝ. -/
def softmaxR (beta : ℝ) (b : Fin 2 → Fin N → ℝ) (k : Fin 2) (n : Fin N) : ℝ :=
  Real.exp (beta * b k n - max (beta * b 0 n) (beta * b 1 n))
    * (Real.exp (beta * b 0 n - max (beta * b 0 n) (beta * b 1 n))
        + Real.exp (beta * b 1 n - max (beta * b 0 n) (beta * b 1 n)))⁻¹

/-- The logistic weights, in ℝ. -/
def sigmoidR (beta : ℝ) (b : Fin 2 → Fin N → ℝ) (k : Fin 2) (n : Fin N) : ℝ :=
  if k = 0 then 1 - (1 + Real.exp (-(beta * (b 0 n - b 1 n))))⁻¹
  else (1 + Real.exp (-(beta * (b 0 n - b 1 n))))⁻¹

/-- The weighted means, in ℝ. -/
def updateR (u : Fin N → Fin D → ℝ) (c : Fin 2 → Fin N → ℝ) (k : Fin 2) (d : Fin D) : ℝ :=
  (∑ n, c k n * u n d) * (∑ n, c k n)⁻¹

/-- One round of the reference, in ℝ. -/
def stepRR (two eps beta : ℝ) (u : Fin N → Fin D → ℝ) (ny : Fin N → ℝ) (o : Fin 2 → Fin D → ℝ) :
    Fin 2 → Fin D → ℝ :=
  updateR u (softmaxR beta (distR two eps u ny o))

/-- One round of the kernel, in ℝ. -/
def stepKR (two eps beta : ℝ) (u : Fin N → Fin D → ℝ) (ny : Fin N → ℝ) (o : Fin 2 → Fin D → ℝ) :
    Fin 2 → Fin D → ℝ :=
  updateR u (sigmoidR beta (distR two eps u ny o))

/-! ### A round on real data is the image of the round in ℝ -/

theorem dist_lift (two eps : ℝ) (heps : 0 < eps) (u : Fin N → Fin D → ℝ) (ny : Fin N → ℝ)
    (o : Fin 2 → Fin D → ℝ) :
    dist (two : EReal) (eps : EReal) (lift2 u) (lift1 ny) (lift2 o) = lift2 (distR two eps u ny o) := by
  funext k n
  simp only [dist, distR, lift1, lift2, ← EReal.coe_mul, ← coe_sum, ← EReal.coe_sub, ← EReal.coe_add, ← coe_max]
  rw [Ideal.sqrt_coe, if_neg]
  exact not_lt.mpr (le_trans heps.le (le_max_right _ _))

theorem softmax2_lift (beta : ℝ) (b : Fin 2 → Fin N → ℝ) :
    softmax2 (beta : EReal) (lift2 b) = lift2 (softmaxR beta b) := by
  funext k n
  simp only [softmax2, softmaxR, lift2, ← EReal.coe_mul, ← EReal.coe_sub, ← coe_max, Ideal.exp_coe, ← EReal.coe_add]
  have hpos : (0 : ℝ) < Real.exp (beta * b 0 n - max (beta * b 0 n) (beta * b 1 n))
      + Real.exp (beta * b 1 n - max (beta * b 0 n) (beta * b 1 n)) := by positivity
  rw [Ideal.div_coe hpos.ne', ← EReal.coe_mul, one_div]

theorem sigmoid2_lift (beta : ℝ) (b : Fin 2 → Fin N → ℝ) :
    sigmoid2 (beta : EReal) (lift2 b) = lift2 (sigmoidR beta b) := by
  funext k n
  simp only [sigmoid2, sigmoidR, lift2, ← EReal.coe_mul, ← EReal.coe_sub, Ideal.logistic_coe]
  split_ifs
  · rw [← EReal.coe_one, ← EReal.coe_sub]
  · rfl

theorem update_lift (u : Fin N → Fin D → ℝ) (c : Fin 2 → Fin N → ℝ) (hc : ∀ k, (∑ n, c k n) ≠ 0) :
    update (lift2 u) (lift2 c) = lift2 (updateR u c) := by
  funext k d
  simp only [update, updateR, lift2, ← EReal.coe_mul, ← coe_sum]
  rw [Ideal.div_coe (hc k), ← EReal.coe_mul, one_div]

/-! ### Positivity of the weights -/

theorem softmaxR_pos (beta : ℝ) (b : Fin 2 → Fin N → ℝ) (k : Fin 2) (n : Fin N) : 0 < softmaxR beta b k n := by
  unfold softmaxR
  positivity

/-! ### The exchange of the two classes -/

/-- A family indexed by the two classes, with the classes exchanged. -/
def swap {α : Type*} (f : Fin 2 → α) : Fin 2 → α := fun k => f (1 - k)

theorem swap_swap {α : Type*} (f : Fin 2 → α) : swap (swap f) = f := by
  funext k
  fin_cases k <;> rfl

/-- The logistic weights are the softmax weights with the classes exchanged: with A = exp (βb₀ − m) and
    B = exp (βb₁ − m), exp (−β(b₀ − b₁)) = B / A, so (1 + B/A)⁻¹ = A / (A + B) and its complement is B / (A + B). -/
theorem sigmoidR_eq_swap (beta : ℝ) (b : Fin 2 → Fin N → ℝ) : sigmoidR beta b = swap (softmaxR beta b) := by
  funext k n
  have hA : 0 < Real.exp (beta * b 0 n - max (beta * b 0 n) (beta * b 1 n)) := Real.exp_pos _
  have hB : 0 < Real.exp (beta * b 1 n - max (beta * b 0 n) (beta * b 1 n)) := Real.exp_pos _
  have hE : Real.exp (-(beta * (b 0 n - b 1 n)))
      = Real.exp (beta * b 1 n - max (beta * b 0 n) (beta * b 1 n))
        / Real.exp (beta * b 0 n - max (beta * b 0 n) (beta * b 1 n)) := by
    rw [← Real.exp_sub]
    congr 1
    ring
  fin_cases k
  · show 1 - (1 + Real.exp (-(beta * (b 0 n - b 1 n))))⁻¹
      = Real.exp (beta * b 1 n - max (beta * b 0 n) (beta * b 1 n))
        * (Real.exp (beta * b 0 n - max (beta * b 0 n) (beta * b 1 n))
          + Real.exp (beta * b 1 n - max (beta * b 0 n) (beta * b 1 n)))⁻¹
    rw [hE]
    field_simp
    ring
  · show (1 + Real.exp (-(beta * (b 0 n - b 1 n))))⁻¹
      = Real.exp (beta * b 0 n - max (beta * b 0 n) (beta * b 1 n))
        * (Real.exp (beta * b 0 n - max (beta * b 0 n) (beta * b 1 n))
          + Real.exp (beta * b 1 n - max (beta * b 0 n) (beta * b 1 n)))⁻¹
    rw [hE]
    field_simp

theorem sigmoidR_pos (beta : ℝ) (b : Fin 2 → Fin N → ℝ) (k : Fin 2) (n : Fin N) : 0 < sigmoidR beta b k n := by
  rw [sigmoidR_eq_swap]
  exact softmaxR_pos beta b (1 - k) n

theorem distR_swap (two eps : ℝ) (u : Fin N → Fin D → ℝ) (ny : Fin N → ℝ) (o : Fin 2 → Fin D → ℝ) :
    distR two eps u ny (swap o) = swap (distR two eps u ny o) := rfl

theorem updateR_swap (u : Fin N → Fin D → ℝ) (c : Fin 2 → Fin N → ℝ) :
    updateR u (swap c) = swap (updateR u c) := rfl

/-- The softmax treats the two classes alike: the maximum and the denominator are symmetric in them. -/
theorem softmaxR_swap (beta : ℝ) (b : Fin 2 → Fin N → ℝ) :
    softmaxR beta (swap b) = swap (softmaxR beta b) := by
  funext k n
  show Real.exp (beta * b (1 - k) n - max (beta * b (1 - 0) n) (beta * b (1 - 1) n))
      * (Real.exp (beta * b (1 - 0) n - max (beta * b (1 - 0) n) (beta * b (1 - 1) n))
          + Real.exp (beta * b (1 - 1) n - max (beta * b (1 - 0) n) (beta * b (1 - 1) n)))⁻¹
    = Real.exp (beta * b (1 - k) n - max (beta * b 0 n) (beta * b 1 n))
      * (Real.exp (beta * b 0 n - max (beta * b 0 n) (beta * b 1 n))
          + Real.exp (beta * b 1 n - max (beta * b 0 n) (beta * b 1 n)))⁻¹
  have h10 : (1 : Fin 2) - 0 = 1 := rfl
  have h11 : (1 : Fin 2) - 1 = 0 := rfl
  rw [h10, h11, max_comm (beta * b 1 n) (beta * b 0 n),
    add_comm (Real.exp (beta * b 1 n - max (beta * b 0 n) (beta * b 1 n)))]

/-! ### Rounds and the exchange -/

section Rounds

variable (two eps beta : ℝ) (u : Fin N → Fin D → ℝ) (ny : Fin N → ℝ)

/-- The kernel's round is the reference's round followed by the exchange. -/
theorem stepKR_eq_swap (o : Fin 2 → Fin D → ℝ) :
    stepKR two eps beta u ny o = swap (stepRR two eps beta u ny o) := by
  unfold stepKR stepRR
  rw [sigmoidR_eq_swap, updateR_swap]

/-- The reference's round commutes with the exchange. -/
theorem stepRR_swap (o : Fin 2 → Fin D → ℝ) :
    stepRR two eps beta u ny (swap o) = swap (stepRR two eps beta u ny o) := by
  unfold stepRR
  rw [distR_swap, softmaxR_swap, updateR_swap]

/-- Two rounds of the kernel are two rounds of the reference. -/
theorem stepKR_twice (o : Fin 2 → Fin D → ℝ) :
    stepKR two eps beta u ny (stepKR two eps beta u ny o)
      = stepRR two eps beta u ny (stepRR two eps beta u ny o) := by
  rw [stepKR_eq_swap, stepKR_eq_swap, stepRR_swap, swap_swap]

/-- An even number of rounds of the kernel is the same number of rounds of the reference. -/
theorem iterate_even (m : ℕ) (o : Fin 2 → Fin D → ℝ) :
    (stepKR two eps beta u ny)^[2 * m] o = (stepRR two eps beta u ny)^[2 * m] o := by
  induction m generalizing o with
  | zero => rfl
  | succ m ih =>
    rw [Nat.mul_succ, Function.iterate_add_apply, Function.iterate_add_apply]
    show (stepKR two eps beta u ny)^[2 * m] (stepKR two eps beta u ny (stepKR two eps beta u ny o))
      = (stepRR two eps beta u ny)^[2 * m] (stepRR two eps beta u ny (stepRR two eps beta u ny o))
    rw [stepKR_twice, ih]

/-- An odd number of rounds of the kernel is the same number of rounds of the reference, followed by the exchange. -/
theorem iterate_odd (m : ℕ) (o : Fin 2 → Fin D → ℝ) :
    (stepKR two eps beta u ny)^[2 * m + 1] o = swap ((stepRR two eps beta u ny)^[2 * m + 1] o) := by
  rw [Function.iterate_succ_apply', Function.iterate_succ_apply', iterate_even, stepKR_eq_swap]

end Rounds

/-! ### Rounds on real data -/

section Lifted

variable (hN : 0 < N) (two eps beta : ℝ) (heps : 0 < eps) (u : Fin N → Fin D → ℝ) (ny : Fin N → ℝ)

include hN heps

theorem stepK_lift (o : Fin 2 → Fin D → ℝ) :
    stepK (two : EReal) (eps : EReal) (beta : EReal) (lift2 u) (lift1 ny) (lift2 o)
      = lift2 (stepKR two eps beta u ny o) := by
  haveI : Nonempty (Fin N) := ⟨⟨0, hN⟩⟩
  unfold stepK stepKR
  rw [dist_lift two eps heps, sigmoid2_lift, update_lift]
  intro k
  exact (Finset.sum_pos (fun n _ => sigmoidR_pos beta _ k n) Finset.univ_nonempty).ne'

theorem stepR_lift (o : Fin 2 → Fin D → ℝ) :
    stepR (two : EReal) (eps : EReal) (beta : EReal) (lift2 u) (lift1 ny) (lift2 o)
      = lift2 (stepRR two eps beta u ny o) := by
  haveI : Nonempty (Fin N) := ⟨⟨0, hN⟩⟩
  unfold stepR stepRR
  rw [dist_lift two eps heps, softmax2_lift, update_lift]
  intro k
  exact (Finset.sum_pos (fun n _ => softmaxR_pos beta _ k n) Finset.univ_nonempty).ne'

theorem iterate_stepK_lift (m : ℕ) (o : Fin 2 → Fin D → ℝ) :
    (stepK (two : EReal) (eps : EReal) (beta : EReal) (lift2 u) (lift1 ny))^[m] (lift2 o)
      = lift2 ((stepKR two eps beta u ny)^[m] o) := by
  induction m generalizing o with
  | zero => rfl
  | succ m ih => rw [Function.iterate_succ_apply, Function.iterate_succ_apply, stepK_lift hN two eps beta heps, ih]

theorem iterate_stepR_lift (m : ℕ) (o : Fin 2 → Fin D → ℝ) :
    (stepR (two : EReal) (eps : EReal) (beta : EReal) (lift2 u) (lift1 ny))^[m] (lift2 o)
      = lift2 ((stepRR two eps beta u ny)^[m] o) := by
  induction m generalizing o with
  | zero => rfl
  | succ m ih => rw [Function.iterate_succ_apply, Function.iterate_succ_apply, stepR_lift hN two eps beta heps, ih]

end Lifted

/-- Ten rounds of the kernel and ten rounds of the reference give the same centroids on real data, and the
    kernel's weights in its tenth round are the reference's weights in its tenth round. -/
theorem rounds_agree {N D : ℕ} (hN : 0 < N) (two eps beta : ℝ) (heps : 0 < eps)
    (u : Fin N → Fin D → EReal) (ny : Fin N → EReal) (o0 : Fin 2 → Fin D → EReal)
    (hu : ∀ n d, ∃ r : ℝ, u n d = (r : EReal)) (hny : ∀ n, ∃ r : ℝ, ny n = (r : EReal))
    (ho : ∀ k d, ∃ r : ℝ, o0 k d = (r : EReal)) :
    (stepK (two : EReal) (eps : EReal) (beta : EReal) u ny)^[10] o0 = (stepR (two : EReal) (eps : EReal) (beta : EReal) u ny)^[10] o0
    ∧ sigmoid2 (beta : EReal) (dist (two : EReal) (eps : EReal) u ny ((stepK (two : EReal) (eps : EReal) (beta : EReal) u ny)^[9] o0))
        = softmax2 (beta : EReal) (dist (two : EReal) (eps : EReal) u ny ((stepR (two : EReal) (eps : EReal) (beta : EReal) u ny)^[9] o0)) := by
  obtain ⟨ur, rfl⟩ := exists_lift2 u hu
  obtain ⟨nyr, rfl⟩ := exists_lift1 ny hny
  obtain ⟨or, rfl⟩ := exists_lift2 o0 ho
  constructor
  · rw [iterate_stepK_lift hN two eps beta heps, iterate_stepR_lift hN two eps beta heps]
    exact congrArg lift2 (iterate_even two eps beta ur nyr 5 or)
  · rw [iterate_stepK_lift hN two eps beta heps, iterate_stepR_lift hN two eps beta heps,
      dist_lift two eps heps, dist_lift two eps heps, sigmoid2_lift, softmax2_lift]
    refine congrArg lift2 ?_
    have h9 := iterate_odd two eps beta ur nyr 4 or
    rw [show (9 : ℕ) = 2 * 4 + 1 from rfl, h9, distR_swap, sigmoidR_eq_swap, softmaxR_swap, swap_swap]

end Cert.SoftKMeans

end
-- ==== Proof.Consts.lean ====
/-
  The three single-precision constants of the round, read as extended reals: the factor 2 of the cross term, the
  positive floor eps under the square root, and the (negative) logit scale beta. Only that each denotes a real
  number, and that eps is positive, is used; a pattern whose exponent field is neither all ones nor zero denotes
  ±(2²³ + fraction) · 2^(exponent − 150).
-/
import Idealize.ShloMosaic.PureOps.Ideal

noncomputable section

namespace Cert.Consts

open Idealize.ShloMosaic

/-- A single-precision pattern whose exponent field is not all ones denotes a real number. -/
theorem f32_real (b : BitVec 32) (hex : (b.extractLsb' 23 8).toNat ≠ 255) :
    ∃ r : ℝ, Ideal.ofBits .f32 b = (r : EReal) := by
  show ∃ r : ℝ, Ideal.ieee 8 23 b = (r : EReal)
  unfold Ideal.ieee
  dsimp only
  have h255 : (2 : ℕ) ^ 8 - 1 = 255 := by norm_num
  rw [h255, if_neg hex]
  split_ifs <;> exact ⟨_, rfl⟩

/-- A normal single-precision pattern with the sign bit clear denotes a positive real number. -/
theorem f32_pos (b : BitVec 32) (hs : (b.extractLsb' (8 + 23) 1 == 1#1) = false)
    (hex : (b.extractLsb' 23 8).toNat ≠ 255) (hex0 : (b.extractLsb' 23 8).toNat ≠ 0) :
    ∃ r : ℝ, 0 < r ∧ Ideal.ofBits .f32 b = (r : EReal) := by
  show ∃ r : ℝ, 0 < r ∧ Ideal.ieee 8 23 b = (r : EReal)
  unfold Ideal.ieee
  dsimp only
  have h255 : (2 : ℕ) ^ 8 - 1 = 255 := by norm_num
  rw [h255, if_neg hex, if_neg hex0, hs]
  refine ⟨_, ?_, rfl⟩
  simp only [Bool.false_eq_true, if_false]
  positivity

theorem two_real : ∃ r : ℝ, Idealize.ShloMosaic.Ideal.ofBits .f32 0x40000000#32 = (r : EReal) :=
  f32_real _ (by decide)

theorem eps_pos : ∃ r : ℝ, 0 < r ∧ Idealize.ShloMosaic.Ideal.ofBits .f32 0x2EDBE6FF#32 = (r : EReal) :=
  f32_pos _ (by decide) (by decide) (by decide)

theorem beta_real : ∃ r : ℝ, Idealize.ShloMosaic.Ideal.ofBits .f32 0xC1200000#32 = (r : EReal) :=
  f32_real _ (by decide)

end Cert.Consts

end
-- ==== Proof.ArrAgree.lean ====
/-
  The two whole-array results agree on an array of real numbers: for every batch element the points, their squared
  norms (finite sums of products of reals) and the starting centroids (two of the points) are real, the three
  constants are real with eps positive, and there are 196 > 0 points, so ten rounds of the two programs give the
  same centroids and the same tenth-round weights.
-/
import proofs.«122523_j36721970381457_2_alg».proof.Proof.ArrSpec
import proofs.«122523_j36721970381457_2_alg».proof.Proof.SpecLaws
import proofs.«122523_j36721970381457_2_alg».proof.Proof.Consts

noncomputable section

namespace Cert.ArrSpec

open Idealize.ShloMosaic ValueIdx Cert.SoftKMeans

/-- The squared norms of real points are real. -/
theorem nrm_real (X : Pts) (hX : ∀ j, ∃ r : ℝ, X j = (r : EReal)) (B : Fin 2048) (n : Fin 196) :
    ∃ r : ℝ, nrm X B n = (r : EReal) := by
  choose f hf using hX
  refine ⟨∑ d : Fin 512, f (ix3 B n d) * f (ix3 B n d), ?_⟩
  unfold nrm
  rw [coe_sum]
  simp only [hf, EReal.coe_mul]

theorem agree (X : Pts) (hX : ∀ j, ∃ r : ℝ, X j = (r : EReal)) (B : Fin 2048) :
    cenK X B = cenR X B ∧ wtsK X B = wtsR X B := by
  obtain ⟨two, htwo⟩ := Cert.Consts.two_real
  obtain ⟨eps, heps, hepsE⟩ := Cert.Consts.eps_pos
  obtain ⟨beta, hbeta⟩ := Cert.Consts.beta_real
  have key := rounds_agree (N := 196) (D := 512) (by norm_num) two eps beta heps (pts X B) (nrm X B) (start X B)
    (fun n d => hX (ix3 B n d)) (nrm_real X hX B) (fun k d => hX (ix3 B (if k = 0 then (50 : Fin 196) else 98) d))
  rw [← htwo, ← hepsE, ← hbeta] at key
  exact key

end Cert.ArrSpec

end
-- ==== Proof.Finite.lean ====
/-
  The precondition "every entry is finite" read entry by entry. The precondition is the conjunction over all
  entries of |x| < +∞, where |x| = max x (−x) over the extended reals and +∞ is the pattern 0x7F800000. If the
  conjunction is 1 then every conjunct is, and max x (−x) < ⊤ excludes x = ⊤ and x = ⊥: x is a real number.
-/
import proofs.«122523_j36721970381457_2_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic

/-- The shape without axes has one index. -/
instance : Subsingleton Cert.Pre_finite_inputs.S_.Idx := ⟨fun a b => funext fun d => d.elim0⟩

/-- An array on which the finiteness predicate is all ones has a real number at every index. -/
theorem real_of_pre (x : FVec Idealize.ShloMosaic.Ideal Cert.Pre_finite_inputs.S2048x196x512 .f32)
    (h : Cert.Pre_finite_inputs.fn (F := Idealize.ShloMosaic.Ideal) x = fun _ => 1#1) :
    ∀ j, ∃ r : ℝ, x j = (r : EReal) := by
  intro j
  -- the conjunction over all entries is 1, so the conjunct at j is
  have h0 := congrFun h ValueIdx.ix0
  dsimp only [Cert.Pre_finite_inputs.fn] at h0
  have hj := Host.reduce_andi_all _ _ _ _ _ h0 j
  -- the conjunct at j is the bit of max (x j) (−x j) < +∞
  have hj' : Ideal.cmp .olt (max (x j) (-(x j))) (Ideal.ofBits .f32 0x7F800000#32) = 1#1 := hj
  have htop : Ideal.ofBits .f32 0x7F800000#32 = ⊤ := by simp [Ideal.ofBits, Ideal.ieee]
  rw [htop] at hj'
  have hb : ∀ b : Bool, BitVec.ofBool b = 1#1 → b = true := by decide
  have hj'' : BitVec.ofBool (decide (max (x j) (-(x j)) < (⊤ : EReal))) = 1#1 := hj'
  have hlt : max (x j) (-(x j)) < ⊤ := of_decide_eq_true (hb _ hj'')
  obtain ⟨h1, h2⟩ := max_lt_iff.mp hlt
  -- neither infinity satisfies both bounds
  generalize x j = y at h1 h2
  induction y using EReal.rec with
  | bot => simp at h2
  | coe r => exact ⟨r, rfl⟩
  | top => simp at h1

end Cert.Finite

end
-- ==== Proof.lean ====
/-
  The certificate of a soft two-means kernel against its reference.

  Both programs run ten rounds of: distances of 196 points to two centroids, two weights per point, centroids
  replaced by weighted means; from the same start (rows 50 and 98 of each batch element).  They differ in the
  weights: the reference takes the softmax of the two logits `−10·b₀, −10·b₁`; the kernel takes
  `w₁ = logistic (−10·(b₀ − b₁))`, `w₀ = 1 − w₁`, which for real logits is that softmax with the two classes
  exchanged.  Every other step of a round treats the two classes alike, so one kernel round is one reference round
  followed by the exchange, and after an even number of rounds — ten — centroids and weights coincide.  The
  exchange law and the division by the weights' sum need real numbers: under the precondition every input is a
  finite real, and then every intermediate value is.

  The three frames: the two kernel programs' are the generated ones; the reference's is its run with the results
  dropped.  The ideal pass rewrote nothing, so `preserves` is trivial.
-/
import proofs.«122523_j36721970381457_2_alg».proof.Defs
import proofs.«122523_j36721970381457_2_alg».proof.Proof.Gen.Kernel
import proofs.«122523_j36721970381457_2_alg».proof.Proof.Gen.Kernel.Skeleton
import proofs.«122523_j36721970381457_2_alg».proof.Proof.Gen.Kernel.Launch
import proofs.«122523_j36721970381457_2_alg».proof.Proof.Gen.Kernel.Points
import proofs.«122523_j36721970381457_2_alg».proof.Proof.Gen.Kernel.Frame
import proofs.«122523_j36721970381457_2_alg».proof.Proof.Gen.KernelIdeal
import proofs.«122523_j36721970381457_2_alg».proof.Proof.Gen.KernelIdeal.Skeleton
import proofs.«122523_j36721970381457_2_alg».proof.Proof.Gen.KernelIdeal.Launch
import proofs.«122523_j36721970381457_2_alg».proof.Proof.Gen.KernelIdeal.Points
import proofs.«122523_j36721970381457_2_alg».proof.Proof.Gen.KernelIdeal.Frame
import proofs.«122523_j36721970381457_2_alg».proof.Proof.Gen.ReferenceIdeal
import proofs.«122523_j36721970381457_2_alg».proof.Proof.Gen.Pre_finite_inputs
import proofs.«122523_j36721970381457_2_alg».proof.Proof.KFinal
import proofs.«122523_j36721970381457_2_alg».proof.Proof.RefRun
import proofs.«122523_j36721970381457_2_alg».proof.Proof.RBridge
import proofs.«122523_j36721970381457_2_alg».proof.Proof.ArrAgree
import proofs.«122523_j36721970381457_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the results dropped. -/
theorem frame_reference : Cert.frame_ReferenceIdeal := fun m ρ _ =>
  (θ_run Cert.ReferenceIdeal.defs _ _).mono (fun _ h c => (h c).2.2) (Cert.ReferenceIdeal.RefRun.run (F := Ideal) m ρ)

/-- Both programs end with the per-element ten rounds of the specification — the kernel with the logistic form of
    the weights, the reference with the softmax — and on real inputs the two agree. -/
theorem algebraic : Cert.algebraic_KernelIdeal_ReferenceIdeal := by
  intro m ρ m' ρ' hpre hagree
  refine ⟨fun c => Cert.ArrSpec.arrO (Cert.ArrSpec.cenK (m ((c.tc : Thread Cert.KernelIdeal.nD Cert.KernelIdeal.τ).loc Cert.KernelIdeal.main_arg0))),
    fun c => Cert.ArrSpec.arrC (Cert.ArrSpec.wtsK (m ((c.tc : Thread Cert.KernelIdeal.nD Cert.KernelIdeal.τ).loc Cert.KernelIdeal.main_arg0))),
    Cert.KernelIdeal.KFinal.run m ρ, ?_⟩
  refine (θ_run Cert.ReferenceIdeal.defs _ _).mono (fun _ h c => ?_) (Cert.ReferenceIdeal.RefRun.run (F := Ideal) m' ρ')
  obtain ⟨h1, h2, h3⟩ := h c
  have hX := Cert.Finite.real_of_pre _ (hpre c)
  refine ⟨?_, ?_, h3⟩
  · rw [h1, Cert.ReferenceIdeal.RBridge.resultO_eq, hagree c]
    exact congrArg Cert.ArrSpec.arrO (funext fun B => (Cert.ArrSpec.agree _ hX B).1.symm)
  · rw [h2, Cert.ReferenceIdeal.RBridge.resultC_eq, hagree c]
    exact congrArg Cert.ArrSpec.arrC (funext fun B => (Cert.ArrSpec.agree _ hX B).2.symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
